-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part1 {F : FTy → Type} [FloatOps F] (main_arg4 : FVec F S2x2x128 .f32) (main_v13 : IVec S_ 1) (main_v16 : IVec S2x2x128x128 1) : IVec S_ 1 :=
  let main_c_5 : IVec S_ 1 := constantI S_ 1 1#1
  let main_v17 : IVec S_ 1 := (fun x v => Host.reduce IntOp.andi x v reducesTo_S2x2x128x128_S_d0_1_2_3 h_S_) main_v16 main_c_5
  let main_v18 : IVec S_ 1 := andi main_v13 main_v17
  let main_v19 : FVec F S2x2x128 .f32 := Host.absf main_arg4
  let main_cst_6 : FVec F S_ .f32 := constant S_ .f32 0x7F800000#32
  let main_v20 : FVec F S2x2x128 .f32 := broadcastInDim S2x2x128 ![] bcast_S_S2x2x128 main_cst_6
  let main_v21 : IVec S2x2x128 1 := cmpf .olt main_v19 main_v20
  let main_c_7 : IVec S_ 1 := constantI S_ 1 1#1
  let main_v22 : IVec S_ 1 := (fun x v => Host.reduce IntOp.andi x v reducesTo_S2x2x128_S_d0_1_2 h_S_) main_v21 main_c_7
  let main_v23 : IVec S_ 1 := andi main_v18 main_v22
  main_v23

def fn {F : FTy → Type} [FloatOps F] (main_arg0 : FVec F S100000x128 .f32) (main_arg1 : FVec F S50000x128 .f32) (main_arg2 : FVec F S2x2x128x128 .f32) (main_arg3 : FVec F S2x2x128x128 .f32) (main_arg4 : FVec F S2x2x128 .f32) (main_arg5 : IVec S800000 32) (main_arg6 : IVec S800000 32) (main_arg7 : IVec S800000 32) (main_arg8 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x2x128x128 .f32 := Host.absf main_arg2
  let main_cst_2 : FVec F S_ .f32 := constant S_ .f32 0x7F800000#32
  let main_v10 : FVec F S2x2x128x128 .f32 := broadcastInDim S2x2x128x128 ![] bcast_S_S2x2x128x128 main_cst_2
  let main_v11 : IVec S2x2x128x128 1 := cmpf .olt main_v9 main_v10
  let main_c_3 : IVec S_ 1 := constantI S_ 1 1#1
  let main_v12 : IVec S_ 1 := (fun x v => Host.reduce IntOp.andi x v reducesTo_S2x2x128x128_S_d0_1_2_3 h_S_) main_v11 main_c_3
  let main_v13 : IVec S_ 1 := andi main_v8 main_v12
  let main_v14 : FVec F S2x2x128x128 .f32 := Host.absf main_arg3
  let main_cst_4 : FVec F S_ .f32 := constant S_ .f32 0x7F800000#32
  let main_v15 : FVec F S2x2x128x128 .f32 := broadcastInDim S2x2x128x128 ![] bcast_S_S2x2x128x128 main_cst_4
  let main_v16 : IVec S2x2x128x128 1 := cmpf .olt main_v14 main_v15
  fn_part1 (F := F) main_arg4 main_v13 main_v16
-- ==== Kernel.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 199
  | .vmem => 36
  | .smem => 0
  | _ => 0

abbrev hbmTy0_0 (i : Nat) : BufTy := match i % 128 with
  | 0 => ⟨S100000x128, .f32⟩
  | 1 => ⟨S50000x128, .f32⟩
  | 2 => ⟨S2x2x128x128, .f32⟩
  | 3 => ⟨S2x2x128x128, .f32⟩
  | 4 => ⟨S2x2x128, .f32⟩
  | 5 => ⟨S800000, .i32⟩
  | 6 => ⟨S800000, .i32⟩
  | 7 => ⟨S800000, .i32⟩
  | 8 => ⟨S800000, .i32⟩
  | 9 => ⟨S2x2x128x128, .f32⟩
  | 10 => ⟨S2x2x128x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S1, .i32⟩
  | 20 => ⟨S_, .i32⟩
  | 21 => ⟨S800000x1, .i32⟩
  | 22 => ⟨S800000x1, .i1⟩
  | 23 => ⟨S1x1, .i32⟩
  | 24 => ⟨S800000x1, .i32⟩
  | 25 => ⟨S800000x1, .i1⟩
  | 26 => ⟨S800000x1, .i1⟩
  | 27 => ⟨S_, .i1⟩
  | 28 => ⟨S800000, .i1⟩
  | 29 => ⟨S800000x128, .f32⟩
  | 30 => ⟨S800000x128, .i1⟩
  | 31 => ⟨S_, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x128, .f32⟩
  | 69 => ⟨S800000x128, .i1⟩
  | 70 => ⟨S_, .f32⟩
  | 71 => ⟨S800000x128, .f32⟩
  | 72 => ⟨S800000x128, .f32⟩
  | 73 => ⟨S_, .f32⟩
  | 74 => ⟨S100000x128, .f32⟩
  | 75 => ⟨S800000x1, .i32⟩
  | 76 => ⟨S100000x128, .f32⟩
  | 77 => ⟨S_, .f32⟩
  | 78 => ⟨S800000, .f32⟩
  | 79 => ⟨S_, .f32⟩
  | 80 => ⟨S100000, .f32⟩
  | 81 => ⟨S800000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S1x1x128x128, .f32⟩
  | 90 => ⟨S128x128, .f32⟩
  | 91 => ⟨S1x1x128x128, .f32⟩
  | 92 => ⟨S128x128, .f32⟩
  | 93 => ⟨S1x1x128, .f32⟩
  | 94 => ⟨S128, .f32⟩
  | 95 => ⟨S1x128, .f32⟩
  | 96 => ⟨S50000x128, .f32⟩
  | 97 => ⟨S1x1x128x128, .f32⟩
  | 98 => ⟨S128x128, .f32⟩
  | 99 => ⟨S1x1x128x128, .f32⟩
  | 100 => ⟨S128x128, .f32⟩
  | 101 => ⟨S1x1x128, .f32⟩
  | 102 => ⟨S128, .f32⟩
  | 103 => ⟨S1x128, .f32⟩
  | 104 => ⟨S100000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S1, .i32⟩
  | 114 => ⟨S_, .i32⟩
  | 115 => ⟨S800000x1, .i32⟩
  | 116 => ⟨S800000x1, .i1⟩
  | 117 => ⟨S1x1, .i32⟩
  | 118 => ⟨S800000x1, .i32⟩
  | 119 => ⟨S800000x1, .i1⟩
  | 120 => ⟨S800000x1, .i1⟩
  | 121 => ⟨S_, .i1⟩
  | 122 => ⟨S800000, .i1⟩
  | 123 => ⟨S800000x128, .f32⟩
  | 124 => ⟨S800000x128, .i1⟩
  | 125 => ⟨S_, .f32⟩
  | 126 => ⟨S800000x128, .f32⟩
  | 127 => ⟨S800000x128, .f32⟩
  | _ => ⟨S100000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S800000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S_, .f32⟩
  | 40 => ⟨S100000x128, .f32⟩
  | 41 => ⟨S800000x1, .i32⟩
  | 42 => ⟨S100000x128, .f32⟩
  | 43 => ⟨S_, .f32⟩
  | 44 => ⟨S800000, .f32⟩
  | 45 => ⟨S_, .f32⟩
  | 46 => ⟨S100000, .f32⟩
  | 47 => ⟨S800000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S1x1x128x128, .f32⟩
  | 56 => ⟨S128x128, .f32⟩
  | 57 => ⟨S1x1x128x128, .f32⟩
  | 58 => ⟨S128x128, .f32⟩
  | 59 => ⟨S1x1x128, .f32⟩
  | 60 => ⟨S128, .f32⟩
  | 61 => ⟨S1x128, .f32⟩
  | 62 => ⟨S50000x128, .f32⟩
  | 63 => ⟨S1x1x128x128, .f32⟩
  | 64 => ⟨S128x128, .f32⟩
  | 65 => ⟨S1x1x128x128, .f32⟩
  | 66 => ⟨S128x128, .f32⟩
  | 67 => ⟨S1x1x128, .f32⟩
  | 68 => ⟨S128, .f32⟩
  | 69 => ⟨S1x128, .f32⟩
  | 70 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v15 : Ref sig .tc := ⟨.hbm, 72, rfl⟩
abbrev main_cst_3 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst_4 : Ref sig .tc := ⟨.hbm, 77, rfl⟩
abbrev main_v19 : Ref sig .tc := ⟨.hbm, 78, rfl⟩
abbrev main_cst_5 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_6 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v44 : Ref sig .tc := ⟨.hbm, 127, rfl⟩
abbrev main_cst_7 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_cst_8 : Ref sig .tc := ⟨.hbm, 132, rfl⟩
abbrev main_v48 : Ref sig .tc := ⟨.hbm, 133, rfl⟩
abbrev main_cst_9 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_10 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_call3_c : Ref sig .tc := ⟨.hbm, 144, rfl⟩
abbrev main_call3_v0 : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_c_1 : Ref sig .tc := ⟨.hbm, 152, rfl⟩
abbrev main_call3_c_2 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_c_3 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_call3_cst : Ref sig .tc := ⟨.hbm, 164, rfl⟩
abbrev main_call3_v15 : Ref sig .tc := ⟨.hbm, 165, rfl⟩
abbrev main_v57 : Ref sig .tc := ⟨.hbm, 166, rfl⟩
abbrev main_cst_11 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_cst_12 : Ref sig .tc := ⟨.hbm, 171, rfl⟩
abbrev main_v61 : Ref sig .tc := ⟨.hbm, 172, rfl⟩
abbrev main_cst_13 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_cst_14 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S2x2x128x128_S2x2x128x128_0_1_3_2 : S2x2x128x128.Transposes [0, 1, 3, 2] S2x2x128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S800000 : Shape := ⟨1, ![800000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S100000 : Shape := ⟨1, ![100000]⟩
abbrev S100000x1 : Shape := ⟨2, ![100000, 1]⟩

abbrev nBuf : Space → Nat
  | .hbm => 271
  | .vmem => 0
  | .smem => 0
  | _ => 0

abbrev hbmTy0_0 (i : Nat) : BufTy := match i % 128 with
  | 0 => ⟨S100000x128, .f32⟩
  | 1 => ⟨S50000x128, .f32⟩
  | 2 => ⟨S2x2x128x128, .f32⟩
  | 3 => ⟨S2x2x128x128, .f32⟩
  | 4 => ⟨S2x2x128, .f32⟩
  | 5 => ⟨S800000, .i32⟩
  | 6 => ⟨S800000, .i32⟩
  | 7 => ⟨S800000, .i32⟩
  | 8 => ⟨S800000, .i32⟩
  | 9 => ⟨S1x1x128x128, .f32⟩
  | 10 => ⟨S128x128, .f32⟩
  | 11 => ⟨S1x1x128x128, .f32⟩
  | 12 => ⟨S128x128, .f32⟩
  | 13 => ⟨S1x1x128, .f32⟩
  | 14 => ⟨S128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S128x128, .f32⟩
  | 55 => ⟨S50000x128, .f32⟩
  | 56 => ⟨S128x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x1x128x128, .f32⟩
  | 63 => ⟨S128x128, .f32⟩
  | 64 => ⟨S1x1x128x128, .f32⟩
  | 65 => ⟨S128x128, .f32⟩
  | 66 => ⟨S1x1x128, .f32⟩
  | 67 => ⟨S128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S1, .i32⟩
  | 77 => ⟨S_, .i32⟩
  | 78 => ⟨S800000x1, .i32⟩
  | 79 => ⟨S800000x1, .i1⟩
  | 80 => ⟨S1x1, .i32⟩
  | 81 => ⟨S800000x1, .i32⟩
  | 82 => ⟨S800000x1, .i1⟩
  | 83 => ⟨S800000x1, .i1⟩
  | 84 => ⟨S_, .i1⟩
  | 85 => ⟨S800000, .i1⟩
  | 86 => ⟨S800000x128, .f32⟩
  | 87 => ⟨S800000x128, .i1⟩
  | 88 => ⟨S_, .f32⟩
  | 89 => ⟨S800000x128, .f32⟩
  | 90 => ⟨S800000x128, .f32⟩
  | 91 => ⟨S_, .f32⟩
  | 92 => ⟨S100000x128, .f32⟩
  | 93 => ⟨S800000x1, .i32⟩
  | 94 => ⟨S100000x128, .f32⟩
  | 95 => ⟨S_, .f32⟩
  | 96 => ⟨S800000, .f32⟩
  | 97 => ⟨S_, .f32⟩
  | 98 => ⟨S100000, .f32⟩
  | 99 => ⟨S800000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S128x128, .f32⟩
  | 108 => ⟨S100000x128, .f32⟩
  | 109 => ⟨S128x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S50000x128, .f32⟩
  | 120 => ⟨S50000x128, .f32⟩
  | 121 => ⟨S100000x128, .f32⟩
  | 122 => ⟨S_, .f32⟩
  | 123 => ⟨S100000, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S50000x128, .f32⟩
  | 4 => ⟨S_, .f32⟩
  | 5 => ⟨S50000, .f32⟩
  | 6 => ⟨S50000x1, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S100000x128, .f32⟩
  | 14 => ⟨S50000x128, .f32⟩
  | 15 => ⟨S1x1x128x128, .f32⟩
  | 16 => ⟨S128x128, .f32⟩
  | 17 => ⟨S1x1x128x128, .f32⟩
  | 18 => ⟨S128x128, .f32⟩
  | 19 => ⟨S1x1x128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S128x128, .f32⟩
  | 61 => ⟨S50000x128, .f32⟩
  | 62 => ⟨S128x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x1x128x128, .f32⟩
  | 69 => ⟨S128x128, .f32⟩
  | 70 => ⟨S1x1x128x128, .f32⟩
  | 71 => ⟨S128x128, .f32⟩
  | 72 => ⟨S1x1x128, .f32⟩
  | 73 => ⟨S128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x128, .f32⟩
  | 93 => ⟨S800000x128, .i1⟩
  | 94 => ⟨S_, .f32⟩
  | 95 => ⟨S800000x128, .f32⟩
  | 96 => ⟨S800000x128, .f32⟩
  | 97 => ⟨S_, .f32⟩
  | 98 => ⟨S100000x128, .f32⟩
  | 99 => ⟨S800000x1, .i32⟩
  | 100 => ⟨S100000x128, .f32⟩
  | 101 => ⟨S_, .f32⟩
  | 102 => ⟨S800000, .f32⟩
  | 103 => ⟨S_, .f32⟩
  | 104 => ⟨S100000, .f32⟩
  | 105 => ⟨S800000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S128x128, .f32⟩
  | 114 => ⟨S100000x128, .f32⟩
  | 115 => ⟨S128x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_2 (i : Nat) : BufTy := match i % 128 with
  | 0 => ⟨S100000x1, .f32⟩
  | 1 => ⟨S100000x128, .f32⟩
  | 2 => ⟨S100000x128, .f32⟩
  | 3 => ⟨S50000x128, .f32⟩
  | 4 => ⟨S_, .f32⟩
  | 5 => ⟨S50000, .f32⟩
  | 6 => ⟨S50000x1, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S100000x128, .f32⟩
  | 14 => ⟨S50000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_0 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v33 : Ref sig .tc := ⟨.hbm, 90, rfl⟩
abbrev main_cst_3 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_4 : Ref sig .tc := ⟨.hbm, 95, rfl⟩
abbrev main_v37 : Ref sig .tc := ⟨.hbm, 96, rfl⟩
abbrev main_cst_5 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_6 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_call2_cst : Ref sig .tc := ⟨.hbm, 115, rfl⟩
abbrev main_call2_v0 : Ref sig .tc := ⟨.hbm, 116, rfl⟩
abbrev main_v54 : Ref sig .tc := ⟨.hbm, 117, rfl⟩
abbrev main_call3_cst : Ref sig .tc := ⟨.hbm, 118, rfl⟩
abbrev main_call3_v0 : Ref sig .tc := ⟨.hbm, 119, rfl⟩
abbrev main_v55 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_call4_v2 : Ref sig .tc := ⟨.hbm, 124, rfl⟩
abbrev main_v56 : Ref sig .tc := ⟨.hbm, 125, rfl⟩
abbrev main_cst_7 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_call5_v0 : Ref sig .tc := ⟨.hbm, 131, rfl⟩
abbrev main_call5_cst : Ref sig .tc := ⟨.hbm, 132, rfl⟩
abbrev main_call5_v1 : Ref sig .tc := ⟨.hbm, 133, rfl⟩
abbrev main_call5_v2 : Ref sig .tc := ⟨.hbm, 134, rfl⟩
abbrev main_v61 : Ref sig .tc := ⟨.hbm, 135, rfl⟩
abbrev main_cst_8 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_call6_c : Ref sig .tc := ⟨.hbm, 149, rfl⟩
abbrev main_call6_v0 : Ref sig .tc := ⟨.hbm, 150, rfl⟩
abbrev main_call6_v1 : Ref sig .tc := ⟨.hbm, 151, rfl⟩
abbrev main_call6_c_0 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_c_1 : Ref sig .tc := ⟨.hbm, 157, rfl⟩
abbrev main_call6_c_2 : Ref sig .tc := ⟨.hbm, 158, rfl⟩
abbrev main_call6_v6 : Ref sig .tc := ⟨.hbm, 159, rfl⟩
abbrev main_call6_v7 : Ref sig .tc := ⟨.hbm, 160, rfl⟩
abbrev main_call6_v8 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_c_3 : Ref sig .tc := ⟨.hbm, 165, rfl⟩
abbrev main_call6_v12 : Ref sig .tc := ⟨.hbm, 166, rfl⟩
abbrev main_call6_v13 : Ref sig .tc := ⟨.hbm, 167, rfl⟩
abbrev main_call6_v14 : Ref sig .tc := ⟨.hbm, 168, rfl⟩
abbrev main_call6_cst : Ref sig .tc := ⟨.hbm, 169, rfl⟩
abbrev main_call6_v15 : Ref sig .tc := ⟨.hbm, 170, rfl⟩
abbrev main_v74 : Ref sig .tc := ⟨.hbm, 171, rfl⟩
abbrev main_cst_9 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_cst_10 : Ref sig .tc := ⟨.hbm, 176, rfl⟩
abbrev main_v78 : Ref sig .tc := ⟨.hbm, 177, rfl⟩
abbrev main_cst_11 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_cst_12 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_call7_c : Ref sig .tc := ⟨.hbm, 202, rfl⟩
abbrev main_call7_v0 : Ref sig .tc := ⟨.hbm, 203, rfl⟩
abbrev main_call7_v1 : Ref sig .tc := ⟨.hbm, 204, rfl⟩
abbrev main_call7_c_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_c_1 : Ref sig .tc := ⟨.hbm, 210, rfl⟩
abbrev main_call7_c_2 : Ref sig .tc := ⟨.hbm, 211, rfl⟩
abbrev main_call7_v6 : Ref sig .tc := ⟨.hbm, 212, rfl⟩
abbrev main_call7_v7 : Ref sig .tc := ⟨.hbm, 213, rfl⟩
abbrev main_call7_v8 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_c_3 : Ref sig .tc := ⟨.hbm, 218, rfl⟩
abbrev main_call7_v12 : Ref sig .tc := ⟨.hbm, 219, rfl⟩
abbrev main_call7_v13 : Ref sig .tc := ⟨.hbm, 220, rfl⟩
abbrev main_call7_v14 : Ref sig .tc := ⟨.hbm, 221, rfl⟩
abbrev main_call7_cst : Ref sig .tc := ⟨.hbm, 222, rfl⟩
abbrev main_call7_v15 : Ref sig .tc := ⟨.hbm, 223, rfl⟩
abbrev main_v101 : Ref sig .tc := ⟨.hbm, 224, rfl⟩
abbrev main_cst_13 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_cst_14 : Ref sig .tc := ⟨.hbm, 229, rfl⟩
abbrev main_v105 : Ref sig .tc := ⟨.hbm, 230, rfl⟩
abbrev main_cst_15 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_cst_16 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_call8_v0 : Ref sig .tc := ⟨.hbm, 249, rfl⟩
abbrev main_call8_cst : Ref sig .tc := ⟨.hbm, 250, rfl⟩
abbrev main_call8_v1 : Ref sig .tc := ⟨.hbm, 251, rfl⟩
abbrev main_call8_v2 : Ref sig .tc := ⟨.hbm, 252, rfl⟩
abbrev main_v122 : Ref sig .tc := ⟨.hbm, 253, rfl⟩
abbrev main_cst_17 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_call9_v0 : Ref sig .tc := ⟨.hbm, 259, rfl⟩
abbrev main_call9_cst : Ref sig .tc := ⟨.hbm, 260, rfl⟩
abbrev main_call9_v1 : Ref sig .tc := ⟨.hbm, 261, rfl⟩
abbrev main_call9_v2 : Ref sig .tc := ⟨.hbm, 262, rfl⟩
abbrev main_v127 : Ref sig .tc := ⟨.hbm, 263, rfl⟩
abbrev main_cst_18 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_v132 : Ref sig .tc := ⟨.hbm, 269, rfl⟩
abbrev main_v133 : Ref sig .tc := ⟨.hbm, 270, rfl⟩

abbrev nD : Nat := 1
abbrev τ : Topo := Topo.v7x

variable {F : FTy → Type} [FloatOps F]

class Facts₀ : Prop where
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x2x128x128_S1x1x128x128_0_1_0_0 : S2x2x128x128.Slices ![0, 1, 0, 0] S1x1x128x128
  slices_S2x2x128_S1x1x128_0_1_0 : S2x2x128.Slices ![0, 1, 0] S1x1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  reducesTo_S50000x128_S50000_d1 : S50000x128.ReducesTo [1] S50000
  bcast_S_S50000x1 : S_.BroadcastsInDim S50000x1 (![] : Fin 0 → Fin S50000x1.rank)
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run with its two result arrays named.

  The program is fifteen segments — stretches of host operations and four kernel regions — and the contents of
  every buffer at each segment boundary is a fold from the launch memory (`Gen.W0` … `Gen.W15`). Every weakly fair
  execution terminates with every unscoped buffer at the last boundary's contents: in particular the two results
  and the nine argument arrays, the arguments being what they were at launch.
-/
import proofs.«118446_j88244398064001_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result arrays at the last
    boundary's contents and the argument arrays as launched. -/
theorem run_results : θ_run defs (onTc (τ := τ) (main (F := F))) ⟨m, fun _ => 0, ρ⟩ (fun r => ∀ c : Dev nD,
      r.2.mem ((c.tc : Thread nD τ).loc main_v85) = W15 m ρ c (Proc.devRef .tc main_v85)
      ∧ r.2.mem ((c.tc : Thread nD τ).loc main_v77) = W15 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v85 (by decide)),
       h c _ (mem_uc main_v77 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Run

end
-- ==== Proof.Spec.lean ====
/-
  One layer of the two-node-type message-passing network, read row by row on the extended reals.

  A node's new feature row is a function of its aggregated neighbour row `mrow`, its own row `xrow`, the two
  weight matrices as the products use them (`wl k c`, `wr k c`: contraction index first) and the bias:
  the affine part `lin`, an activation `φ` (the maximum with zero in a hidden layer, the identity in the last),
  the division by the row's Euclidean norm floored at the f32 word of 1e-12, and the skip sum with the node's
  own row. Both programs compute this row function at every row of both node types; nothing here depends on
  how the rows are tiled or on the order of a sum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The hidden layers' activation: the maximum with zero, zero spelt as the f32 word both programs carry. -/
def relu (x : EReal) : EReal := max x (Ideal.ofBits .f32 0x00000000#32)

/-- The affine part of one output entry: the neighbour row against column `c` of the first matrix, the node's
    own row against column `c` of the second, plus the bias. -/
def lin (mrow xrow : Fin 128 → EReal) (wl wr : Fin 128 → Fin 128 → EReal) (b : Fin 128 → EReal) (c : Fin 128) : EReal :=
  (∑ k : Fin 128, mrow k * wl k c) + (∑ k : Fin 128, xrow k * wr k c) + b c

/-- The squared Euclidean norm of the activated row. -/
def sumsq (φ : EReal → EReal) (mrow xrow : Fin 128 → EReal) (wl wr : Fin 128 → Fin 128 → EReal) (b : Fin 128 → EReal) : EReal :=
  ∑ c : Fin 128, φ (lin mrow xrow wl wr b c) * φ (lin mrow xrow wl wr b c)

/-- One entry of the new row: the activated affine part over the row's norm (floored at the word of 1e-12), plus
    the node's own entry. -/
def row (φ : EReal → EReal) (mrow xrow : Fin 128 → EReal) (wl wr : Fin 128 → Fin 128 → EReal) (b : Fin 128 → EReal)
    (c : Fin 128) : EReal :=
  Ideal.div (φ (lin mrow xrow wl wr b c))
      (max (Ideal.sqrt (sumsq φ mrow xrow wl wr b)) (Ideal.ofBits .f32 0x2B8CBCCC#32))
    + xrow c

/-- The layer on a whole array of `N` rows: entry `(r, c)` is `row` of row `r` of the two arrays. -/
def rows (φ : EReal → EReal) {N : Nat} (mean xroot : (⟨2, ![N, 128]⟩ : Shape).Idx → EReal)
    (wl wr : Fin 128 → Fin 128 → EReal) (b : Fin 128 → EReal) : (⟨2, ![N, 128]⟩ : Shape).Idx → EReal :=
  fun y => row φ (fun k => mean (ix2 (y 0) k)) (fun k => xroot (ix2 (y 0) k)) wl wr b (y 1)

theorem rows_apply (φ : EReal → EReal) {N : Nat} (mean xroot : (⟨2, ![N, 128]⟩ : Shape).Idx → EReal)
    (wl wr : Fin 128 → Fin 128 → EReal) (b : Fin 128 → EReal) (r : Fin N) (c : Fin 128) :
    rows φ mean xroot wl wr b (ix2 r c) = row φ (fun k => mean (ix2 r k)) (fun k => xroot (ix2 r k)) wl wr b c := rfl

end Cert.Spec

end
-- ==== Proof.KAgg.lean ====
/-
  The message-passing step both programs share, spelt as the kernel program's host operations spell it: the rows of a
  node table taken at the edges' source ends, their sums and counts scattered to the edges' target ends, the mean; and
  the weight blocks and bias rows as the kernel program cuts them out of the parameter arrays.
-/
import proofs.«118446_j88244398064001_1_alg».proof.Proof.Gen.KernelIdeal
import Idealize.ShloMosaic.PureOps.Ideal

noncomputable section

namespace Cert.KernelIdeal.Agg

open Cert.KernelIdeal Cert.KernelIdeal.Gen
open Idealize.ShloMosaic

/-- A list of 800000 node numbers (edge endpoints). -/
abbrev Ends := (⟨S800000, .i32⟩ : BufTy).Contents (Elt Ideal)

/-- Rows of the 100000-row table taken at the edge endpoints: a negative number wraps round once, a number still
    out of range gives a row of the fill word. -/
def takeG (x : FVec Ideal S100000x128 .f32) (idx : Ends) : FVec Ideal S800000x128 .f32 :=
  let wrapped : Ends := select (cmpi .slt idx (broadcastInDim S800000 ![] bcast_S_S800000 (constantI S_ 32 0#32)))
      (addi idx (broadcastInDim S800000 ![] bcast_S_S800000 (constantI S_ 32 100000#32))) idx
  let col := broadcastInDim S800000x1 ![0] bcast_S800000_S800000x1_0 wrapped
  let ok := Host.reduce IntOp.andi
      (andi (cmpi .sge col (broadcastInDim S800000x1 ![] bcast_S_S800000x1 (constantI S_ 32 0#32)))
            (cmpi .sle col (broadcastInDim S800000x1 ![0, 1] bcast_S1x1_S800000x1_0_1 (broadcastInDim S1x1 ![1] bcast_S1_S1x1_1 (constantI S1 32 99999#32)))))
      (constantI S_ 1 1#1) reducesTo_S800000x1_S800000_d1 h_S_
  select (broadcastInDim S800000x128 ![0] bcast_S800000_S800000x128_0 ok)
    (Host.gather gather_S100000x128_S800000x1_S800000x128_1_0_n_n_0_1_1128 x col)
    (broadcastInDim S800000x128 ![] bcast_S_S800000x128 (constant (F := Ideal) S_ .f32 0x7FC00000#32))

/-- The same for the 50000-row table. -/
def takeD (x : FVec Ideal S50000x128 .f32) (idx : Ends) : FVec Ideal S800000x128 .f32 :=
  let wrapped : Ends := select (cmpi .slt idx (broadcastInDim S800000 ![] bcast_S_S800000 (constantI S_ 32 0#32)))
      (addi idx (broadcastInDim S800000 ![] bcast_S_S800000 (constantI S_ 32 50000#32))) idx
  let col := broadcastInDim S800000x1 ![0] bcast_S800000_S800000x1_0 wrapped
  let ok := Host.reduce IntOp.andi
      (andi (cmpi .sge col (broadcastInDim S800000x1 ![] bcast_S_S800000x1 (constantI S_ 32 0#32)))
            (cmpi .sle col (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_
  select (broadcastInDim S800000x128 ![0] bcast_S800000_S800000x128_0 ok)
    (Host.gather gather_S50000x128_S800000x1_S800000x128_1_0_n_n_0_1_1128 x col)
    (broadcastInDim S800000x128 ![] bcast_S_S800000x128 (constant (F := Ideal) S_ .f32 0x7FC00000#32))

/-- The mean of the messages arriving at each of the 50000 nodes: their sum over the edges ending there, over the
    number of such edges floored at one. -/
def meanD (msg : FVec Ideal S800000x128 .f32) (dst : Ends) : FVec Ideal S50000x128 .f32 :=
  Host.divf (F := Ideal)
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) msg)
    (broadcastInDim S50000x128 ![0, 1] bcast_S50000x1_S50000x128_0_1 (broadcastInDim S50000x1 ![0] bcast_S50000_S50000x1_0
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32)))))

/-- The same at each of the 100000 nodes. -/
def meanG (msg : FVec Ideal S800000x128 .f32) (dst : Ends) : FVec Ideal S100000x128 .f32 :=
  Host.divf (F := Ideal)
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst) msg)
    (broadcastInDim S100000x128 ![0, 1] bcast_S100000x1_S100000x128_0_1 (broadcastInDim S100000x1 ![0] bcast_S100000_S100000x1_0
      (maximumf
        (Host.scatterAdd scatter_S100000_S800000x1_S800000_n_0_0_1
          (broadcastInDim S100000 ![] bcast_S_S100000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S100000 ![] bcast_S_S100000 (constant (F := Ideal) S_ .f32 0x3F800000#32)))))

/-- A weight block as the kernel program hands it to a region: the four-axis array with its last two axes swapped,
    the block cut out, the unit axes dropped. -/
def kwT (off : Fin 4 → Nat) (h : S2x2x128x128.Slices off S1x1x128x128) (W : FVec Ideal S2x2x128x128 .f32) : FVec Ideal S128x128 .f32 :=
  shapeCast S128x128 (extractStridedSlice S1x1x128x128 off (transpose S2x2x128x128 [0, 1, 3, 2] W transposes_S2x2x128x128_S2x2x128x128_0_1_3_2) h)
    shapeCasts_S1x1x128x128_S128x128

/-- A bias row as the kernel program hands it to a region. -/
def kbT (off : Fin 3 → Nat) (h : S2x2x128.Slices off S1x1x128) (B : FVec Ideal S2x2x128 .f32) : FVec Ideal S1x128 .f32 :=
  shapeCast S1x128 (shapeCast S128 (extractStridedSlice S1x1x128 off B h) shapeCasts_S1x1x128_S128) shapeCasts_S128_S1x128

end Cert.KernelIdeal.Agg

end
-- ==== Proof.KEntry.lean ====
/-
  What each region of the kernel program is entered with, read back to the launch.

  Between the launch and a region's entry the program runs stretches of host operations: the two weight arrays are
  transposed once, each layer's blocks and bias row are cut out of them, and the message-passing step (rows taken at
  the edges' source ends, summed and counted at the target ends, the mean) fills the aggregated-neighbour array. Each
  buffer a region reads is written at most once on the way; unfolding the stretch and reading every operation's result
  at its own buffer, and every other buffer as it was, leaves the operations' functions applied to the arguments as
  launched — or, in the second layer, to the two arrays the first layer's regions left. A region itself changes only
  its own arrays, so every other buffer crosses it unchanged.
-/
import proofs.«118446_j88244398064001_1_alg».proof.Proof.Gen.KernelIdeal.Frame
import proofs.«118446_j88244398064001_1_alg».proof.Proof.KAgg
import Idealize.ShloMosaic.Lib.StableHlo.Run
import Idealize.ShloMosaic.PureOps.Ideal

set_option maxRecDepth 16384

noncomputable section

namespace Cert.KernelIdeal.Entry

open Cert.KernelIdeal Cert.KernelIdeal.Gen Cert.KernelIdeal.Agg
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array's launch contents on core `c`. -/
abbrev lc (b : Ref sig .tc) : Buf (Elt Ideal) ((c.tc : Thread nD τ).loc b) := m ((c.tc : Thread nD τ).loc b)

/-! ## Up to region 0's entry: five stretches of host operations over the launch contents

Every buffer read here is written at most once on the way, by an operation whose operands are again such buffers or
arguments; unfolding the fold and reading each operation's result at its own buffer, and any other buffer as it was,
leaves the operations' functions applied to the launch contents. -/

/-- Unfolds the boundaries up to region 0's entry down to the launch contents. -/
local macro "open_to_launch" : tactic =>
  `(tactic| dsimp only [W5, W4, W3, W2, W1, W0, hostOps0_4, hostOps0_3, hostOps0_2, hostOps0_1, hostOps0])

theorem e0_root : W5 m ρ c (Proc.devRef .tc main_arg1) = (lc m c main_arg1) := by
  open_to_launch
  after_results_simp
theorem e0_wl : W5 m ρ c (Proc.devRef .tc main_v29) = kwT ![0, 0, 0, 0] slices_S2x2x128x128_S1x1x128x128_0_0_0_0 (lc m c main_arg2) := by
  open_to_launch
  after_results_simp
  rfl
theorem e0_wr : W5 m ρ c (Proc.devRef .tc main_v31) = kwT ![0, 0, 0, 0] slices_S2x2x128x128_S1x1x128x128_0_0_0_0 (lc m c main_arg3) := by
  open_to_launch
  after_results_simp
  rfl
theorem e0_b : W5 m ρ c (Proc.devRef .tc main_v34) = kbT ![0, 0, 0] slices_S2x2x128_S1x1x128_0_0_0 (lc m c main_arg4) := by
  open_to_launch
  after_results_simp
  rfl

/-! What the later regions still need of this stretch: the second node type's mean, the two transposed weight
    arrays, and the arguments as launched. -/

theorem W5_v0 : W5 m ρ c (Proc.devRef .tc main_v0)
    = (transpose S2x2x128x128 [0, 1, 3, 2] (lc m c main_arg2) transposes_S2x2x128x128_S2x2x128x128_0_1_3_2 : FVec Ideal S2x2x128x128 .f32) := by
  open_to_launch
  after_results_simp
theorem W5_v1 : W5 m ρ c (Proc.devRef .tc main_v1)
    = (transpose S2x2x128x128 [0, 1, 3, 2] (lc m c main_arg3) transposes_S2x2x128x128_S2x2x128x128_0_1_3_2 : FVec Ideal S2x2x128x128 .f32) := by
  open_to_launch
  after_results_simp
theorem W5_arg0 : W5 m ρ c (Proc.devRef .tc main_arg0) = lc m c main_arg0 := by
  open_to_launch
  after_results_simp
theorem W5_arg4 : W5 m ρ c (Proc.devRef .tc main_arg4) = lc m c main_arg4 := by
  open_to_launch
  after_results_simp
theorem W5_arg5 : W5 m ρ c (Proc.devRef .tc main_arg5) = lc m c main_arg5 := by
  open_to_launch
  after_results_simp
theorem W5_arg6 : W5 m ρ c (Proc.devRef .tc main_arg6) = lc m c main_arg6 := by
  open_to_launch
  after_results_simp
theorem W5_arg7 : W5 m ρ c (Proc.devRef .tc main_arg7) = lc m c main_arg7 := by
  open_to_launch
  after_results_simp
theorem W5_arg8 : W5 m ρ c (Proc.devRef .tc main_arg8) = lc m c main_arg8 := by
  open_to_launch
  after_results_simp

/-! ## The message-passing stretches, one at a time

The rows taken at the edges' source ends come out of a module-local function whose operations carry typed references;
each operation's result is moved to its buffer's own type and back on the next read. Read through the typed
references on both sides, those moves cancel in pairs and what is left is the function of the table and the endpoint
list, whatever the buffers held before. The mean's stretch is plain: the operations' functions applied in order. -/

/-- Transport along an equation and back is the identity. -/
theorem cast_cast_id {α β : Type} (h₁ : β = α) (h₂ : α = β) (v : α) : cast h₁ (cast h₂ v) = v := by
  subst h₂; rfl

theorem take0_typed (V : Valuation τ sig (Elt Ideal)) :
    (StableHlo.TRef.of main_v2 : StableHlo.TRef sig ⟨S800000x128, .f32⟩).ofBuf (StableHlo.after hostOps0_1 V (Proc.devRef .tc main_v2))
      = takeG ((StableHlo.TRef.of main_arg0 : StableHlo.TRef sig ⟨S100000x128, .f32⟩).ofBuf (V (Proc.devRef .tc main_arg0)))
          ((StableHlo.TRef.of main_arg5 : StableHlo.TRef sig ⟨S800000, .i32⟩).ofBuf (V (Proc.devRef .tc main_arg5))) := by
  dsimp only [hostOps0_1]
  after_results_simp
  simp only [cast_cast_id]
  rfl
theorem take0 (V : Valuation τ sig (Elt Ideal)) :
    StableHlo.after hostOps0_1 V (Proc.devRef .tc main_v2) = takeG (V (Proc.devRef .tc main_arg0)) (V (Proc.devRef .tc main_arg5)) :=
  take0_typed V

theorem take1_typed (V : Valuation τ sig (Elt Ideal)) :
    (StableHlo.TRef.of main_v15 : StableHlo.TRef sig ⟨S800000x128, .f32⟩).ofBuf (StableHlo.after hostOps0_3 V (Proc.devRef .tc main_v15))
      = takeD ((StableHlo.TRef.of main_arg1 : StableHlo.TRef sig ⟨S50000x128, .f32⟩).ofBuf (V (Proc.devRef .tc main_arg1)))
          ((StableHlo.TRef.of main_arg7 : StableHlo.TRef sig ⟨S800000, .i32⟩).ofBuf (V (Proc.devRef .tc main_arg7))) := by
  dsimp only [hostOps0_3]
  after_results_simp
  simp only [cast_cast_id]
  rfl
theorem take1 (V : Valuation τ sig (Elt Ideal)) :
    StableHlo.after hostOps0_3 V (Proc.devRef .tc main_v15) = takeD (V (Proc.devRef .tc main_arg1)) (V (Proc.devRef .tc main_arg7)) :=
  take1_typed V

theorem mean0 (V : Valuation τ sig (Elt Ideal)) :
    StableHlo.after hostOps0_2 V (Proc.devRef .tc main_v14) = meanD (V (Proc.devRef .tc main_v2)) (V (Proc.devRef .tc main_arg6)) := by
  dsimp only [hostOps0_2]
  after_results_simp
  rfl

theorem mean1 (V : Valuation τ sig (Elt Ideal)) :
    StableHlo.after hostOps0_4 V (Proc.devRef .tc main_v27) = meanG (V (Proc.devRef .tc main_v15)) (V (Proc.devRef .tc main_arg8)) := by
  dsimp only [hostOps0_4]
  after_results_simp
  rfl

/-! The arguments these stretches read, as launched. -/

theorem W1_arg0 : W1 m ρ c (Proc.devRef .tc main_arg0) = lc m c main_arg0 := by
  dsimp only [W1, W0, hostOps0]
  after_results_simp
theorem W1_arg5 : W1 m ρ c (Proc.devRef .tc main_arg5) = lc m c main_arg5 := by
  dsimp only [W1, W0, hostOps0]
  after_results_simp
theorem W2_arg6 : W2 m ρ c (Proc.devRef .tc main_arg6) = lc m c main_arg6 := by
  dsimp only [W2, W1, W0, hostOps0_1, hostOps0]
  after_results_simp
theorem W3_arg1 : W3 m ρ c (Proc.devRef .tc main_arg1) = lc m c main_arg1 := by
  dsimp only [W3, W2, W1, W0, hostOps0_2, hostOps0_1, hostOps0]
  after_results_simp
theorem W3_arg7 : W3 m ρ c (Proc.devRef .tc main_arg7) = lc m c main_arg7 := by
  dsimp only [W3, W2, W1, W0, hostOps0_2, hostOps0_1, hostOps0]
  after_results_simp
theorem W4_arg8 : W4 m ρ c (Proc.devRef .tc main_arg8) = lc m c main_arg8 := by
  dsimp only [W4, W3, W2, W1, W0, hostOps0_3, hostOps0_2, hostOps0_1, hostOps0]
  after_results_simp

theorem e0_mean : W5 m ρ c (Proc.devRef .tc main_v14) = meanD (takeG (lc m c main_arg0) (lc m c main_arg5)) (lc m c main_arg6) :=
  calc W5 m ρ c (Proc.devRef .tc main_v14)
    _ = W3 m ρ c (Proc.devRef .tc main_v14) := by
          dsimp only [W5, W4, hostOps0_4, hostOps0_3]
          after_results_simp
    _ = meanD (W2 m ρ c (Proc.devRef .tc main_v2)) (W2 m ρ c (Proc.devRef .tc main_arg6)) := mean0 (W2 m ρ c)
    _ = meanD (takeG (W1 m ρ c (Proc.devRef .tc main_arg0)) (W1 m ρ c (Proc.devRef .tc main_arg5))) (W2 m ρ c (Proc.devRef .tc main_arg6)) :=
          congrArg (fun u => meanD u (W2 m ρ c (Proc.devRef .tc main_arg6))) (take0 (W1 m ρ c))
    _ = meanD (takeG (lc m c main_arg0) (lc m c main_arg5)) (lc m c main_arg6) := by
          rw [W1_arg0 m ρ c, W1_arg5 m ρ c, W2_arg6 m ρ c]

theorem W5_v27 : W5 m ρ c (Proc.devRef .tc main_v27) = meanG (takeD (lc m c main_arg1) (lc m c main_arg7)) (lc m c main_arg8) :=
  calc W5 m ρ c (Proc.devRef .tc main_v27)
    _ = meanG (W4 m ρ c (Proc.devRef .tc main_v15)) (W4 m ρ c (Proc.devRef .tc main_arg8)) := mean1 (W4 m ρ c)
    _ = meanG (takeD (W3 m ρ c (Proc.devRef .tc main_arg1)) (W3 m ρ c (Proc.devRef .tc main_arg7))) (W4 m ρ c (Proc.devRef .tc main_arg8)) :=
          congrArg (fun u => meanG u (W4 m ρ c (Proc.devRef .tc main_arg8))) (take1 (W3 m ρ c))
    _ = meanG (takeD (lc m c main_arg1) (lc m c main_arg7)) (lc m c main_arg8) := by
          rw [W3_arg1 m ρ c, W3_arg7 m ρ c, W4_arg8 m ρ c]

/-! ## Across region 0, then up to region 1's entry

Region 0's pipeline writes its own arrays only; every other buffer leaves the region as it entered. -/

theorem W6_v27 : W6 m ρ c (Proc.devRef .tc main_v27) = meanG (takeD (lc m c main_arg1) (lc m c main_arg7)) (lc m c main_arg8) :=
  (W6_of_ne m ρ c main_v27 (by decide)).trans (W5_v27 m ρ c)
theorem W6_v0 : W6 m ρ c (Proc.devRef .tc main_v0) = (transpose S2x2x128x128 [0, 1, 3, 2] (lc m c main_arg2) transposes_S2x2x128x128_S2x2x128x128_0_1_3_2 : FVec Ideal S2x2x128x128 .f32) :=
  (W6_of_ne m ρ c main_v0 (by decide)).trans (W5_v0 m ρ c)
theorem W6_v1 : W6 m ρ c (Proc.devRef .tc main_v1) = (transpose S2x2x128x128 [0, 1, 3, 2] (lc m c main_arg3) transposes_S2x2x128x128_S2x2x128x128_0_1_3_2 : FVec Ideal S2x2x128x128 .f32) :=
  (W6_of_ne m ρ c main_v1 (by decide)).trans (W5_v1 m ρ c)
theorem W6_arg0 : W6 m ρ c (Proc.devRef .tc main_arg0) = lc m c main_arg0 :=
  (W6_of_ne m ρ c main_arg0 (by decide)).trans (W5_arg0 m ρ c)
theorem W6_arg4 : W6 m ρ c (Proc.devRef .tc main_arg4) = lc m c main_arg4 :=
  (W6_of_ne m ρ c main_arg4 (by decide)).trans (W5_arg4 m ρ c)
theorem W6_arg5 : W6 m ρ c (Proc.devRef .tc main_arg5) = lc m c main_arg5 :=
  (W6_of_ne m ρ c main_arg5 (by decide)).trans (W5_arg5 m ρ c)
theorem W6_arg6 : W6 m ρ c (Proc.devRef .tc main_arg6) = lc m c main_arg6 :=
  (W6_of_ne m ρ c main_arg6 (by decide)).trans (W5_arg6 m ρ c)
theorem W6_arg7 : W6 m ρ c (Proc.devRef .tc main_arg7) = lc m c main_arg7 :=
  (W6_of_ne m ρ c main_arg7 (by decide)).trans (W5_arg7 m ρ c)
theorem W6_arg8 : W6 m ρ c (Proc.devRef .tc main_arg8) = lc m c main_arg8 :=
  (W6_of_ne m ρ c main_arg8 (by decide)).trans (W5_arg8 m ρ c)

/-- Unfolds region 1's entry down to region 0's exit. -/
local macro "open_to_exit0" : tactic => `(tactic| dsimp only [W7, hostOps1])

theorem e1_mean : W7 m ρ c (Proc.devRef .tc main_v27) = meanG (takeD (lc m c main_arg1) (lc m c main_arg7)) (lc m c main_arg8) := by
  open_to_exit0
  after_results_simp
  exact W6_v27 m ρ c
theorem e1_root : W7 m ρ c (Proc.devRef .tc main_arg0) = (lc m c main_arg0) := by
  open_to_exit0
  after_results_simp
  exact W6_arg0 m ρ c
theorem e1_wl : W7 m ρ c (Proc.devRef .tc main_v37) = kwT ![0, 1, 0, 0] slices_S2x2x128x128_S1x1x128x128_0_1_0_0 (lc m c main_arg2) := by
  open_to_exit0
  after_results_simp
  rw [W6_v0 m ρ c]
  rfl
theorem e1_wr : W7 m ρ c (Proc.devRef .tc main_v39) = kwT ![0, 1, 0, 0] slices_S2x2x128x128_S1x1x128x128_0_1_0_0 (lc m c main_arg3) := by
  open_to_exit0
  after_results_simp
  rw [W6_v1 m ρ c]
  rfl
theorem e1_b : W7 m ρ c (Proc.devRef .tc main_v42) = kbT ![0, 1, 0] slices_S2x2x128_S1x1x128_0_1_0 (lc m c main_arg4) := by
  open_to_exit0
  after_results_simp
  rw [W6_arg4 m ρ c]
  rfl

/-! What the second layer still needs at region 1's entry. -/

theorem W7_v35 : W7 m ρ c (Proc.devRef .tc main_v35) = W6 m ρ c (Proc.devRef .tc main_v35) := by
  open_to_exit0
  after_results_simp
theorem W7_v0 : W7 m ρ c (Proc.devRef .tc main_v0) = (transpose S2x2x128x128 [0, 1, 3, 2] (lc m c main_arg2) transposes_S2x2x128x128_S2x2x128x128_0_1_3_2 : FVec Ideal S2x2x128x128 .f32) := by
  open_to_exit0
  after_results_simp
  exact W6_v0 m ρ c
theorem W7_v1 : W7 m ρ c (Proc.devRef .tc main_v1) = (transpose S2x2x128x128 [0, 1, 3, 2] (lc m c main_arg3) transposes_S2x2x128x128_S2x2x128x128_0_1_3_2 : FVec Ideal S2x2x128x128 .f32) := by
  open_to_exit0
  after_results_simp
  exact W6_v1 m ρ c
theorem W7_arg4 : W7 m ρ c (Proc.devRef .tc main_arg4) = lc m c main_arg4 := by
  open_to_exit0
  after_results_simp
  exact W6_arg4 m ρ c
theorem W7_arg5 : W7 m ρ c (Proc.devRef .tc main_arg5) = lc m c main_arg5 := by
  open_to_exit0
  after_results_simp
  exact W6_arg5 m ρ c
theorem W7_arg6 : W7 m ρ c (Proc.devRef .tc main_arg6) = lc m c main_arg6 := by
  open_to_exit0
  after_results_simp
  exact W6_arg6 m ρ c
theorem W7_arg7 : W7 m ρ c (Proc.devRef .tc main_arg7) = lc m c main_arg7 := by
  open_to_exit0
  after_results_simp
  exact W6_arg7 m ρ c
theorem W7_arg8 : W7 m ρ c (Proc.devRef .tc main_arg8) = lc m c main_arg8 := by
  open_to_exit0
  after_results_simp
  exact W6_arg8 m ρ c

/-! ## Across region 1, then up to region 2's entry -/

theorem W8_v35 : W8 m ρ c (Proc.devRef .tc main_v35) = W6 m ρ c (Proc.devRef .tc main_v35) :=
  (W8_of_ne m ρ c main_v35 (by decide)).trans (W7_v35 m ρ c)
theorem W8_v0 : W8 m ρ c (Proc.devRef .tc main_v0) = (transpose S2x2x128x128 [0, 1, 3, 2] (lc m c main_arg2) transposes_S2x2x128x128_S2x2x128x128_0_1_3_2 : FVec Ideal S2x2x128x128 .f32) :=
  (W8_of_ne m ρ c main_v0 (by decide)).trans (W7_v0 m ρ c)
theorem W8_v1 : W8 m ρ c (Proc.devRef .tc main_v1) = (transpose S2x2x128x128 [0, 1, 3, 2] (lc m c main_arg3) transposes_S2x2x128x128_S2x2x128x128_0_1_3_2 : FVec Ideal S2x2x128x128 .f32) :=
  (W8_of_ne m ρ c main_v1 (by decide)).trans (W7_v1 m ρ c)
theorem W8_arg4 : W8 m ρ c (Proc.devRef .tc main_arg4) = lc m c main_arg4 :=
  (W8_of_ne m ρ c main_arg4 (by decide)).trans (W7_arg4 m ρ c)
theorem W8_arg5 : W8 m ρ c (Proc.devRef .tc main_arg5) = lc m c main_arg5 :=
  (W8_of_ne m ρ c main_arg5 (by decide)).trans (W7_arg5 m ρ c)
theorem W8_arg6 : W8 m ρ c (Proc.devRef .tc main_arg6) = lc m c main_arg6 :=
  (W8_of_ne m ρ c main_arg6 (by decide)).trans (W7_arg6 m ρ c)
theorem W8_arg7 : W8 m ρ c (Proc.devRef .tc main_arg7) = lc m c main_arg7 :=
  (W8_of_ne m ρ c main_arg7 (by decide)).trans (W7_arg7 m ρ c)
theorem W8_arg8 : W8 m ρ c (Proc.devRef .tc main_arg8) = lc m c main_arg8 :=
  (W8_of_ne m ρ c main_arg8 (by decide)).trans (W7_arg8 m ρ c)

/-- Unfolds region 2's entry down to region 1's exit. -/
local macro "open_to_exit1" : tactic =>
  `(tactic| dsimp only [W12, W11, W10, W9, hostOps2_3, hostOps2_2, hostOps2_1, hostOps2])

theorem e2_root : W12 m ρ c (Proc.devRef .tc main_v35) = W6 m ρ c (Proc.devRef .tc main_v35) := by
  open_to_exit1
  after_results_simp
  exact W8_v35 m ρ c
theorem e2_wl : W12 m ρ c (Proc.devRef .tc main_v71) = kwT ![1, 0, 0, 0] slices_S2x2x128x128_S1x1x128x128_1_0_0_0 (lc m c main_arg2) := by
  open_to_exit1
  after_results_simp
  rw [W8_v0 m ρ c]
  rfl
theorem e2_wr : W12 m ρ c (Proc.devRef .tc main_v73) = kwT ![1, 0, 0, 0] slices_S2x2x128x128_S1x1x128x128_1_0_0_0 (lc m c main_arg3) := by
  open_to_exit1
  after_results_simp
  rw [W8_v1 m ρ c]
  rfl
theorem e2_b : W12 m ρ c (Proc.devRef .tc main_v76) = kbT ![1, 0, 0] slices_S2x2x128_S1x1x128_1_0_0 (lc m c main_arg4) := by
  open_to_exit1
  after_results_simp
  rw [W8_arg4 m ρ c]
  rfl

/-! What region 3 still needs at region 2's entry. -/

theorem W12_v43 : W12 m ρ c (Proc.devRef .tc main_v43) = W8 m ρ c (Proc.devRef .tc main_v43) := by
  open_to_exit1
  after_results_simp
theorem W12_v0 : W12 m ρ c (Proc.devRef .tc main_v0) = (transpose S2x2x128x128 [0, 1, 3, 2] (lc m c main_arg2) transposes_S2x2x128x128_S2x2x128x128_0_1_3_2 : FVec Ideal S2x2x128x128 .f32) := by
  open_to_exit1
  after_results_simp
  exact W8_v0 m ρ c
theorem W12_v1 : W12 m ρ c (Proc.devRef .tc main_v1) = (transpose S2x2x128x128 [0, 1, 3, 2] (lc m c main_arg3) transposes_S2x2x128x128_S2x2x128x128_0_1_3_2 : FVec Ideal S2x2x128x128 .f32) := by
  open_to_exit1
  after_results_simp
  exact W8_v1 m ρ c
theorem W12_arg4 : W12 m ρ c (Proc.devRef .tc main_arg4) = lc m c main_arg4 := by
  open_to_exit1
  after_results_simp
  exact W8_arg4 m ρ c

theorem take2_typed (V : Valuation τ sig (Elt Ideal)) :
    (StableHlo.TRef.of main_v44 : StableHlo.TRef sig ⟨S800000x128, .f32⟩).ofBuf (StableHlo.after hostOps2 V (Proc.devRef .tc main_v44))
      = takeG ((StableHlo.TRef.of main_v43 : StableHlo.TRef sig ⟨S100000x128, .f32⟩).ofBuf (V (Proc.devRef .tc main_v43)))
          ((StableHlo.TRef.of main_arg5 : StableHlo.TRef sig ⟨S800000, .i32⟩).ofBuf (V (Proc.devRef .tc main_arg5))) := by
  dsimp only [hostOps2]
  after_results_simp
  simp only [cast_cast_id]
  rfl
theorem take2 (V : Valuation τ sig (Elt Ideal)) :
    StableHlo.after hostOps2 V (Proc.devRef .tc main_v44) = takeG (V (Proc.devRef .tc main_v43)) (V (Proc.devRef .tc main_arg5)) :=
  take2_typed V

theorem take3_typed (V : Valuation τ sig (Elt Ideal)) :
    (StableHlo.TRef.of main_v57 : StableHlo.TRef sig ⟨S800000x128, .f32⟩).ofBuf (StableHlo.after hostOps2_2 V (Proc.devRef .tc main_v57))
      = takeD ((StableHlo.TRef.of main_v35 : StableHlo.TRef sig ⟨S50000x128, .f32⟩).ofBuf (V (Proc.devRef .tc main_v35)))
          ((StableHlo.TRef.of main_arg7 : StableHlo.TRef sig ⟨S800000, .i32⟩).ofBuf (V (Proc.devRef .tc main_arg7))) := by
  dsimp only [hostOps2_2]
  after_results_simp
  simp only [cast_cast_id]
  rfl
theorem take3 (V : Valuation τ sig (Elt Ideal)) :
    StableHlo.after hostOps2_2 V (Proc.devRef .tc main_v57) = takeD (V (Proc.devRef .tc main_v35)) (V (Proc.devRef .tc main_arg7)) :=
  take3_typed V

theorem mean2 (V : Valuation τ sig (Elt Ideal)) :
    StableHlo.after hostOps2_1 V (Proc.devRef .tc main_v56) = meanD (V (Proc.devRef .tc main_v44)) (V (Proc.devRef .tc main_arg6)) := by
  dsimp only [hostOps2_1]
  after_results_simp
  rfl

theorem mean3 (V : Valuation τ sig (Elt Ideal)) :
    StableHlo.after hostOps2_3 V (Proc.devRef .tc main_v69) = meanG (V (Proc.devRef .tc main_v57)) (V (Proc.devRef .tc main_arg8)) := by
  dsimp only [hostOps2_3]
  after_results_simp
  rfl

theorem W9_arg6 : W9 m ρ c (Proc.devRef .tc main_arg6) = lc m c main_arg6 := by
  dsimp only [W9, hostOps2]
  after_results_simp
  exact W8_arg6 m ρ c
theorem W10_v35 : W10 m ρ c (Proc.devRef .tc main_v35) = W6 m ρ c (Proc.devRef .tc main_v35) := by
  dsimp only [W10, W9, hostOps2_1, hostOps2]
  after_results_simp
  exact W8_v35 m ρ c
theorem W10_arg7 : W10 m ρ c (Proc.devRef .tc main_arg7) = lc m c main_arg7 := by
  dsimp only [W10, W9, hostOps2_1, hostOps2]
  after_results_simp
  exact W8_arg7 m ρ c
theorem W11_arg8 : W11 m ρ c (Proc.devRef .tc main_arg8) = lc m c main_arg8 := by
  dsimp only [W11, W10, W9, hostOps2_2, hostOps2_1, hostOps2]
  after_results_simp
  exact W8_arg8 m ρ c

theorem e2_mean : W12 m ρ c (Proc.devRef .tc main_v56)
    = meanD (takeG (W8 m ρ c (Proc.devRef .tc main_v43)) (lc m c main_arg5)) (lc m c main_arg6) :=
  calc W12 m ρ c (Proc.devRef .tc main_v56)
    _ = W10 m ρ c (Proc.devRef .tc main_v56) := by
          dsimp only [W12, W11, hostOps2_3, hostOps2_2]
          after_results_simp
    _ = meanD (W9 m ρ c (Proc.devRef .tc main_v44)) (W9 m ρ c (Proc.devRef .tc main_arg6)) := mean2 (W9 m ρ c)
    _ = meanD (takeG (W8 m ρ c (Proc.devRef .tc main_v43)) (W8 m ρ c (Proc.devRef .tc main_arg5))) (W9 m ρ c (Proc.devRef .tc main_arg6)) :=
          congrArg (fun u => meanD u (W9 m ρ c (Proc.devRef .tc main_arg6))) (take2 (W8 m ρ c))
    _ = meanD (takeG (W8 m ρ c (Proc.devRef .tc main_v43)) (lc m c main_arg5)) (lc m c main_arg6) := by
          rw [W8_arg5 m ρ c, W9_arg6 m ρ c]

theorem W12_v69 : W12 m ρ c (Proc.devRef .tc main_v69)
    = meanG (takeD (W6 m ρ c (Proc.devRef .tc main_v35)) (lc m c main_arg7)) (lc m c main_arg8) :=
  calc W12 m ρ c (Proc.devRef .tc main_v69)
    _ = meanG (W11 m ρ c (Proc.devRef .tc main_v57)) (W11 m ρ c (Proc.devRef .tc main_arg8)) := mean3 (W11 m ρ c)
    _ = meanG (takeD (W10 m ρ c (Proc.devRef .tc main_v35)) (W10 m ρ c (Proc.devRef .tc main_arg7))) (W11 m ρ c (Proc.devRef .tc main_arg8)) :=
          congrArg (fun u => meanG u (W11 m ρ c (Proc.devRef .tc main_arg8))) (take3 (W10 m ρ c))
    _ = meanG (takeD (W6 m ρ c (Proc.devRef .tc main_v35)) (lc m c main_arg7)) (lc m c main_arg8) := by
          rw [W10_v35 m ρ c, W10_arg7 m ρ c, W11_arg8 m ρ c]

/-! ## Across region 2, then up to region 3's entry -/

theorem W13_v69 : W13 m ρ c (Proc.devRef .tc main_v69)
    = meanG (takeD (W6 m ρ c (Proc.devRef .tc main_v35)) (lc m c main_arg7)) (lc m c main_arg8) :=
  (W13_of_ne m ρ c main_v69 (by decide)).trans (W12_v69 m ρ c)
theorem W13_v43 : W13 m ρ c (Proc.devRef .tc main_v43) = W8 m ρ c (Proc.devRef .tc main_v43) :=
  (W13_of_ne m ρ c main_v43 (by decide)).trans (W12_v43 m ρ c)
theorem W13_v0 : W13 m ρ c (Proc.devRef .tc main_v0) = (transpose S2x2x128x128 [0, 1, 3, 2] (lc m c main_arg2) transposes_S2x2x128x128_S2x2x128x128_0_1_3_2 : FVec Ideal S2x2x128x128 .f32) :=
  (W13_of_ne m ρ c main_v0 (by decide)).trans (W12_v0 m ρ c)
theorem W13_v1 : W13 m ρ c (Proc.devRef .tc main_v1) = (transpose S2x2x128x128 [0, 1, 3, 2] (lc m c main_arg3) transposes_S2x2x128x128_S2x2x128x128_0_1_3_2 : FVec Ideal S2x2x128x128 .f32) :=
  (W13_of_ne m ρ c main_v1 (by decide)).trans (W12_v1 m ρ c)
theorem W13_arg4 : W13 m ρ c (Proc.devRef .tc main_arg4) = lc m c main_arg4 :=
  (W13_of_ne m ρ c main_arg4 (by decide)).trans (W12_arg4 m ρ c)

/-- Unfolds region 3's entry down to region 2's exit. -/
local macro "open_to_exit2" : tactic => `(tactic| dsimp only [W14, hostOps3])

theorem e3_mean : W14 m ρ c (Proc.devRef .tc main_v69)
    = meanG (takeD (W6 m ρ c (Proc.devRef .tc main_v35)) (lc m c main_arg7)) (lc m c main_arg8) := by
  open_to_exit2
  after_results_simp
  exact W13_v69 m ρ c
theorem e3_root : W14 m ρ c (Proc.devRef .tc main_v43) = W8 m ρ c (Proc.devRef .tc main_v43) := by
  open_to_exit2
  after_results_simp
  exact W13_v43 m ρ c
theorem e3_wl : W14 m ρ c (Proc.devRef .tc main_v79) = kwT ![1, 1, 0, 0] slices_S2x2x128x128_S1x1x128x128_1_1_0_0 (lc m c main_arg2) := by
  open_to_exit2
  after_results_simp
  rw [W13_v0 m ρ c]
  rfl
theorem e3_wr : W14 m ρ c (Proc.devRef .tc main_v81) = kwT ![1, 1, 0, 0] slices_S2x2x128x128_S1x1x128x128_1_1_0_0 (lc m c main_arg3) := by
  open_to_exit2
  after_results_simp
  rw [W13_v1 m ρ c]
  rfl
theorem e3_b : W14 m ρ c (Proc.devRef .tc main_v84) = kbT ![1, 1, 0] slices_S2x2x128_S1x1x128_1_1_0 (lc m c main_arg4) := by
  open_to_exit2
  after_results_simp
  rw [W13_arg4 m ρ c]
  rfl

end Cert.KernelIdeal.Entry

end
-- ==== Proof.Payload.lean ====
/-
  The kernel's arithmetic read at one entry, on the extended reals.

  Each region of the kernel stores one block computed from five loaded blocks: the neighbour rows, the node's own
  rows, two weight blocks and a bias row. Read at entry (r, c), that block is the row function of the specification
  applied to row r of the two row blocks: two sums over the contracted coordinate plus the bias (the affine part), the
  maximum with zero in the hidden layers, the division by the row's Euclidean norm floored at the word of 1e-12, and
  the skip sum. The proof reads each operation at an index: the products as sums over the one contracted coordinate,
  the lane sum as a sum over the row, the two keepdims layout steps (a column cast to an N-by-1 array, then repeated
  along the lanes) as reads of the column's entry. Two further facts say which entries of the stacked weight and bias
  arrays a block cut out by the program holds.
-/
import proofs.«118446_j88244398064001_1_alg».proof.Proof.Gen.KernelIdeal.Skeleton
import proofs.«118446_j88244398064001_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-! ## The two products' index maps -/

/-- The dimension numbers of both products: rows by contraction against contraction by columns. -/
abbrev DD : DotDims S5000x128 S128x128 S5000x128 := dot_S5000x128_S128x128_S5000x128_1_0_0_1_n_n

/-- The left operand's row is the output's row. -/
theorem lhs_row (i : S5000x128.Idx) (q : DD.contr.Idx) : (DD.lhsIdx i q 0).val = (i 0).val := by
  unfold DotDims.lhsIdx
  rw [dif_neg (show ¬(0 : Fin S5000x128.rank) ∈ DD.lhsBatch by decide),
    dif_pos (show (0 : Fin S5000x128.rank) ∈ DD.lhsNonContracting by decide)]
  rfl

/-- The left operand's column is the contraction coordinate. -/
theorem lhs_col (i : S5000x128.Idx) (q : DD.contr.Idx) : (DD.lhsIdx i q 1).val = (q ⟨0, by decide⟩).val :=
  DD.lhsIdx_val_of_single rfl i q

/-- The right operand's row is the contraction coordinate. -/
theorem rhs_row (i : S5000x128.Idx) (q : DD.contr.Idx) : (DD.rhsIdx i q 0).val = (q ⟨0, by decide⟩).val :=
  DD.rhsIdx_val_of_single rfl i q

/-- The right operand's column is the output's column. -/
theorem rhs_col (i : S5000x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- A product against the zero accumulator, read at entry (r, c): the sum over the contracted coordinate of the
    products of the two operands' entries. -/
theorem mm_apply {φ₁ φ₂ : FTy} (x : FVec Ideal S5000x128 φ₁) (w : FVec Ideal S128x128 φ₂) (r : Fin 5000) (c : Fin 128) :
    matmul DD none x w (constant (F := Ideal) S5000x128 .f32 0x00000000#32) (ix2 r c)
      = ∑ k : Fin 128, x (ix2 r k) * w (ix2 k c) := by
  show FloatOps.matmul DD none x w (constant (F := Ideal) S5000x128 .f32 0x00000000#32) (ix2 r c) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 r c) ((contrEquiv1 DD 128 rfl rfl).symm k) = ix2 r k := funext fun a => Fin.ext (by
    match a with
    | ⟨0, _⟩ => exact lhs_row _ _
    | ⟨1, _⟩ => exact (lhs_col _ _).trans hk)
  have er : DD.rhsIdx (ix2 r c) ((contrEquiv1 DD 128 rfl rfl).symm k) = ix2 k c := funext fun a => Fin.ext (by
    match a with
    | ⟨0, _⟩ => exact (rhs_row _ _).trans hk
    | ⟨1, _⟩ => exact rhs_col _ _)
  rw [el, er]

/-! ## The lane sum and the two keepdims layout steps -/

/-- The sum along the lanes of a block, read at row r: the sum of that row's entries. -/
theorem lanesum_apply (y : FVec Ideal S5000x128 .f32) (hφ : FKind.Formats .f32)
    (hacc : (0x00000000#32 : BitVec 32) = 0x00000000#32) (r : Fin 5000) :
    multiReduction (F := Ideal) .add [1] S5000 y 0x00000000#32 reduces_S5000x128_S5000 hφ hacc (ix1 r)
      = ∑ k : Fin 128, y (ix2 r k) := by
  refine (Ideal.multiReduction_add_single y 0x00000000#32 reduces_S5000x128_S5000 hφ hacc (ix1 r)).trans ?_
  refine Finset.sum_congr rfl fun k _ => congrArg y (funext fun a => Fin.ext ?_)
  match a with
  | ⟨0, _⟩ => rfl
  | ⟨1, _⟩ => rfl

/-- A column of N entries cast to an N-by-1 array reads, at (r, u), the column's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An N-by-1 array broadcast along its unit axis reads, at (r, c), its entry (r, 0). -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## The payload in two pieces: the affine block, then the normalisation and the skip sum -/

/-- The affine block: the neighbour rows against the first weight block plus the node's own rows against the second,
    both products into a zero accumulator, plus the bias row repeated down the rows. -/
def linBlock (m x : FVec Ideal S5000x128 .f32) (wl wr : FVec Ideal S128x128 .f32) (b : FVec Ideal S1x128 .f32) :
    FVec Ideal S5000x128 .f32 :=
  addf
    (addf
      (matmul DD none (truncf .bf16 m bitsLt_bf16_f32) (truncf .bf16 wl bitsLt_bf16_f32)
        (constant (F := Ideal) S5000x128 .f32 0x00000000#32))
      (matmul DD none (truncf .bf16 x bitsLt_bf16_f32) (truncf .bf16 wr bitsLt_bf16_f32)
        (constant (F := Ideal) S5000x128 .f32 0x00000000#32)))
    (broadcastTo S5000x128 b broadcasts_S1x128_S5000x128)

/-- The affine block at entry (r, c) is the row function's affine part of row r at column c. -/
theorem linBlock_apply (m x : FVec Ideal S5000x128 .f32) (wl wr : FVec Ideal S128x128 .f32) (b : FVec Ideal S1x128 .f32)
    (r : Fin 5000) (c : Fin 128) :
    linBlock m x wl wr b (ix2 r c)
      = Cert.Spec.lin (fun k => m (ix2 r k)) (fun k => x (ix2 r k)) (fun k c' => wl (ix2 k c')) (fun k c' => wr (ix2 k c'))
          (fun c' => b (ix2 0 c')) c := by
  unfold linBlock Cert.Spec.lin
  rw [addf_apply, addf_apply, mm_apply, mm_apply, broadcastTo_1b_ab_apply]
  rfl

/-- The tail every region shares: each entry of a over its row's Euclidean norm floored at the word of 1e-12, plus x. -/
def normTail (a x : FVec Ideal S5000x128 .f32) : FVec Ideal S5000x128 .f32 :=
  addf
    (divf a
      (broadcastTo S5000x128
        (maximumf
          (sqrt (shapeCast S5000x1
            (multiReduction (F := Ideal) .add [1] S5000 (mulf a a) 0x00000000#32 reduces_S5000x128_S5000 (.inl rfl) rfl)
            shapeCasts_S5000_S5000x1))
          (broadcast S5000x1 (Scalar.ofBits (F := Ideal) .f32 0x2B8CBCCC#32)))
        broadcasts_S5000x1_S5000x128))
    x

/-- The tail at entry (r, c). -/
theorem normTail_apply (a x : FVec Ideal S5000x128 .f32) (r : Fin 5000) (c : Fin 128) :
    normTail a x (ix2 r c)
      = Ideal.div (a (ix2 r c))
          (max (Ideal.sqrt (∑ c' : Fin 128, a (ix2 r c') * a (ix2 r c'))) (Ideal.ofBits .f32 0x2B8CBCCC#32))
        + x (ix2 r c) := by
  unfold normTail
  rw [addf_apply, divf_apply, broadcastTo_a1_ab_apply, maximumf_apply, broadcast_apply]
  have hs : sqrt (shapeCast S5000x1
            (multiReduction (F := Ideal) .add [1] S5000 (mulf a a) 0x00000000#32 reduces_S5000x128_S5000 (.inl rfl) rfl)
            shapeCasts_S5000_S5000x1) (ix2 r (0 : Fin 1))
        = Ideal.sqrt (∑ c' : Fin 128, a (ix2 r c') * a (ix2 r c')) := by
    show FloatOps.sqrt (shapeCast S5000x1 _ shapeCasts_S5000_S5000x1 (ix2 r (0 : Fin 1))) = _
    rw [Ideal.sqrt_def, shapeCast_a_a1_apply]
    refine congrArg Ideal.sqrt ((lanesum_apply (mulf a a) (.inl rfl) rfl r).trans ?_)
    rfl
  rw [hs]
  rfl

/-! ## The four regions' payloads -/

theorem pay_relu0 (v0 v2 : Vec Ideal S5000x128 .f32) (v3 v5 : Vec Ideal S128x128 .f32) (v7 : Vec Ideal S1x128 .f32) (r : Fin 5000) (c : Fin 128) :
    k0_pay1 (F := Ideal) v0 v2 v3 v5 v7 (ix2 r c)
      = Cert.Spec.row Cert.Spec.relu (fun k => v0 (ix2 r k)) (fun k => v2 (ix2 r k)) (fun k c' => v3 (ix2 k c')) (fun k c' => v5 (ix2 k c'))
          (fun c' => v7 (ix2 0 c')) c := by
  show normTail
      (maximumf
        (linBlock (shapeCast S5000x128 v0 shapeCasts_S5000x128_S5000x128) v2 (shapeCast S128x128 v3 shapeCasts_S128x128_S128x128)
          (shapeCast S128x128 v5 shapeCasts_S128x128_S128x128) (shapeCast S1x128 v7 shapeCasts_S1x128_S1x128))
        (broadcast S5000x128 (Scalar.ofBits (F := Ideal) .f32 0x00000000#32)))
      v2 (ix2 r c) = _
  rw [normTail_apply, shapeCast_self, shapeCast_self, shapeCast_self, shapeCast_self]
  simp only [maximumf_apply, broadcast_apply, linBlock_apply]
  rfl

theorem pay_relu1 (v0 v2 : Vec Ideal S5000x128 .f32) (v3 v5 : Vec Ideal S128x128 .f32) (v7 : Vec Ideal S1x128 .f32) (r : Fin 5000) (c : Fin 128) :
    k1_pay1 (F := Ideal) v0 v2 v3 v5 v7 (ix2 r c)
      = Cert.Spec.row Cert.Spec.relu (fun k => v0 (ix2 r k)) (fun k => v2 (ix2 r k)) (fun k c' => v3 (ix2 k c')) (fun k c' => v5 (ix2 k c'))
          (fun c' => v7 (ix2 0 c')) c := by
  show normTail
      (maximumf
        (linBlock (shapeCast S5000x128 v0 shapeCasts_S5000x128_S5000x128) v2 (shapeCast S128x128 v3 shapeCasts_S128x128_S128x128)
          (shapeCast S128x128 v5 shapeCasts_S128x128_S128x128) (shapeCast S1x128 v7 shapeCasts_S1x128_S1x128))
        (broadcast S5000x128 (Scalar.ofBits (F := Ideal) .f32 0x00000000#32)))
      v2 (ix2 r c) = _
  rw [normTail_apply, shapeCast_self, shapeCast_self, shapeCast_self, shapeCast_self]
  simp only [maximumf_apply, broadcast_apply, linBlock_apply]
  rfl

theorem pay_lin2 (v0 v2 : Vec Ideal S5000x128 .f32) (v4 v6 : Vec Ideal S128x128 .f32) (v8 : Vec Ideal S1x128 .f32) (r : Fin 5000) (c : Fin 128) :
    k2_pay1 (F := Ideal) v0 v2 v4 v6 v8 (ix2 r c)
      = Cert.Spec.row id (fun k => v0 (ix2 r k)) (fun k => v2 (ix2 r k)) (fun k c' => v4 (ix2 k c')) (fun k c' => v6 (ix2 k c'))
          (fun c' => v8 (ix2 0 c')) c := by
  show normTail
      (linBlock (shapeCast S5000x128 v0 shapeCasts_S5000x128_S5000x128) (shapeCast S5000x128 v2 shapeCasts_S5000x128_S5000x128)
        (shapeCast S128x128 v4 shapeCasts_S128x128_S128x128) (shapeCast S128x128 v6 shapeCasts_S128x128_S128x128)
        (shapeCast S1x128 v8 shapeCasts_S1x128_S1x128))
      (shapeCast S5000x128 v2 shapeCasts_S5000x128_S5000x128) (ix2 r c) = _
  rw [normTail_apply]
  simp only [shapeCast_self, linBlock_apply]
  rfl

theorem pay_lin3 (v0 v2 : Vec Ideal S5000x128 .f32) (v4 v6 : Vec Ideal S128x128 .f32) (v8 : Vec Ideal S1x128 .f32) (r : Fin 5000) (c : Fin 128) :
    k3_pay1 (F := Ideal) v0 v2 v4 v6 v8 (ix2 r c)
      = Cert.Spec.row id (fun k => v0 (ix2 r k)) (fun k => v2 (ix2 r k)) (fun k c' => v4 (ix2 k c')) (fun k c' => v6 (ix2 k c'))
          (fun c' => v8 (ix2 0 c')) c := by
  show normTail
      (linBlock (shapeCast S5000x128 v0 shapeCasts_S5000x128_S5000x128) (shapeCast S5000x128 v2 shapeCasts_S5000x128_S5000x128)
        (shapeCast S128x128 v4 shapeCasts_S128x128_S128x128) (shapeCast S128x128 v6 shapeCasts_S128x128_S128x128)
        (shapeCast S1x128 v8 shapeCasts_S1x128_S1x128))
      (shapeCast S5000x128 v2 shapeCasts_S5000x128_S5000x128) (ix2 r c) = _
  rw [normTail_apply]
  simp only [shapeCast_self, linBlock_apply]
  rfl

/-! ## How the program cuts one layer's weights and bias out of the stacked arrays -/

/-- The kernel program's weight block: the four-axis array with its last two axes swapped, the block cut out, the
    unit axes dropped — entry (k, c) is the array's entry (i, j, c, k). -/
theorem kw_apply (off : Fin 4 → Nat) (h : S2x2x128x128.Slices off S1x1x128x128) (i j : Fin 2) (ho : off = ![i.val, j.val, 0, 0])
    (W : FVec Ideal S2x2x128x128 .f32) (k c : Fin 128) :
    shapeCast S128x128 (extractStridedSlice S1x1x128x128 off (transpose S2x2x128x128 [0, 1, 3, 2] W transposes_S2x2x128x128_S2x2x128x128_0_1_3_2) h)
        shapeCasts_S1x1x128x128_S128x128 (ix2 k c) = W (ix4 i j c k) := by
  subst ho
  refine (shapeCast_apply _ _ (ix2 k c) (ix4 (0 : Fin 1) (0 : Fin 1) k c) ?_).trans ?_
  · rw [Shape.rowMajor_val_four, Shape.rowMajor_val_two]
    show ((0 * 1 + 0) * 128 + k.val) * 128 + c.val = k.val * 128 + c.val
    omega
  refine (extractStridedSlice_apply _ _ _ (ix4 (0 : Fin 1) (0 : Fin 1) k c) (ix4 i j k c) fun a => ?_).trans ?_
  · match a with
    | ⟨0, _⟩ => show i.val = i.val + 0; omega
    | ⟨1, _⟩ => show j.val = j.val + 0; omega
    | ⟨2, _⟩ => show k.val = 0 + k.val; omega
    | ⟨3, _⟩ => show c.val = 0 + c.val; omega
  exact transpose_apply _ _ _ (ix4 i j k c) (ix4 i j c k) fun b =>
    match b with | ⟨0, _⟩ => rfl | ⟨1, _⟩ => rfl | ⟨2, _⟩ => rfl | ⟨3, _⟩ => rfl

/-- The kernel program's bias row: the block cut out of the three-axis array, reshaped to one row. -/
theorem kb_apply (off : Fin 3 → Nat) (h : S2x2x128.Slices off S1x1x128) (i j : Fin 2) (ho : off = ![i.val, j.val, 0])
    (B : FVec Ideal S2x2x128 .f32) (c : Fin 128) :
    shapeCast S1x128 (shapeCast S128 (extractStridedSlice S1x1x128 off B h) shapeCasts_S1x1x128_S128) shapeCasts_S128_S1x128 (ix2 0 c)
      = B (ix3 i j c) := by
  subst ho
  refine (shapeCast_apply _ _ (ix2 (0 : Fin 1) c) (ix1 c) ?_).trans ?_
  · rw [Shape.rowMajor_val_one, Shape.rowMajor_val_two]
    show c.val = 0 * 128 + c.val
    omega
  refine (shapeCast_apply _ _ (ix1 c) (ix3 (0 : Fin 1) (0 : Fin 1) c) ?_).trans ?_
  · rw [Shape.rowMajor_val_three, Shape.rowMajor_val_one]
    show (0 * 1 + 0) * 128 + c.val = c.val
    omega
  exact extractStridedSlice_apply _ _ _ (ix3 (0 : Fin 1) (0 : Fin 1) c) (ix3 i j c) fun a =>
    match a with
    | ⟨0, _⟩ => by show i.val = i.val + 0; omega
    | ⟨1, _⟩ => by show j.val = j.val + 0; omega
    | ⟨2, _⟩ => by show c.val = 0 + c.val; omega

end Cert.KernelIdeal.Payload

end
-- ==== Proof.Rows0.lean ====
/-
  Kernel region 0: the output array after the run is the layer's row function of the arrays the region is entered with.

  The region's grid walks the node rows in blocks of 5000; at a point the body reads the block of neighbour means and the
  block of the nodes' own rows at the point's block index, and the two weight blocks and the bias row whole, and writes
  the block of new rows at the same block index. So what a point writes back is the row function restricted to its
  block, the blocks of the 10 points cover the 50000 rows (row r belongs to point r / 5000), and the array ends
  holding the row function at every row.
-/
import proofs.«118446_j88244398064001_1_alg».proof.Proof.Gen.KernelIdeal.Frame
import proofs.«118446_j88244398064001_1_alg».proof.Proof.Spec
import Idealize.ShloMosaic.Lib.Pipeline.Value
import Idealize.ShloMosaic.Lib.ValueIdx

set_option maxRecDepth 16384

noncomputable section

namespace Cert.KernelIdeal.Rows0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's rows for the 50000 nodes of the second type in the hidden layer, from the arrays as the region finds them. -/
def G (c : Dev nD) : S50000x128.Idx → EReal :=
  Cert.Spec.rows Cert.Spec.relu (N := 50000) (V c main_v14) (V c main_arg1)
    (fun k c' => V c main_v29 (ix2 k c')) (fun k c' => V c main_v31 (ix2 k c')) (fun c' => V c main_v34 (ix2 0 c'))

theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_congr {φ : EReal → EReal} {a a' x x' : Fin 128 → EReal} {wl wl' wr wr' : Fin 128 → Fin 128 → EReal} {b b' : Fin 128 → EReal}
    {c c' : Fin 128} (h1 : a = a') (h2 : x = x') (h3 : wl = wl') (h4 : wr = wr') (h5 : b = b') (h6 : c = c') :
    Cert.Spec.row φ a x wl wr b c = Cert.Spec.row φ a' x' wl' wr' b' c' := by
  subst h1 h2 h3 h4 h5 h6; rfl

theorem flushed_eq
    (hpay : ∀ (v0 v2 : Vec Ideal S5000x128 .f32) (v3 v5 : Vec Ideal S128x128 .f32) (v7 : Vec Ideal S1x128 .f32) (r : Fin 5000) (c : Fin 128),
      k0_pay1 (F := Ideal) v0 v2 v3 v5 v7 (ix2 r c)
        = Cert.Spec.row Cert.Spec.relu (fun k => v0 (ix2 r k)) (fun k => v2 (ix2 r k)) (fun k c' => v3 (ix2 k c')) (fun k c' => v5 (ix2 k c'))
            (fun c' => v7 (ix2 0 c')) c)
    (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  show k0_pay1 (F := Ideal) (iblk0 V c 0 t) (iblk0 V c 1 t) (iblk0 V c 2 t) (iblk0 V c 3 t) (iblk0 V c 4 t) j
      = G V c (((cfg0.win 5).blk t).view.emb j)
  obtain ⟨e00, e01, e10, e11, e20, e21, e30, e31, e40, e41, e50, e51⟩ := idx_facts t
  refine (congrArg (k0_pay1 (F := Ideal) (iblk0 V c 0 t) (iblk0 V c 1 t) (iblk0 V c 2 t) (iblk0 V c 3 t) (iblk0 V c 4 t)) (eq_ix2 j)).trans ?_
  refine (hpay (iblk0 V c 0 t) (iblk0 V c 1 t) (iblk0 V c 2 t) (iblk0 V c 3 t) (iblk0 V c 4 t) (j 0) (j 1)).trans ?_
  unfold G Cert.Spec.rows
  refine row_congr ?_ ?_ ?_ ?_ ?_ ?_
  · funext k
    show V c main_v14 (((cfg0.win 0).blk t).view.emb (ix2 (j 0) k)) = V c main_v14 (ix2 ((((cfg0.win 5).blk t).view.emb j) 0) k)
    refine congrArg (V c main_v14) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · funext k
    show V c main_arg1 (((cfg0.win 1).blk t).view.emb (ix2 (j 0) k)) = V c main_arg1 (ix2 ((((cfg0.win 5).blk t).view.emb j) 0) k)
    refine congrArg (V c main_arg1) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext k c'
    show V c main_v29 (((cfg0.win 2).blk t).view.emb (ix2 k c')) = V c main_v29 (ix2 k c')
    refine congrArg (V c main_v29) (funext fun a => Fin.ext ?_)
    match a with
    | ⟨0, _⟩ => show win0_2.index t (0 : Fin 2) * 128 + 1 * k.val = k.val; omega
    | ⟨1, _⟩ => show win0_2.index t (1 : Fin 2) * 128 + 1 * c'.val = c'.val; omega
  · funext k c'
    show V c main_v31 (((cfg0.win 3).blk t).view.emb (ix2 k c')) = V c main_v31 (ix2 k c')
    refine congrArg (V c main_v31) (funext fun a => Fin.ext ?_)
    match a with
    | ⟨0, _⟩ => show win0_3.index t (0 : Fin 2) * 128 + 1 * k.val = k.val; omega
    | ⟨1, _⟩ => show win0_3.index t (1 : Fin 2) * 128 + 1 * c'.val = c'.val; omega
  · funext c'
    show V c main_v34 (((cfg0.win 4).blk t).view.emb (ix2 0 c')) = V c main_v34 (ix2 0 c')
    refine congrArg (V c main_v34) (funext fun a => Fin.ext ?_)
    match a with
    | ⟨0, _⟩ => show win0_4.index t (0 : Fin 2) * 1 + 1 * 0 = 0; omega
    | ⟨1, _⟩ => show win0_4.index t (1 : Fin 2) * 128 + 1 * c'.val = c'.val; omega
  · apply Fin.ext
    show (j 1).val = win0_5.index t (1 : Fin 2) * 128 + 1 * (j 1).val
    omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v35).slice (win0_5.rect t)).set ↔ _
  rw [View.set_slice_whole, Rect.mem_set_unit]
  exact Iff.rfl

/-- Every row belongs to the block of the point numbered by the row's quotient by the block height. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- The region's output array after the run: the layer's rows of the arrays as the region finds them. -/
theorem final (hpay : ∀ (v0 v2 : Vec Ideal S5000x128 .f32) (v3 v5 : Vec Ideal S128x128 .f32) (v7 : Vec Ideal S1x128 .f32) (r : Fin 5000) (c : Fin 128),
      k0_pay1 (F := Ideal) v0 v2 v3 v5 v7 (ix2 r c)
        = Cert.Spec.row Cert.Spec.relu (fun k => v0 (ix2 r k)) (fun k => v2 (ix2 r k)) (fun k c' => v3 (ix2 k c')) (fun k c' => v5 (ix2 k c'))
            (fun c' => v7 (ix2 0 c')) c)
    (c : Dev nD) : (dat0 V c).arrAt 5 cfg0.N = G V c :=
  (dat0 V c).arrAt_eq_of_cover 5 (G V c) (fun t _ => flushed_eq V hpay c t) (cover)

end Cert.KernelIdeal.Rows0

end
-- ==== Proof.Rows1.lean ====
/-
  Kernel region 1: the output array after the run is the layer's row function of the arrays the region is entered with.

  The region's grid walks the node rows in blocks of 5000; at a point the body reads the block of neighbour means and the
  block of the nodes' own rows at the point's block index, and the two weight blocks and the bias row whole, and writes
  the block of new rows at the same block index. So what a point writes back is the row function restricted to its
  block, the blocks of the 20 points cover the 100000 rows (row r belongs to point r / 5000), and the array ends
  holding the row function at every row.
-/
import proofs.«118446_j88244398064001_1_alg».proof.Proof.Gen.KernelIdeal.Frame
import proofs.«118446_j88244398064001_1_alg».proof.Proof.Spec
import Idealize.ShloMosaic.Lib.Pipeline.Value
import Idealize.ShloMosaic.Lib.ValueIdx

set_option maxRecDepth 16384

noncomputable section

namespace Cert.KernelIdeal.Rows1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's rows for the 100000 nodes of the first type in the hidden layer, from the arrays as the region finds them. -/
def G (c : Dev nD) : S100000x128.Idx → EReal :=
  Cert.Spec.rows Cert.Spec.relu (N := 100000) (V c main_v27) (V c main_arg0)
    (fun k c' => V c main_v37 (ix2 k c')) (fun k c' => V c main_v39 (ix2 k c')) (fun c' => V c main_v42 (ix2 0 c'))

theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_congr {φ : EReal → EReal} {a a' x x' : Fin 128 → EReal} {wl wl' wr wr' : Fin 128 → Fin 128 → EReal} {b b' : Fin 128 → EReal}
    {c c' : Fin 128} (h1 : a = a') (h2 : x = x') (h3 : wl = wl') (h4 : wr = wr') (h5 : b = b') (h6 : c = c') :
    Cert.Spec.row φ a x wl wr b c = Cert.Spec.row φ a' x' wl' wr' b' c' := by
  subst h1 h2 h3 h4 h5 h6; rfl

theorem flushed_eq
    (hpay : ∀ (v0 v2 : Vec Ideal S5000x128 .f32) (v3 v5 : Vec Ideal S128x128 .f32) (v7 : Vec Ideal S1x128 .f32) (r : Fin 5000) (c : Fin 128),
      k1_pay1 (F := Ideal) v0 v2 v3 v5 v7 (ix2 r c)
        = Cert.Spec.row Cert.Spec.relu (fun k => v0 (ix2 r k)) (fun k => v2 (ix2 r k)) (fun k c' => v3 (ix2 k c')) (fun k c' => v5 (ix2 k c'))
            (fun c' => v7 (ix2 0 c')) c)
    (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (F := Ideal) (iblk1 V c 0 t) (iblk1 V c 1 t) (iblk1 V c 2 t) (iblk1 V c 3 t) (iblk1 V c 4 t) j
      = G V c (((cfg1.win 5).blk t).view.emb j)
  obtain ⟨e00, e01, e10, e11, e20, e21, e30, e31, e40, e41, e50, e51⟩ := idx_facts t
  refine (congrArg (k1_pay1 (F := Ideal) (iblk1 V c 0 t) (iblk1 V c 1 t) (iblk1 V c 2 t) (iblk1 V c 3 t) (iblk1 V c 4 t)) (eq_ix2 j)).trans ?_
  refine (hpay (iblk1 V c 0 t) (iblk1 V c 1 t) (iblk1 V c 2 t) (iblk1 V c 3 t) (iblk1 V c 4 t) (j 0) (j 1)).trans ?_
  unfold G Cert.Spec.rows
  refine row_congr ?_ ?_ ?_ ?_ ?_ ?_
  · funext k
    show V c main_v27 (((cfg1.win 0).blk t).view.emb (ix2 (j 0) k)) = V c main_v27 (ix2 ((((cfg1.win 5).blk t).view.emb j) 0) k)
    refine congrArg (V c main_v27) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · funext k
    show V c main_arg0 (((cfg1.win 1).blk t).view.emb (ix2 (j 0) k)) = V c main_arg0 (ix2 ((((cfg1.win 5).blk t).view.emb j) 0) k)
    refine congrArg (V c main_arg0) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext k c'
    show V c main_v37 (((cfg1.win 2).blk t).view.emb (ix2 k c')) = V c main_v37 (ix2 k c')
    refine congrArg (V c main_v37) (funext fun a => Fin.ext ?_)
    match a with
    | ⟨0, _⟩ => show win1_2.index t (0 : Fin 2) * 128 + 1 * k.val = k.val; omega
    | ⟨1, _⟩ => show win1_2.index t (1 : Fin 2) * 128 + 1 * c'.val = c'.val; omega
  · funext k c'
    show V c main_v39 (((cfg1.win 3).blk t).view.emb (ix2 k c')) = V c main_v39 (ix2 k c')
    refine congrArg (V c main_v39) (funext fun a => Fin.ext ?_)
    match a with
    | ⟨0, _⟩ => show win1_3.index t (0 : Fin 2) * 128 + 1 * k.val = k.val; omega
    | ⟨1, _⟩ => show win1_3.index t (1 : Fin 2) * 128 + 1 * c'.val = c'.val; omega
  · funext c'
    show V c main_v42 (((cfg1.win 4).blk t).view.emb (ix2 0 c')) = V c main_v42 (ix2 0 c')
    refine congrArg (V c main_v42) (funext fun a => Fin.ext ?_)
    match a with
    | ⟨0, _⟩ => show win1_4.index t (0 : Fin 2) * 1 + 1 * 0 = 0; omega
    | ⟨1, _⟩ => show win1_4.index t (1 : Fin 2) * 128 + 1 * c'.val = c'.val; omega
  · apply Fin.ext
    show (j 1).val = win1_5.index t (1 : Fin 2) * 128 + 1 * (j 1).val
    omega

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every row belongs to the block of the point numbered by the row's quotient by the block height. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- The region's output array after the run: the layer's rows of the arrays as the region finds them. -/
theorem final (hpay : ∀ (v0 v2 : Vec Ideal S5000x128 .f32) (v3 v5 : Vec Ideal S128x128 .f32) (v7 : Vec Ideal S1x128 .f32) (r : Fin 5000) (c : Fin 128),
      k1_pay1 (F := Ideal) v0 v2 v3 v5 v7 (ix2 r c)
        = Cert.Spec.row Cert.Spec.relu (fun k => v0 (ix2 r k)) (fun k => v2 (ix2 r k)) (fun k c' => v3 (ix2 k c')) (fun k c' => v5 (ix2 k c'))
            (fun c' => v7 (ix2 0 c')) c)
    (c : Dev nD) : (dat1 V c).arrAt 5 cfg1.N = G V c :=
  (dat1 V c).arrAt_eq_of_cover 5 (G V c) (fun t _ => flushed_eq V hpay c t) (cover)

end Cert.KernelIdeal.Rows1

end
-- ==== Proof.Rows2.lean ====
/-
  Kernel region 2: the output array after the run is the layer's row function of the arrays the region is entered with.

  The region's grid walks the node rows in blocks of 5000; at a point the body reads the block of neighbour means and the
  block of the nodes' own rows at the point's block index, and the two weight blocks and the bias row whole, and writes
  the block of new rows at the same block index. So what a point writes back is the row function restricted to its
  block, the blocks of the 10 points cover the 50000 rows (row r belongs to point r / 5000), and the array ends
  holding the row function at every row.
-/
import proofs.«118446_j88244398064001_1_alg».proof.Proof.Gen.KernelIdeal.Frame
import proofs.«118446_j88244398064001_1_alg».proof.Proof.Spec
import Idealize.ShloMosaic.Lib.Pipeline.Value
import Idealize.ShloMosaic.Lib.ValueIdx

set_option maxRecDepth 16384

noncomputable section

namespace Cert.KernelIdeal.Rows2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's rows for the 50000 nodes of the second type in the last layer, from the arrays as the region finds them. -/
def G (c : Dev nD) : S50000x128.Idx → EReal :=
  Cert.Spec.rows id (N := 50000) (V c main_v56) (V c main_v35)
    (fun k c' => V c main_v71 (ix2 k c')) (fun k c' => V c main_v73 (ix2 k c')) (fun c' => V c main_v76 (ix2 0 c'))

theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_congr {φ : EReal → EReal} {a a' x x' : Fin 128 → EReal} {wl wl' wr wr' : Fin 128 → Fin 128 → EReal} {b b' : Fin 128 → EReal}
    {c c' : Fin 128} (h1 : a = a') (h2 : x = x') (h3 : wl = wl') (h4 : wr = wr') (h5 : b = b') (h6 : c = c') :
    Cert.Spec.row φ a x wl wr b c = Cert.Spec.row φ a' x' wl' wr' b' c' := by
  subst h1 h2 h3 h4 h5 h6; rfl

theorem flushed_eq
    (hpay : ∀ (v0 v2 : Vec Ideal S5000x128 .f32) (v3 v5 : Vec Ideal S128x128 .f32) (v7 : Vec Ideal S1x128 .f32) (r : Fin 5000) (c : Fin 128),
      k2_pay1 (F := Ideal) v0 v2 v3 v5 v7 (ix2 r c)
        = Cert.Spec.row id (fun k => v0 (ix2 r k)) (fun k => v2 (ix2 r k)) (fun k c' => v3 (ix2 k c')) (fun k c' => v5 (ix2 k c'))
            (fun c' => v7 (ix2 0 c')) c)
    (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  show k2_pay1 (F := Ideal) (iblk2 V c 0 t) (iblk2 V c 1 t) (iblk2 V c 2 t) (iblk2 V c 3 t) (iblk2 V c 4 t) j
      = G V c (((cfg2.win 5).blk t).view.emb j)
  obtain ⟨e00, e01, e10, e11, e20, e21, e30, e31, e40, e41, e50, e51⟩ := idx_facts t
  refine (congrArg (k2_pay1 (F := Ideal) (iblk2 V c 0 t) (iblk2 V c 1 t) (iblk2 V c 2 t) (iblk2 V c 3 t) (iblk2 V c 4 t)) (eq_ix2 j)).trans ?_
  refine (hpay (iblk2 V c 0 t) (iblk2 V c 1 t) (iblk2 V c 2 t) (iblk2 V c 3 t) (iblk2 V c 4 t) (j 0) (j 1)).trans ?_
  unfold G Cert.Spec.rows
  refine row_congr ?_ ?_ ?_ ?_ ?_ ?_
  · funext k
    show V c main_v56 (((cfg2.win 0).blk t).view.emb (ix2 (j 0) k)) = V c main_v56 (ix2 ((((cfg2.win 5).blk t).view.emb j) 0) k)
    refine congrArg (V c main_v56) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · funext k
    show V c main_v35 (((cfg2.win 1).blk t).view.emb (ix2 (j 0) k)) = V c main_v35 (ix2 ((((cfg2.win 5).blk t).view.emb j) 0) k)
    refine congrArg (V c main_v35) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · funext k c'
    show V c main_v71 (((cfg2.win 2).blk t).view.emb (ix2 k c')) = V c main_v71 (ix2 k c')
    refine congrArg (V c main_v71) (funext fun a => Fin.ext ?_)
    match a with
    | ⟨0, _⟩ => show win2_2.index t (0 : Fin 2) * 128 + 1 * k.val = k.val; omega
    | ⟨1, _⟩ => show win2_2.index t (1 : Fin 2) * 128 + 1 * c'.val = c'.val; omega
  · funext k c'
    show V c main_v73 (((cfg2.win 3).blk t).view.emb (ix2 k c')) = V c main_v73 (ix2 k c')
    refine congrArg (V c main_v73) (funext fun a => Fin.ext ?_)
    match a with
    | ⟨0, _⟩ => show win2_3.index t (0 : Fin 2) * 128 + 1 * k.val = k.val; omega
    | ⟨1, _⟩ => show win2_3.index t (1 : Fin 2) * 128 + 1 * c'.val = c'.val; omega
  · funext c'
    show V c main_v76 (((cfg2.win 4).blk t).view.emb (ix2 0 c')) = V c main_v76 (ix2 0 c')
    refine congrArg (V c main_v76) (funext fun a => Fin.ext ?_)
    match a with
    | ⟨0, _⟩ => show win2_4.index t (0 : Fin 2) * 1 + 1 * 0 = 0; omega
    | ⟨1, _⟩ => show win2_4.index t (1 : Fin 2) * 128 + 1 * c'.val = c'.val; omega
  · apply Fin.ext
    show (j 1).val = win2_5.index t (1 : Fin 2) * 128 + 1 * (j 1).val
    omega

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v77).slice (win2_5.rect t)).set ↔ _
  rw [View.set_slice_whole, Rect.mem_set_unit]
  exact Iff.rfl

/-- Every row belongs to the block of the point numbered by the row's quotient by the block height. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, -, -, -, -, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-- The region's output array after the run: the layer's rows of the arrays as the region finds them. -/
theorem final (hpay : ∀ (v0 v2 : Vec Ideal S5000x128 .f32) (v3 v5 : Vec Ideal S128x128 .f32) (v7 : Vec Ideal S1x128 .f32) (r : Fin 5000) (c : Fin 128),
      k2_pay1 (F := Ideal) v0 v2 v3 v5 v7 (ix2 r c)
        = Cert.Spec.row id (fun k => v0 (ix2 r k)) (fun k => v2 (ix2 r k)) (fun k c' => v3 (ix2 k c')) (fun k c' => v5 (ix2 k c'))
            (fun c' => v7 (ix2 0 c')) c)
    (c : Dev nD) : (dat2 V c).arrAt 5 cfg2.N = G V c :=
  (dat2 V c).arrAt_eq_of_cover 5 (G V c) (fun t _ => flushed_eq V hpay c t) (cover)

end Cert.KernelIdeal.Rows2

end
-- ==== Proof.Rows3.lean ====
/-
  Kernel region 3: the output array after the run is the layer's row function of the arrays the region is entered with.

  The region's grid walks the node rows in blocks of 5000; at a point the body reads the block of neighbour means and the
  block of the nodes' own rows at the point's block index, and the two weight blocks and the bias row whole, and writes
  the block of new rows at the same block index. So what a point writes back is the row function restricted to its
  block, the blocks of the 20 points cover the 100000 rows (row r belongs to point r / 5000), and the array ends
  holding the row function at every row.
-/
import proofs.«118446_j88244398064001_1_alg».proof.Proof.Gen.KernelIdeal.Frame
import proofs.«118446_j88244398064001_1_alg».proof.Proof.Spec
import Idealize.ShloMosaic.Lib.Pipeline.Value
import Idealize.ShloMosaic.Lib.ValueIdx

set_option maxRecDepth 16384

noncomputable section

namespace Cert.KernelIdeal.Rows3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's rows for the 100000 nodes of the first type in the last layer, from the arrays as the region finds them. -/
def G (c : Dev nD) : S100000x128.Idx → EReal :=
  Cert.Spec.rows id (N := 100000) (V c main_v69) (V c main_v43)
    (fun k c' => V c main_v79 (ix2 k c')) (fun k c' => V c main_v81 (ix2 k c')) (fun c' => V c main_v84 (ix2 0 c'))

theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem row_congr {φ : EReal → EReal} {a a' x x' : Fin 128 → EReal} {wl wl' wr wr' : Fin 128 → Fin 128 → EReal} {b b' : Fin 128 → EReal}
    {c c' : Fin 128} (h1 : a = a') (h2 : x = x') (h3 : wl = wl') (h4 : wr = wr') (h5 : b = b') (h6 : c = c') :
    Cert.Spec.row φ a x wl wr b c = Cert.Spec.row φ a' x' wl' wr' b' c' := by
  subst h1 h2 h3 h4 h5 h6; rfl

theorem flushed_eq
    (hpay : ∀ (v0 v2 : Vec Ideal S5000x128 .f32) (v3 v5 : Vec Ideal S128x128 .f32) (v7 : Vec Ideal S1x128 .f32) (r : Fin 5000) (c : Fin 128),
      k3_pay1 (F := Ideal) v0 v2 v3 v5 v7 (ix2 r c)
        = Cert.Spec.row id (fun k => v0 (ix2 r k)) (fun k => v2 (ix2 r k)) (fun k c' => v3 (ix2 k c')) (fun k c' => v5 (ix2 k c'))
            (fun c' => v7 (ix2 0 c')) c)
    (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  show k3_pay1 (F := Ideal) (iblk3 V c 0 t) (iblk3 V c 1 t) (iblk3 V c 2 t) (iblk3 V c 3 t) (iblk3 V c 4 t) j
      = G V c (((cfg3.win 5).blk t).view.emb j)
  obtain ⟨e00, e01, e10, e11, e20, e21, e30, e31, e40, e41, e50, e51⟩ := idx_facts t
  refine (congrArg (k3_pay1 (F := Ideal) (iblk3 V c 0 t) (iblk3 V c 1 t) (iblk3 V c 2 t) (iblk3 V c 3 t) (iblk3 V c 4 t)) (eq_ix2 j)).trans ?_
  refine (hpay (iblk3 V c 0 t) (iblk3 V c 1 t) (iblk3 V c 2 t) (iblk3 V c 3 t) (iblk3 V c 4 t) (j 0) (j 1)).trans ?_
  unfold G Cert.Spec.rows
  refine row_congr ?_ ?_ ?_ ?_ ?_ ?_
  · funext k
    show V c main_v69 (((cfg3.win 0).blk t).view.emb (ix2 (j 0) k)) = V c main_v69 (ix2 ((((cfg3.win 5).blk t).view.emb j) 0) k)
    refine congrArg (V c main_v69) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * k.val = k.val; omega
  · funext k
    show V c main_v43 (((cfg3.win 1).blk t).view.emb (ix2 (j 0) k)) = V c main_v43 (ix2 ((((cfg3.win 5).blk t).view.emb j) 0) k)
    refine congrArg (V c main_v43) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · funext k c'
    show V c main_v79 (((cfg3.win 2).blk t).view.emb (ix2 k c')) = V c main_v79 (ix2 k c')
    refine congrArg (V c main_v79) (funext fun a => Fin.ext ?_)
    match a with
    | ⟨0, _⟩ => show win3_2.index t (0 : Fin 2) * 128 + 1 * k.val = k.val; omega
    | ⟨1, _⟩ => show win3_2.index t (1 : Fin 2) * 128 + 1 * c'.val = c'.val; omega
  · funext k c'
    show V c main_v81 (((cfg3.win 3).blk t).view.emb (ix2 k c')) = V c main_v81 (ix2 k c')
    refine congrArg (V c main_v81) (funext fun a => Fin.ext ?_)
    match a with
    | ⟨0, _⟩ => show win3_3.index t (0 : Fin 2) * 128 + 1 * k.val = k.val; omega
    | ⟨1, _⟩ => show win3_3.index t (1 : Fin 2) * 128 + 1 * c'.val = c'.val; omega
  · funext c'
    show V c main_v84 (((cfg3.win 4).blk t).view.emb (ix2 0 c')) = V c main_v84 (ix2 0 c')
    refine congrArg (V c main_v84) (funext fun a => Fin.ext ?_)
    match a with
    | ⟨0, _⟩ => show win3_4.index t (0 : Fin 2) * 1 + 1 * 0 = 0; omega
    | ⟨1, _⟩ => show win3_4.index t (1 : Fin 2) * 128 + 1 * c'.val = c'.val; omega
  · apply Fin.ext
    show (j 1).val = win3_5.index t (1 : Fin 2) * 128 + 1 * (j 1).val
    omega

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v85).slice (win3_5.rect t)).set ↔ _
  rw [View.set_slice_whole, Rect.mem_set_unit]
  exact Iff.rfl

/-- Every row belongs to the block of the point numbered by the row's quotient by the block height. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  have ht : (i 0).val / 5000 < grid3.N := by rw [hN]; omega
  obtain ⟨-, -, -, -, -, -, -, -, -, -, e50, e51⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]; omega

/-- The region's output array after the run: the layer's rows of the arrays as the region finds them. -/
theorem final (hpay : ∀ (v0 v2 : Vec Ideal S5000x128 .f32) (v3 v5 : Vec Ideal S128x128 .f32) (v7 : Vec Ideal S1x128 .f32) (r : Fin 5000) (c : Fin 128),
      k3_pay1 (F := Ideal) v0 v2 v3 v5 v7 (ix2 r c)
        = Cert.Spec.row id (fun k => v0 (ix2 r k)) (fun k => v2 (ix2 r k)) (fun k c' => v3 (ix2 k c')) (fun k c' => v5 (ix2 k c'))
            (fun c' => v7 (ix2 0 c')) c)
    (c : Dev nD) : (dat3 V c).arrAt 5 cfg3.N = G V c :=
  (dat3 V c).arrAt_eq_of_cover 5 (G V c) (fun t _ => flushed_eq V hpay c t) (cover)

end Cert.KernelIdeal.Rows3

end
-- ==== Proof.KFinal.lean ====
/-
  The idealized kernel program's two results as functions of its arguments.

  Each of the four kernel regions leaves in its output array the layer's row function of the arrays it is entered with
  (the region's rows module); the arrays a region is entered with are the message-passing means of the previous layer's
  arrays, the previous layer's arrays themselves, and one weight block and bias row of the parameters (the entry module).
  Composing the four: the two results are two layers of the row function over the means, the weights read at
  `W[i, j, c, k]` for output column `c` and contraction index `k`.
-/
import proofs.«118446_j88244398064001_1_alg».proof.Proof.Gen.KernelIdeal.Frame
import proofs.«118446_j88244398064001_1_alg».proof.Proof.Spec
import proofs.«118446_j88244398064001_1_alg».proof.Proof.KAgg
import proofs.«118446_j88244398064001_1_alg».proof.Proof.KEntry
import proofs.«118446_j88244398064001_1_alg».proof.Proof.Payload
import proofs.«118446_j88244398064001_1_alg».proof.Proof.Rows0
import proofs.«118446_j88244398064001_1_alg».proof.Proof.Rows1
import proofs.«118446_j88244398064001_1_alg».proof.Proof.Rows2
import proofs.«118446_j88244398064001_1_alg».proof.Proof.Rows3

set_option maxRecDepth 16384

noncomputable section

namespace Cert.KernelIdeal.Final

open Cert.KernelIdeal Cert.KernelIdeal.Gen Cert.KernelIdeal.Agg Cert.KernelIdeal.Entry
open Idealize.ShloMosaic Idealize.ShloMosaic.TcCoe Idealize.ShloMosaic.ValueIdx Idealize.SL.Sem

/-- Equal arrays, weights and bias give equal rows. -/
theorem rows_congr {φ : EReal → EReal} {N : Nat} {a a' x x' : (⟨2, ![N, 128]⟩ : Shape).Idx → EReal}
    {wl wl' wr wr' : Fin 128 → Fin 128 → EReal} {b b' : Fin 128 → EReal}
    (h1 : a = a') (h2 : x = x') (h3 : wl = wl') (h4 : wr = wr') (h5 : b = b') :
    Cert.Spec.rows φ a x wl wr b = Cert.Spec.rows φ a' x' wl' wr' b' := by
  subst h1 h2 h3 h4 h5; rfl

/-- The first layer's new rows of the 50000-row node type. -/
def xd1 (a0 : FVec Ideal S100000x128 .f32) (a1 : FVec Ideal S50000x128 .f32) (W1 W2 : FVec Ideal S2x2x128x128 .f32)
    (B : FVec Ideal S2x2x128 .f32) (i5 i6 : Ends) : S50000x128.Idx → EReal :=
  Cert.Spec.rows Cert.Spec.relu (N := 50000) (meanD (takeG a0 i5) i6) a1
    (fun k c' => W1 (ix4 0 0 c' k)) (fun k c' => W2 (ix4 0 0 c' k)) (fun c' => B (ix3 0 0 c'))

/-- The first layer's new rows of the 100000-row node type. -/
def xg1 (a0 : FVec Ideal S100000x128 .f32) (a1 : FVec Ideal S50000x128 .f32) (W1 W2 : FVec Ideal S2x2x128x128 .f32)
    (B : FVec Ideal S2x2x128 .f32) (i7 i8 : Ends) : S100000x128.Idx → EReal :=
  Cert.Spec.rows Cert.Spec.relu (N := 100000) (meanG (takeD a1 i7) i8) a0
    (fun k c' => W1 (ix4 0 1 c' k)) (fun k c' => W2 (ix4 0 1 c' k)) (fun c' => B (ix3 0 1 c'))

/-- The last layer's rows of the 50000-row type, from the first layer's two arrays. -/
def outD (xg : FVec Ideal S100000x128 .f32) (xd : FVec Ideal S50000x128 .f32) (W1 W2 : FVec Ideal S2x2x128x128 .f32)
    (B : FVec Ideal S2x2x128 .f32) (i5 i6 : Ends) : S50000x128.Idx → EReal :=
  Cert.Spec.rows id (N := 50000) (meanD (takeG xg i5) i6) xd
    (fun k c' => W1 (ix4 1 0 c' k)) (fun k c' => W2 (ix4 1 0 c' k)) (fun c' => B (ix3 1 0 c'))

/-- The last layer's rows of the 100000-row type. -/
def outG (xg : FVec Ideal S100000x128 .f32) (xd : FVec Ideal S50000x128 .f32) (W1 W2 : FVec Ideal S2x2x128x128 .f32)
    (B : FVec Ideal S2x2x128 .f32) (i7 i8 : Ends) : S100000x128.Idx → EReal :=
  Cert.Spec.rows id (N := 100000) (meanG (takeD xd i7) i8) xg
    (fun k c' => W1 (ix4 1 1 c' k)) (fun k c' => W2 (ix4 1 1 c' k)) (fun c' => B (ix3 1 1 c'))

variable (m : (ℓ : Loc nD τ sig) → Buf (Elt Ideal) ℓ) (ρ : Dev nD → PrngReg) (c : Dev nD)

/-- Region 0 leaves the first layer's rows of the 50000-row type. -/
theorem k_xd1 : W6 m ρ c (Proc.devRef .tc main_v35)
    = xd1 (lc m c main_arg0) (lc m c main_arg1) (lc m c main_arg2) (lc m c main_arg3) (lc m c main_arg4) (lc m c main_arg5) (lc m c main_arg6) := by
  refine (W6_arr m ρ c 5).trans ?_
  refine (Rows0.final (V5 m ρ) Payload.pay_relu0 c).trans ?_
  unfold Rows0.G xd1
  refine rows_congr (e0_mean m ρ c) (e0_root m ρ c) ?_ ?_ ?_
  · funext k c'
    show W5 m ρ c (Proc.devRef .tc main_v29) (ix2 k c') = _
    rw [e0_wl]
    exact Payload.kw_apply _ _ 0 0 rfl _ k c'
  · funext k c'
    show W5 m ρ c (Proc.devRef .tc main_v31) (ix2 k c') = _
    rw [e0_wr]
    exact Payload.kw_apply _ _ 0 0 rfl _ k c'
  · funext c'
    show W5 m ρ c (Proc.devRef .tc main_v34) (ix2 0 c') = _
    rw [e0_b]
    exact Payload.kb_apply _ _ 0 0 rfl _ c'

/-- Region 1 leaves the first layer's rows of the 100000-row type. -/
theorem k_xg1 : W8 m ρ c (Proc.devRef .tc main_v43)
    = xg1 (lc m c main_arg0) (lc m c main_arg1) (lc m c main_arg2) (lc m c main_arg3) (lc m c main_arg4) (lc m c main_arg7) (lc m c main_arg8) := by
  refine (W8_arr m ρ c 5).trans ?_
  refine (Rows1.final (V7 m ρ) Payload.pay_relu1 c).trans ?_
  unfold Rows1.G xg1
  refine rows_congr (e1_mean m ρ c) (e1_root m ρ c) ?_ ?_ ?_
  · funext k c'
    show W7 m ρ c (Proc.devRef .tc main_v37) (ix2 k c') = _
    rw [e1_wl]
    exact Payload.kw_apply _ _ 0 1 rfl _ k c'
  · funext k c'
    show W7 m ρ c (Proc.devRef .tc main_v39) (ix2 k c') = _
    rw [e1_wr]
    exact Payload.kw_apply _ _ 0 1 rfl _ k c'
  · funext c'
    show W7 m ρ c (Proc.devRef .tc main_v42) (ix2 0 c') = _
    rw [e1_b]
    exact Payload.kb_apply _ _ 0 1 rfl _ c'

/-- Region 2's output array: the last layer's rows of the 50000-row type. -/
theorem k_xd2_at13 : W13 m ρ c (Proc.devRef .tc main_v77)
    = outD (xg1 (lc m c main_arg0) (lc m c main_arg1) (lc m c main_arg2) (lc m c main_arg3) (lc m c main_arg4) (lc m c main_arg7) (lc m c main_arg8))
        (xd1 (lc m c main_arg0) (lc m c main_arg1) (lc m c main_arg2) (lc m c main_arg3) (lc m c main_arg4) (lc m c main_arg5) (lc m c main_arg6))
        (lc m c main_arg2) (lc m c main_arg3) (lc m c main_arg4) (lc m c main_arg5) (lc m c main_arg6) := by
  refine (W13_arr m ρ c 5).trans ?_
  refine (Rows2.final (V12 m ρ) Payload.pay_lin2 c).trans ?_
  unfold Rows2.G outD
  refine rows_congr ((e2_mean m ρ c).trans (by rw [k_xg1])) ((e2_root m ρ c).trans (k_xd1 m ρ c)) ?_ ?_ ?_
  · funext k c'
    show W12 m ρ c (Proc.devRef .tc main_v71) (ix2 k c') = _
    rw [e2_wl]
    exact Payload.kw_apply _ _ 1 0 rfl _ k c'
  · funext k c'
    show W12 m ρ c (Proc.devRef .tc main_v73) (ix2 k c') = _
    rw [e2_wr]
    exact Payload.kw_apply _ _ 1 0 rfl _ k c'
  · funext c'
    show W12 m ρ c (Proc.devRef .tc main_v76) (ix2 0 c') = _
    rw [e2_b]
    exact Payload.kb_apply _ _ 1 0 rfl _ c'

/-- Nothing after region 2 writes its output array: the last host stretch cuts weight blocks only, and region 3
    writes its own output. -/
theorem k_xd2 : W15 m ρ c (Proc.devRef .tc main_v77)
    = outD (xg1 (lc m c main_arg0) (lc m c main_arg1) (lc m c main_arg2) (lc m c main_arg3) (lc m c main_arg4) (lc m c main_arg7) (lc m c main_arg8))
        (xd1 (lc m c main_arg0) (lc m c main_arg1) (lc m c main_arg2) (lc m c main_arg3) (lc m c main_arg4) (lc m c main_arg5) (lc m c main_arg6))
        (lc m c main_arg2) (lc m c main_arg3) (lc m c main_arg4) (lc m c main_arg5) (lc m c main_arg6) := by
  refine (W15_of_ne m ρ c main_v77 (by decide)).trans ?_
  refine Eq.trans ?_ (k_xd2_at13 m ρ c)
  exact StableHlo.after_of_forall_not_mem (b := Proc.devRef .tc main_v77) _ _ (List.forall_iff_forall_mem.mp (by
    simp only [hostOps3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- Region 3's output array: the last layer's rows of the 100000-row type. -/
theorem k_xg2 : W15 m ρ c (Proc.devRef .tc main_v85)
    = outG (xg1 (lc m c main_arg0) (lc m c main_arg1) (lc m c main_arg2) (lc m c main_arg3) (lc m c main_arg4) (lc m c main_arg7) (lc m c main_arg8))
        (xd1 (lc m c main_arg0) (lc m c main_arg1) (lc m c main_arg2) (lc m c main_arg3) (lc m c main_arg4) (lc m c main_arg5) (lc m c main_arg6))
        (lc m c main_arg2) (lc m c main_arg3) (lc m c main_arg4) (lc m c main_arg7) (lc m c main_arg8) := by
  refine (W15_arr m ρ c 5).trans ?_
  refine (Rows3.final (V14 m ρ) Payload.pay_lin3 c).trans ?_
  unfold Rows3.G outG
  refine rows_congr ((e3_mean m ρ c).trans (by rw [k_xd1])) ((e3_root m ρ c).trans (k_xg1 m ρ c)) ?_ ?_ ?_
  · funext k c'
    show W14 m ρ c (Proc.devRef .tc main_v79) (ix2 k c') = _
    rw [e3_wl]
    exact Payload.kw_apply _ _ 1 1 rfl _ k c'
  · funext k c'
    show W14 m ρ c (Proc.devRef .tc main_v81) (ix2 k c') = _
    rw [e3_wr]
    exact Payload.kw_apply _ _ 1 1 rfl _ k c'
  · funext c'
    show W14 m ρ c (Proc.devRef .tc main_v84) (ix2 0 c') = _
    rw [e3_b]
    exact Payload.kb_apply _ _ 1 1 rfl _ c'

end Cert.KernelIdeal.Final

end
-- ==== Proof.RefRun.Basic.lean ====
/- The reference program's run, shared part: one fact about lists that the three windows' statements are joined with. -/
import proofs.«118446_j88244398064001_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists is one of every element of their concatenation. -/
theorem forall_append_of {α : Type*} {p : α → Prop} {l₁ l₂ : List α} (h₁ : l₁.Forall p) (h₂ : l₂.Forall p) :
    (l₁ ++ l₂).Forall p :=
  List.forall_append.2 ⟨h₁, h₂⟩

end Cert.ReferenceIdeal.RefRun

end
-- ==== Proof.RefRun.PartA.lean ====
/- The reference program's run, first window: @main's statements 1 … 60 — layer 0 of the two-layer mean-aggregation
   graph convolution up to the gene nodes' bias — as a LIST of its 104 host operations, each call's operations written
   at the call over that call's buffers, and the window's program shown to be that list run in order. -/
import proofs.«118446_j88244398064001_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0, gene → disease: the neighbour weight `Wl[0,0]`, the root weight `Wr[0,0]` and the bias `b[0,0]` — of each
    array the leading block sliced out and reshaped to a 128×128 matrix (a 128-vector). -/
abbrev segA0 : List (HloOp τ sig (Elt F)) :=
  [ StableHlo.unary main_arg2 main_v0 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    StableHlo.reshape main_v0 main_v1 rfl shapeCasts_S1x1x128x128_S128x128,
    StableHlo.unary main_arg3 main_v2 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    StableHlo.reshape main_v2 main_v3 rfl shapeCasts_S1x1x128x128_S128x128,
    StableHlo.unary main_arg4 main_v4 ((extractStridedSlice S1x1x128 ![0, 0, 0] · slices_S2x2x128_S1x1x128_0_0_0) : (⟨S2x2x128, .f32⟩ : BufTy).Contents (Elt F) → (⟨S1x1x128, .f32⟩ : BufTy).Contents (Elt F)),
    StableHlo.reshape main_v4 main_v5 rfl shapeCasts_S1x1x128_S128 ]
theorem segA0_sub : (segA0 : List (HloOp τ sig (Elt F))).Forall fun op => op.bufs ⊆ tcRefs τ sig :=
  ⟨unary_bufs_sub .., reshape_bufs_sub .., unary_bufs_sub .., reshape_bufs_sub .., unary_bufs_sub .., reshape_bufs_sub ..⟩
theorem segA0_fresh : (segA0 : List (HloOp τ sig (Elt F))).Forall fun op => op.fresh = ∅ := by
  simp only [List.Forall]; repeat' constructor

/-- `jnp.take(x_gene, src_g2d, axis=0)`: a negative index wrapped by adding the row count 100000 (`_where`'s select),
    the indices as a column, the test `0 ≤ i ≤ 99999` folded by `and` along the column, the rows gathered, and a row
    of NaN wherever the test fails. -/
abbrev segA1 : List (HloOp τ sig (Elt F)) :=
  [ StableHlo.TRef.nullary main_call0.c (constantI S_ 32 0#32),
    StableHlo.TRef.unary main_call0.c main_call0.v0 (broadcastInDim S800000 ![] bcast_S_S800000),
    StableHlo.TRef.binary (.of main_arg5 : StableHlo.TRef sig ⟨S800000, .i32⟩) main_call0.v0 main_call0.v1 (cmpi .slt),
    StableHlo.TRef.nullary main_call0.c_0 (constantI S_ 32 100000#32),
    StableHlo.TRef.unary main_call0.c_0 main_call0.v2 (broadcastInDim S800000 ![] bcast_S_S800000),
    StableHlo.TRef.binary (.of main_arg5 : StableHlo.TRef sig ⟨S800000, .i32⟩) main_call0.v2 main_call0.v3 addi,
    StableHlo.TRef.ternary main_call0.v1 main_call0.v3 (.of main_arg5 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 99999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_arg0 : StableHlo.TRef sig ⟨S100000x128, .f32⟩) main_call0.v5 main_call0.v13 (fun x i => Host.gather gather_S100000x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select ]
theorem segA1_sub : (segA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem segA1_fresh : (segA1 : List (HloOp τ sig (Elt F))).Forall fun op => op.fresh = ∅ := by
  simp only [List.Forall]; repeat' constructor

/-- The mean over incoming edges and the convolution at the disease nodes: the messages added at `dst_g2d` into a zero
    50000×128 array, ones added at `dst_g2d` into a zero count, the count's maximum with 1 broadcast along the row, the
    quotient; then `mean @ Wl[0,0]ᵀ + x_disease @ Wr[0,0]ᵀ + b[0,0]` (two transposes, two contractions, the bias
    broadcast along the rows). Last, layer 0's disease → gene weights `Wl[0,1]`, `Wr[0,1]`, `b[0,1]`, sliced and reshaped. -/
abbrev segA2 : List (HloOp τ sig (Elt F)) :=
  [ StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg6 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_0 (constant S_ .f32 0x3F800000#32),
    StableHlo.unary main_cst_0 main_v10 (broadcastInDim S800000 ![] bcast_S_S800000 : (⟨S_, .f32⟩ : BufTy).Contents (Elt F) → (⟨S800000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.unary main_arg6 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v13 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.unary main_v1 main_v19 ((transpose S128x128 [1, 0] · transposes_S128x128_S128x128_1_0) : (⟨S128x128, .f32⟩ : BufTy).Contents (Elt F) → (⟨S128x128, .f32⟩ : BufTy).Contents (Elt F)),
    StableHlo.binary main_v18 main_v19 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v3 main_v21 ((transpose S128x128 [1, 0] · transposes_S128x128_S128x128_1_0) : (⟨S128x128, .f32⟩ : BufTy).Contents (Elt F) → (⟨S128x128, .f32⟩ : BufTy).Contents (Elt F)),
    StableHlo.binary main_arg1 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v20 main_v22 main_v23 (addf : (⟨S50000x128, .f32⟩ : BufTy).Contents (Elt F) → (⟨S50000x128, .f32⟩ : BufTy).Contents (Elt F) → (⟨S50000x128, .f32⟩ : BufTy).Contents (Elt F)),
    StableHlo.unary main_v5 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg2 main_v27 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    StableHlo.reshape main_v27 main_v28 rfl shapeCasts_S1x1x128x128_S128x128,
    StableHlo.unary main_arg3 main_v29 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    StableHlo.reshape main_v29 main_v30 rfl shapeCasts_S1x1x128x128_S128x128,
    StableHlo.unary main_arg4 main_v31 ((extractStridedSlice S1x1x128 ![0, 1, 0] · slices_S2x2x128_S1x1x128_0_1_0) : (⟨S2x2x128, .f32⟩ : BufTy).Contents (Elt F) → (⟨S1x1x128, .f32⟩ : BufTy).Contents (Elt F)),
    StableHlo.reshape main_v31 main_v32 rfl shapeCasts_S1x1x128_S128 ]
theorem segA2_sub : (segA2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub ..⟩
theorem segA2_fresh : (segA2 : List (HloOp τ sig (Elt F))).Forall fun op => op.fresh = ∅ := by
  simp only [List.Forall]; repeat' constructor

/-- `jnp.take(x_disease, src_d2g, axis=0)`: as above with 50000 rows (wrap by 50000, test `0 ≤ i ≤ 49999`). -/
abbrev segA3 : List (HloOp τ sig (Elt F)) :=
  [ StableHlo.TRef.nullary main_call1.c (constantI S_ 32 0#32),
    StableHlo.TRef.unary main_call1.c main_call1.v0 (broadcastInDim S800000 ![] bcast_S_S800000),
    StableHlo.TRef.binary (.of main_arg7 : StableHlo.TRef sig ⟨S800000, .i32⟩) main_call1.v0 main_call1.v1 (cmpi .slt),
    StableHlo.TRef.nullary main_call1.c_0 (constantI S_ 32 50000#32),
    StableHlo.TRef.unary main_call1.c_0 main_call1.v2 (broadcastInDim S800000 ![] bcast_S_S800000),
    StableHlo.TRef.binary (.of main_arg7 : StableHlo.TRef sig ⟨S800000, .i32⟩) main_call1.v2 main_call1.v3 addi,
    StableHlo.TRef.ternary main_call1.v1 main_call1.v3 (.of main_arg7 : StableHlo.TRef sig ⟨S800000, .i32⟩) main_call1.call0.v0 select,
    StableHlo.TRef.unary main_call1.call0.v0 main_call1.v5 (broadcastInDim S800000x1 ![0] bcast_S800000_S800000x1_0),
    StableHlo.TRef.nullary main_call1.c_1 (constantI S1 32 49999#32),
    StableHlo.TRef.nullary main_call1.c_2 (constantI S_ 32 0#32),
    StableHlo.TRef.unary main_call1.c_2 main_call1.v6 (broadcastInDim S800000x1 ![] bcast_S_S800000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S800000x1 ![0, 1] bcast_S1x1_S800000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S800000x1_S800000_d1 h_S_),
    StableHlo.TRef.binary (.of main_arg1 : StableHlo.TRef sig ⟨S50000x128, .f32⟩) main_call1.v5 main_call1.v13 (fun x i => Host.gather gather_S50000x128_S800000x1_S800000x128_1_0_n_n_0_1_1128 x i),
    StableHlo.TRef.unary main_call1.v12 main_call1.v14 (broadcastInDim S800000x128 ![0] bcast_S800000_S800000x128_0),
    StableHlo.TRef.nullary main_call1.cst (constant S_ .f32 0x7FC00000#32),
    StableHlo.TRef.unary main_call1.cst main_call1.v15 (broadcastInDim S800000x128 ![] bcast_S_S800000x128),
    StableHlo.TRef.ternary main_call1.v14 main_call1.v13 main_call1.v15 main_call1.v16 select ]
theorem segA3_sub : (segA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem segA3_fresh : (segA3 : List (HloOp τ sig (Elt F))).Forall fun op => op.fresh = ∅ := by
  simp only [List.Forall]; repeat' constructor

/-- The mean over incoming edges at the gene nodes (messages and ones added at `dst_d2g`, the count's maximum with 1,
    the quotient) and `mean @ Wl[0,1]ᵀ + x_gene @ Wr[0,1]ᵀ`; of the bias only its first broadcast, to 1×128. -/
abbrev segA4 : List (HloOp τ sig (Elt F)) :=
  [ StableHlo.nullary main_cst_3 (constant S_ .f32 0x00000000#32),
    StableHlo.unary main_cst_3 main_v34 (broadcastInDim S100000x128 ![] bcast_S_S100000x128 : (⟨S_, .f32⟩ : BufTy).Contents (Elt F) → (⟨S100000x128, .f32⟩ : BufTy).Contents (Elt F)),
    StableHlo.unary main_arg8 main_v35 (broadcastInDim S800000x1 ![0] bcast_S800000_S800000x1_0 : (⟨S800000, .i32⟩ : BufTy).Contents (Elt F) → (⟨S800000x1, .i32⟩ : BufTy).Contents (Elt F)),
    StableHlo.ternary main_v34 main_v35 main_v33 main_v36 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_4 (constant S_ .f32 0x3F800000#32),
    StableHlo.unary main_cst_4 main_v37 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v38 (broadcastInDim S100000 ![] bcast_S_S100000 : (⟨S_, .f32⟩ : BufTy).Contents (Elt F) → (⟨S100000, .f32⟩ : BufTy).Contents (Elt F)),
    StableHlo.unary main_arg8 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_6 (constant S_ .f32 0x3F800000#32),
    StableHlo.unary main_cst_6 main_v41 (broadcastInDim S100000 ![] bcast_S_S100000 : (⟨S_, .f32⟩ : BufTy).Contents (Elt F) → (⟨S100000, .f32⟩ : BufTy).Contents (Elt F)),
    StableHlo.binary main_v40 main_v41 main_v42 (maximumf : (⟨S100000, .f32⟩ : BufTy).Contents (Elt F) → (⟨S100000, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v36 main_v44 main_v45 (Host.divf : (⟨S100000x128, .f32⟩ : BufTy).Contents (Elt F) → (⟨S100000x128, .f32⟩ : BufTy).Contents (Elt F) → (⟨S100000x128, .f32⟩ : BufTy).Contents (Elt F)),
    StableHlo.unary main_v28 main_v46 ((transpose S128x128 [1, 0] · transposes_S128x128_S128x128_1_0) : (⟨S128x128, .f32⟩ : BufTy).Contents (Elt F) → (⟨S128x128, .f32⟩ : BufTy).Contents (Elt F)),
    StableHlo.binary main_v45 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v48 ((transpose S128x128 [1, 0] · transposes_S128x128_S128x128_1_0) : (⟨S128x128, .f32⟩ : BufTy).Contents (Elt F) → (⟨S128x128, .f32⟩ : BufTy).Contents (Elt F)),
    StableHlo.binary main_arg0 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.unary main_v32 main_v51 (broadcastInDim S1x128 ![1] bcast_S128_S1x128_1 : (⟨S128, .f32⟩ : BufTy).Contents (Elt F) → (⟨S1x128, .f32⟩ : BufTy).Contents (Elt F)) ]
theorem segA4_sub : (segA4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub ..⟩
theorem segA4_fresh : (segA4 : List (HloOp τ sig (Elt F))).Forall fun op => op.fresh = ∅ := by
  simp only [List.Forall]; repeat' constructor

/-- The window's operations in program order: its segments one after the other. -/
abbrev opsA : List (HloOp τ sig (Elt F)) := segA0 ++ segA1 ++ segA2 ++ segA3 ++ segA4

set_option maxRecDepth 8192 in
/-- The window is that straight line: each call's definition unfolded at the call and the record at its fields, the line
    cut at the segments' ends (`seq_append`), both sides are one chain of `hlo` steps once sequencing is reassociated
    (`bind_assoc`, `pure_bind`). -/
theorem partA_eq (c : Dev nD) : main_part0 (F := F) c = seq opsA := by
  simp only [main_part0, fn_take.body, fn_take_0.body, fn_where.body, opsA, segA0, segA1, segA2, segA3, segA4, seq_append, seq, bind_assoc, pure_bind] <;> rfl

theorem opsA_sub : (opsA : List (HloOp τ sig (Elt F))).Forall fun op => op.bufs ⊆ tcRefs τ sig :=
  forall_append_of (forall_append_of (forall_append_of (forall_append_of (segA0_sub) segA1_sub) segA2_sub) segA3_sub) segA4_sub

theorem opsA_fresh : (opsA : List (HloOp τ sig (Elt F))).Forall fun op => op.fresh = ∅ :=
  forall_append_of (forall_append_of (forall_append_of (forall_append_of (segA0_fresh) segA1_fresh) segA2_fresh) segA3_fresh) segA4_fresh

end Cert.ReferenceIdeal.RefRun

end
-- ==== Proof.RefRun.PartB.lean ====
/- The reference program's run, second window: @main's statements 61 … 120 — the end of layer 0 (bias, `relu`, the row
   normalization, the skip sums) and layer 1 up to the gene nodes' summed messages — as a LIST of its 116 host
   operations, each call's operations written at the call over that call's buffers, and the window's program shown to be
   that list run in order. -/
import proofs.«118446_j88244398064001_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The bias `b[0,1]` broadcast along the 100000 rows and added: layer 0's convolution at the gene nodes. -/
abbrev segB0 : List (HloOp τ sig (Elt F)) :=
  [ StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v52 main_v53 (addf : (⟨S100000x128, .f32⟩ : BufTy).Contents (Elt F) → (⟨S100000x128, .f32⟩ : BufTy).Contents (Elt F) → (⟨S100000x128, .f32⟩ : BufTy).Contents (Elt F)) ]
theorem segB0_sub : (segB0 : List (HloOp τ sig (Elt F))).Forall fun op => op.bufs ⊆ tcRefs τ sig :=
  ⟨unary_bufs_sub .., binary_bufs_sub ..⟩
theorem segB0_fresh : (segB0 : List (HloOp τ sig (Elt F))).Forall fun op => op.fresh = ∅ := by
  simp only [List.Forall]; repeat' constructor

/-- `relu` of the gene convolution: its maximum with zero. -/
abbrev segB1 : List (HloOp τ sig (Elt F)) :=
  [ StableHlo.TRef.nullary main_call2.cst (constant S_ .f32 0x00000000#32),
    StableHlo.TRef.unary main_call2.cst main_call2.v0 (broadcastInDim S100000x128 ![] bcast_S_S100000x128),
    StableHlo.TRef.binary (.of main_v53 : StableHlo.TRef sig ⟨S100000x128, .f32⟩) main_call2.v0 main_call2.v1 maximumf ]
theorem segB1_sub : (segB1 : List (HloOp τ sig (Elt F))).Forall fun op => op.bufs ⊆ tcRefs τ sig :=
  ⟨nullary_bufs_sub .., unary_bufs_sub .., binary_bufs_sub ..⟩
theorem segB1_fresh : (segB1 : List (HloOp τ sig (Elt F))).Forall fun op => op.fresh = ∅ := by
  simp only [List.Forall]; repeat' constructor

/-- `relu` of the disease convolution: its maximum with zero. -/
abbrev segB2 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v26 : StableHlo.TRef sig ⟨S50000x128, .f32⟩) main_call3.v0 main_call3.v1 maximumf ]
theorem segB2_sub : (segB2 : List (HloOp τ sig (Elt F))).Forall fun op => op.bufs ⊆ tcRefs τ sig :=
  ⟨nullary_bufs_sub .., unary_bufs_sub .., binary_bufs_sub ..⟩
theorem segB2_fresh : (segB2 : List (HloOp τ sig (Elt F))).Forall fun op => op.fresh = ∅ := by
  simp only [List.Forall]; repeat' constructor

/-- The row norms of the gene features: the squares, summed along the row from zero, as a column, the square root. -/
abbrev segB3 : List (HloOp τ sig (Elt F)) :=
  [ StableHlo.TRef.binary (.of main_v54 : StableHlo.TRef sig ⟨S100000x128, .f32⟩) (.of main_v54 : StableHlo.TRef sig ⟨S100000x128, .f32⟩) main_call4.v0 mulf,
    StableHlo.TRef.nullary main_call4.cst (constant S_ .f32 0x00000000#32),
    StableHlo.TRef.binary main_call4.v0 main_call4.cst main_call4.v1 (fun x v => Host.reduceAdd x v reducesTo_S100000x128_S100000_d1 h_S_),
    StableHlo.TRef.unary main_call4.v1 main_call4.v2 (broadcastInDim S100000x1 ![0] bcast_S100000_S100000x1_0),
    StableHlo.TRef.unary main_call4.v2 main_call4.v3 Host.sqrt ]
theorem segB3_sub : (segB3 : List (HloOp τ sig (Elt F))).Forall fun op => op.bufs ⊆ tcRefs τ sig :=
  ⟨binary_bufs_sub .., nullary_bufs_sub .., binary_bufs_sub .., unary_bufs_sub .., unary_bufs_sub ..⟩
theorem segB3_fresh : (segB3 : List (HloOp τ sig (Elt F))).Forall fun op => op.fresh = ∅ := by
  simp only [List.Forall]; repeat' constructor

/-- The gene features over `max(norm, 1e-12)` (the constant is the float32 nearest 1e-12), the maximum broadcast along the row. -/
abbrev segB4 : List (HloOp τ sig (Elt F)) :=
  [ StableHlo.nullary main_cst_7 (constant S_ .f32 0x2B8CBCCC#32),
    StableHlo.unary main_cst_7 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (maximumf : (⟨S100000x1, .f32⟩ : BufTy).Contents (Elt F) → (⟨S100000x1, .f32⟩ : BufTy).Contents (Elt F) → (⟨S100000x1, .f32⟩ : BufTy).Contents (Elt F)),
    StableHlo.unary main_v58 main_v59 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v59 main_v60 (Host.divf : (⟨S100000x128, .f32⟩ : BufTy).Contents (Elt F) → (⟨S100000x128, .f32⟩ : BufTy).Contents (Elt F) → (⟨S100000x128, .f32⟩ : BufTy).Contents (Elt F)) ]
theorem segB4_sub : (segB4 : List (HloOp τ sig (Elt F))).Forall fun op => op.bufs ⊆ tcRefs τ sig :=
  ⟨nullary_bufs_sub .., unary_bufs_sub .., binary_bufs_sub .., unary_bufs_sub .., binary_bufs_sub ..⟩
theorem segB4_fresh : (segB4 : List (HloOp τ sig (Elt F))).Forall fun op => op.fresh = ∅ := by
  simp only [List.Forall]; repeat' constructor

/-- The row norms of the disease features. -/
abbrev segB5 : List (HloOp τ sig (Elt F)) :=
  [ StableHlo.TRef.binary (.of main_v55 : StableHlo.TRef sig ⟨S50000x128, .f32⟩) (.of main_v55 : StableHlo.TRef sig ⟨S50000x128, .f32⟩) main_call5.v0 mulf,
    StableHlo.TRef.nullary main_call5.cst (constant S_ .f32 0x00000000#32),
    StableHlo.TRef.binary main_call5.v0 main_call5.cst main_call5.v1 (fun x v => Host.reduceAdd x v reducesTo_S50000x128_S50000_d1 h_S_),
    StableHlo.TRef.unary main_call5.v1 main_call5.v2 (broadcastInDim S50000x1 ![0] bcast_S50000_S50000x1_0),
    StableHlo.TRef.unary main_call5.v2 main_call5.v3 Host.sqrt ]
theorem segB5_sub : (segB5 : List (HloOp τ sig (Elt F))).Forall fun op => op.bufs ⊆ tcRefs τ sig :=
  ⟨binary_bufs_sub .., nullary_bufs_sub .., binary_bufs_sub .., unary_bufs_sub .., unary_bufs_sub ..⟩
theorem segB5_fresh : (segB5 : List (HloOp τ sig (Elt F))).Forall fun op => op.fresh = ∅ := by
  simp only [List.Forall]; repeat' constructor

/-- The disease features over `max(norm, 1e-12)`; the skip sums `xg = hg + x_gene` and `xd = hd + x_disease`; then layer
    1's gene → disease weights `Wl[1,0]`, `Wr[1,0]`, `b[1,0]`, sliced and reshaped. -/
abbrev segB6 : List (HloOp τ sig (Elt F)) :=
  [ StableHlo.nullary main_cst_8 (constant S_ .f32 0x2B8CBCCC#32),
    StableHlo.unary main_cst_8 main_v62 (broadcastInDim S50000x1 ![] bcast_S_S50000x1 : (⟨S_, .f32⟩ : BufTy).Contents (Elt F) → (⟨S50000x1, .f32⟩ : BufTy).Contents (Elt F)),
    StableHlo.binary main_v61 main_v62 main_v63 (maximumf : (⟨S50000x1, .f32⟩ : BufTy).Contents (Elt F) → (⟨S50000x1, .f32⟩ : BufTy).Contents (Elt F) → (⟨S50000x1, .f32⟩ : BufTy).Contents (Elt F)),
    StableHlo.unary main_v63 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v64 main_v65 (Host.divf : (⟨S50000x128, .f32⟩ : BufTy).Contents (Elt F) → (⟨S50000x128, .f32⟩ : BufTy).Contents (Elt F) → (⟨S50000x128, .f32⟩ : BufTy).Contents (Elt F)),
    StableHlo.binary main_v60 main_arg0 main_v66 (addf : (⟨S100000x128, .f32⟩ : BufTy).Contents (Elt F) → (⟨S100000x128, .f32⟩ : BufTy).Contents (Elt F) → (⟨S100000x128, .f32⟩ : BufTy).Contents (Elt F)),
    StableHlo.binary main_v65 main_arg1 main_v67 (addf : (⟨S50000x128, .f32⟩ : BufTy).Contents (Elt F) → (⟨S50000x128, .f32⟩ : BufTy).Contents (Elt F) → (⟨S50000x128, .f32⟩ : BufTy).Contents (Elt F)),
    StableHlo.unary main_arg2 main_v68 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    StableHlo.reshape main_v68 main_v69 rfl shapeCasts_S1x1x128x128_S128x128,
    StableHlo.unary main_arg3 main_v70 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    StableHlo.reshape main_v70 main_v71 rfl shapeCasts_S1x1x128x128_S128x128,
    StableHlo.unary main_arg4 main_v72 ((extractStridedSlice S1x1x128 ![1, 0, 0] · slices_S2x2x128_S1x1x128_1_0_0) : (⟨S2x2x128, .f32⟩ : BufTy).Contents (Elt F) → (⟨S1x1x128, .f32⟩ : BufTy).Contents (Elt F)),
    StableHlo.reshape main_v72 main_v73 rfl shapeCasts_S1x1x128_S128 ]
theorem segB6_sub : (segB6 : List (HloOp τ sig (Elt F))).Forall fun op => op.bufs ⊆ tcRefs τ sig :=
  ⟨nullary_bufs_sub .., unary_bufs_sub .., binary_bufs_sub .., unary_bufs_sub .., binary_bufs_sub .., binary_bufs_sub .., binary_bufs_sub .., unary_bufs_sub .., reshape_bufs_sub .., unary_bufs_sub .., reshape_bufs_sub .., unary_bufs_sub .., reshape_bufs_sub ..⟩
theorem segB6_fresh : (segB6 : List (HloOp τ sig (Elt F))).Forall fun op => op.fresh = ∅ := by
  simp only [List.Forall]; repeat' constructor

/-- `jnp.take(xg, src_g2d, axis=0)` on layer 0's gene output. -/
abbrev segB7 : List (HloOp τ sig (Elt F)) :=
  [ StableHlo.TRef.nullary main_call6.c (constantI S_ 32 0#32),
    StableHlo.TRef.unary main_call6.c main_call6.v0 (broadcastInDim S800000 ![] bcast_S_S800000),
    StableHlo.TRef.binary (.of main_arg5 : StableHlo.TRef sig ⟨S800000, .i32⟩) main_call6.v0 main_call6.v1 (cmpi .slt),
    StableHlo.TRef.nullary main_call6.c_0 (constantI S_ 32 100000#32),
    StableHlo.TRef.unary main_call6.c_0 main_call6.v2 (broadcastInDim S800000 ![] bcast_S_S800000),
    StableHlo.TRef.binary (.of main_arg5 : StableHlo.TRef sig ⟨S800000, .i32⟩) main_call6.v2 main_call6.v3 addi,
    StableHlo.TRef.ternary main_call6.v1 main_call6.v3 (.of main_arg5 : StableHlo.TRef sig ⟨S800000, .i32⟩) main_call6.call0.v0 select,
    StableHlo.TRef.unary main_call6.call0.v0 main_call6.v5 (broadcastInDim S800000x1 ![0] bcast_S800000_S800000x1_0),
    StableHlo.TRef.nullary main_call6.c_1 (constantI S1 32 99999#32),
    StableHlo.TRef.nullary main_call6.c_2 (constantI S_ 32 0#32),
    StableHlo.TRef.unary main_call6.c_2 main_call6.v6 (broadcastInDim S800000x1 ![] bcast_S_S800000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S800000x1 ![0, 1] bcast_S1x1_S800000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S800000x1_S800000_d1 h_S_),
    StableHlo.TRef.binary (.of main_v66 : StableHlo.TRef sig ⟨S100000x128, .f32⟩) main_call6.v5 main_call6.v13 (fun x i => Host.gather gather_S100000x128_S800000x1_S800000x128_1_0_n_n_0_1_1128 x i),
    StableHlo.TRef.unary main_call6.v12 main_call6.v14 (broadcastInDim S800000x128 ![0] bcast_S800000_S800000x128_0),
    StableHlo.TRef.nullary main_call6.cst (constant S_ .f32 0x7FC00000#32),
    StableHlo.TRef.unary main_call6.cst main_call6.v15 (broadcastInDim S800000x128 ![] bcast_S_S800000x128),
    StableHlo.TRef.ternary main_call6.v14 main_call6.v13 main_call6.v15 main_call6.v16 select ]
theorem segB7_sub : (segB7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem segB7_fresh : (segB7 : List (HloOp τ sig (Elt F))).Forall fun op => op.fresh = ∅ := by
  simp only [List.Forall]; repeat' constructor

/-- Layer 1 at the disease nodes: the mean of the messages over `dst_g2d`, then `mean @ Wl[1,0]ᵀ + xd @ Wr[1,0]ᵀ + b[1,0]`;
    then layer 1's disease → gene weights `Wl[1,1]`, `Wr[1,1]`, `b[1,1]`, sliced and reshaped. -/
abbrev segB8 : List (HloOp τ sig (Elt F)) :=
  [ StableHlo.nullary main_cst_9 (constant S_ .f32 0x00000000#32),
    StableHlo.unary main_cst_9 main_v75 (broadcastInDim S50000x128 ![] bcast_S_S50000x128 : (⟨S_, .f32⟩ : BufTy).Contents (Elt F) → (⟨S50000x128, .f32⟩ : BufTy).Contents (Elt F)),
    StableHlo.unary main_arg6 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_10 (constant S_ .f32 0x3F800000#32),
    StableHlo.unary main_cst_10 main_v78 (broadcastInDim S800000 ![] bcast_S_S800000 : (⟨S_, .f32⟩ : BufTy).Contents (Elt F) → (⟨S800000, .f32⟩ : BufTy).Contents (Elt F)),
    StableHlo.nullary main_cst_11 (constant S_ .f32 0x00000000#32),
    StableHlo.unary main_cst_11 main_v79 (broadcastInDim S50000 ![] bcast_S_S50000 : (⟨S_, .f32⟩ : BufTy).Contents (Elt F) → (⟨S50000, .f32⟩ : BufTy).Contents (Elt F)),
    StableHlo.unary main_arg6 main_v80 (broadcastInDim S800000x1 ![0] bcast_S800000_S800000x1_0 : (⟨S800000, .i32⟩ : BufTy).Contents (Elt F) → (⟨S800000x1, .i32⟩ : BufTy).Contents (Elt F)),
    StableHlo.ternary main_v79 main_v80 main_v78 main_v81 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_12 (constant S_ .f32 0x3F800000#32),
    StableHlo.unary main_cst_12 main_v82 (broadcastInDim S50000 ![] bcast_S_S50000 : (⟨S_, .f32⟩ : BufTy).Contents (Elt F) → (⟨S50000, .f32⟩ : BufTy).Contents (Elt F)),
    StableHlo.binary main_v81 main_v82 main_v83 (maximumf : (⟨S50000, .f32⟩ : BufTy).Contents (Elt F) → (⟨S50000, .f32⟩ : BufTy).Contents (Elt F) → (⟨S50000, .f32⟩ : BufTy).Contents (Elt F)),
    StableHlo.unary main_v83 main_v84 (broadcastInDim S50000x1 ![0] bcast_S50000_S50000x1_0 : (⟨S50000, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v77 main_v85 main_v86 (Host.divf : (⟨S50000x128, .f32⟩ : BufTy).Contents (Elt F) → (⟨S50000x128, .f32⟩ : BufTy).Contents (Elt F) → (⟨S50000x128, .f32⟩ : BufTy).Contents (Elt F)),
    StableHlo.unary main_v69 main_v87 ((transpose S128x128 [1, 0] · transposes_S128x128_S128x128_1_0) : (⟨S128x128, .f32⟩ : BufTy).Contents (Elt F) → (⟨S128x128, .f32⟩ : BufTy).Contents (Elt F)),
    StableHlo.binary main_v86 main_v87 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v71 main_v89 ((transpose S128x128 [1, 0] · transposes_S128x128_S128x128_1_0) : (⟨S128x128, .f32⟩ : BufTy).Contents (Elt F) → (⟨S128x128, .f32⟩ : BufTy).Contents (Elt F)),
    StableHlo.binary main_v67 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)),
    StableHlo.unary main_v73 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.unary main_arg2 main_v95 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    StableHlo.reshape main_v95 main_v96 rfl shapeCasts_S1x1x128x128_S128x128,
    StableHlo.unary main_arg3 main_v97 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    StableHlo.reshape main_v97 main_v98 rfl shapeCasts_S1x1x128x128_S128x128,
    StableHlo.unary main_arg4 main_v99 ((extractStridedSlice S1x1x128 ![1, 1, 0] · slices_S2x2x128_S1x1x128_1_1_0) : (⟨S2x2x128, .f32⟩ : BufTy).Contents (Elt F) → (⟨S1x1x128, .f32⟩ : BufTy).Contents (Elt F)),
    StableHlo.reshape main_v99 main_v100 rfl shapeCasts_S1x1x128_S128 ]
theorem segB8_sub : (segB8 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub ..⟩
theorem segB8_fresh : (segB8 : List (HloOp τ sig (Elt F))).Forall fun op => op.fresh = ∅ := by
  simp only [List.Forall]; repeat' constructor

/-- `jnp.take(xd, src_d2g, axis=0)` on layer 0's disease output. -/
abbrev segB9 : List (HloOp τ sig (Elt F)) :=
  [ StableHlo.TRef.nullary main_call7.c (constantI S_ 32 0#32),
    StableHlo.TRef.unary main_call7.c main_call7.v0 (broadcastInDim S800000 ![] bcast_S_S800000),
    StableHlo.TRef.binary (.of main_arg7 : StableHlo.TRef sig ⟨S800000, .i32⟩) main_call7.v0 main_call7.v1 (cmpi .slt),
    StableHlo.TRef.nullary main_call7.c_0 (constantI S_ 32 50000#32),
    StableHlo.TRef.unary main_call7.c_0 main_call7.v2 (broadcastInDim S800000 ![] bcast_S_S800000),
    StableHlo.TRef.binary (.of main_arg7 : StableHlo.TRef sig ⟨S800000, .i32⟩) main_call7.v2 main_call7.v3 addi,
    StableHlo.TRef.ternary main_call7.v1 main_call7.v3 (.of main_arg7 : StableHlo.TRef sig ⟨S800000, .i32⟩) main_call7.call0.v0 select,
    StableHlo.TRef.unary main_call7.call0.v0 main_call7.v5 (broadcastInDim S800000x1 ![0] bcast_S800000_S800000x1_0),
    StableHlo.TRef.nullary main_call7.c_1 (constantI S1 32 49999#32),
    StableHlo.TRef.nullary main_call7.c_2 (constantI S_ 32 0#32),
    StableHlo.TRef.unary main_call7.c_2 main_call7.v6 (broadcastInDim S800000x1 ![] bcast_S_S800000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S800000x1 ![0, 1] bcast_S1x1_S800000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S800000x1_S800000_d1 h_S_),
    StableHlo.TRef.binary (.of main_v67 : StableHlo.TRef sig ⟨S50000x128, .f32⟩) main_call7.v5 main_call7.v13 (fun x i => Host.gather gather_S50000x128_S800000x1_S800000x128_1_0_n_n_0_1_1128 x i),
    StableHlo.TRef.unary main_call7.v12 main_call7.v14 (broadcastInDim S800000x128 ![0] bcast_S800000_S800000x128_0),
    StableHlo.TRef.nullary main_call7.cst (constant S_ .f32 0x7FC00000#32),
    StableHlo.TRef.unary main_call7.cst main_call7.v15 (broadcastInDim S800000x128 ![] bcast_S_S800000x128),
    StableHlo.TRef.ternary main_call7.v14 main_call7.v13 main_call7.v15 main_call7.v16 select ]
theorem segB9_sub : (segB9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem segB9_fresh : (segB9 : List (HloOp τ sig (Elt F))).Forall fun op => op.fresh = ∅ := by
  simp only [List.Forall]; repeat' constructor

/-- The messages added at `dst_d2g` into a zero 100000×128 array. -/
abbrev segB10 : List (HloOp τ sig (Elt F)) :=
  [ StableHlo.nullary main_cst_13 (constant S_ .f32 0x00000000#32),
    StableHlo.unary main_cst_13 main_v102 (broadcastInDim S100000x128 ![] bcast_S_S100000x128 : (⟨S_, .f32⟩ : BufTy).Contents (Elt F) → (⟨S100000x128, .f32⟩ : BufTy).Contents (Elt F)),
    StableHlo.unary main_arg8 main_v103 (broadcastInDim S800000x1 ![0] bcast_S800000_S800000x1_0 : (⟨S800000, .i32⟩ : BufTy).Contents (Elt F) → (⟨S800000x1, .i32⟩ : BufTy).Contents (Elt F)),
    StableHlo.ternary main_v102 main_v103 main_v101 main_v104 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]
theorem segB10_sub : (segB10 : List (HloOp τ sig (Elt F))).Forall fun op => op.bufs ⊆ tcRefs τ sig :=
  ⟨nullary_bufs_sub .., unary_bufs_sub .., unary_bufs_sub .., ternary_bufs_sub ..⟩
theorem segB10_fresh : (segB10 : List (HloOp τ sig (Elt F))).Forall fun op => op.fresh = ∅ := by
  simp only [List.Forall]; repeat' constructor

/-- The window's operations in program order: its segments one after the other. -/
abbrev opsB : List (HloOp τ sig (Elt F)) := segB0 ++ segB1 ++ segB2 ++ segB3 ++ segB4 ++ segB5 ++ segB6 ++ segB7 ++ segB8 ++ segB9 ++ segB10

set_option maxRecDepth 8192 in
/-- The window is that straight line: each call's definition unfolded at the call and the record at its fields, the line
    cut at the segments' ends (`seq_append`), both sides are one chain of `hlo` steps once sequencing is reassociated
    (`bind_assoc`, `pure_bind`). -/
theorem partB_eq (c : Dev nD) : main_part1 (F := F) c = seq opsB := by
  simp only [main_part1, fn_relu.body, fn_relu_1.body, fn_norm.body, fn_norm_2.body, fn_take_3.body, fn_take_4.body, fn_where.body, opsB, segB0, segB1, segB2, segB3, segB4, segB5, segB6, segB7, segB8, segB9, segB10, seq_append, seq, bind_assoc, pure_bind] <;> rfl

theorem opsB_sub : (opsB : List (HloOp τ sig (Elt F))).Forall fun op => op.bufs ⊆ tcRefs τ sig :=
  forall_append_of (forall_append_of (forall_append_of (forall_append_of (forall_append_of (forall_append_of (forall_append_of (forall_append_of (forall_append_of (forall_append_of (segB0_sub) segB1_sub) segB2_sub) segB3_sub) segB4_sub) segB5_sub) segB6_sub) segB7_sub) segB8_sub) segB9_sub) segB10_sub

theorem opsB_fresh : (opsB : List (HloOp τ sig (Elt F))).Forall fun op => op.fresh = ∅ :=
  forall_append_of (forall_append_of (forall_append_of (forall_append_of (forall_append_of (forall_append_of (forall_append_of (forall_append_of (forall_append_of (forall_append_of (segB0_fresh) segB1_fresh) segB2_fresh) segB3_fresh) segB4_fresh) segB5_fresh) segB6_fresh) segB7_fresh) segB8_fresh) segB9_fresh) segB10_fresh

end Cert.ReferenceIdeal.RefRun

end
-- ==== Proof.RefRun.PartC.lean ====
/- The reference program's run, third window: @main's statements 121 … 155 — the end of layer 1 (the gene nodes' mean and
   convolution, the row normalization of both node types, the skip sums: the two results) — as a LIST of its 42 host
   operations, each call's operations written at the call over that call's buffers, and the window's program shown to be
   that list run in order. -/
import proofs.«118446_j88244398064001_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1 at the gene nodes: ones added at `dst_d2g` into a zero count, its maximum with 1 broadcast along the row, the
    mean; then `mean @ Wl[1,1]ᵀ + xg @ Wr[1,1]ᵀ + b[1,1]`. The last layer has no `relu`. -/
abbrev segC0 : List (HloOp τ sig (Elt F)) :=
  [ StableHlo.nullary main_cst_14 (constant S_ .f32 0x3F800000#32),
    StableHlo.unary main_cst_14 main_v105 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v106 (broadcastInDim S100000 ![] bcast_S_S100000 : (⟨S_, .f32⟩ : BufTy).Contents (Elt F) → (⟨S100000, .f32⟩ : BufTy).Contents (Elt F)),
    StableHlo.unary main_arg8 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_16 (constant S_ .f32 0x3F800000#32),
    StableHlo.unary main_cst_16 main_v109 (broadcastInDim S100000 ![] bcast_S_S100000 : (⟨S_, .f32⟩ : BufTy).Contents (Elt F) → (⟨S100000, .f32⟩ : BufTy).Contents (Elt F)),
    StableHlo.binary main_v108 main_v109 main_v110 (maximumf : (⟨S100000, .f32⟩ : BufTy).Contents (Elt F) → (⟨S100000, .f32⟩ : BufTy).Contents (Elt F) → (⟨S100000, .f32⟩ : BufTy).Contents (Elt F)),
    StableHlo.unary main_v110 main_v111 (broadcastInDim S100000x1 ![0] bcast_S100000_S100000x1_0 : (⟨S100000, .f32⟩ : BufTy).Contents (Elt F) → (⟨S100000x1, .f32⟩ : BufTy).Contents (Elt F)),
    StableHlo.unary main_v111 main_v112 (broadcastInDim S100000x128 ![0, 1] bcast_S100000x1_S100000x128_0_1 : (⟨S100000x1, .f32⟩ : BufTy).Contents (Elt F) → (⟨S100000x128, .f32⟩ : BufTy).Contents (Elt F)),
    StableHlo.binary main_v104 main_v112 main_v113 (Host.divf : (⟨S100000x128, .f32⟩ : BufTy).Contents (Elt F) → (⟨S100000x128, .f32⟩ : BufTy).Contents (Elt F) → (⟨S100000x128, .f32⟩ : BufTy).Contents (Elt F)),
    StableHlo.unary main_v96 main_v114 ((transpose S128x128 [1, 0] · transposes_S128x128_S128x128_1_0) : (⟨S128x128, .f32⟩ : BufTy).Contents (Elt F) → (⟨S128x128, .f32⟩ : BufTy).Contents (Elt F)),
    StableHlo.binary main_v113 main_v114 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v98 main_v116 ((transpose S128x128 [1, 0] · transposes_S128x128_S128x128_1_0) : (⟨S128x128, .f32⟩ : BufTy).Contents (Elt F) → (⟨S128x128, .f32⟩ : BufTy).Contents (Elt F)),
    StableHlo.binary main_v66 main_v116 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.unary main_v100 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v120 main_v121 (addf : (⟨S100000x128, .f32⟩ : BufTy).Contents (Elt F) → (⟨S100000x128, .f32⟩ : BufTy).Contents (Elt F) → (⟨S100000x128, .f32⟩ : BufTy).Contents (Elt F)) ]
theorem segC0_sub : (segC0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩
theorem segC0_fresh : (segC0 : List (HloOp τ sig (Elt F))).Forall fun op => op.fresh = ∅ := by
  simp only [List.Forall]; repeat' constructor

/-- The row norms of layer 1's gene convolution. -/
abbrev segC1 : List (HloOp τ sig (Elt F)) :=
  [ StableHlo.TRef.binary (.of main_v121 : StableHlo.TRef sig ⟨S100000x128, .f32⟩) (.of main_v121 : StableHlo.TRef sig ⟨S100000x128, .f32⟩) main_call8.v0 mulf,
    StableHlo.TRef.nullary main_call8.cst (constant S_ .f32 0x00000000#32),
    StableHlo.TRef.binary main_call8.v0 main_call8.cst main_call8.v1 (fun x v => Host.reduceAdd x v reducesTo_S100000x128_S100000_d1 h_S_),
    StableHlo.TRef.unary main_call8.v1 main_call8.v2 (broadcastInDim S100000x1 ![0] bcast_S100000_S100000x1_0),
    StableHlo.TRef.unary main_call8.v2 main_call8.v3 Host.sqrt ]
theorem segC1_sub : (segC1 : List (HloOp τ sig (Elt F))).Forall fun op => op.bufs ⊆ tcRefs τ sig :=
  ⟨binary_bufs_sub .., nullary_bufs_sub .., binary_bufs_sub .., unary_bufs_sub .., unary_bufs_sub ..⟩
theorem segC1_fresh : (segC1 : List (HloOp τ sig (Elt F))).Forall fun op => op.fresh = ∅ := by
  simp only [List.Forall]; repeat' constructor

/-- The gene convolution over `max(norm, 1e-12)`. -/
abbrev segC2 : List (HloOp τ sig (Elt F)) :=
  [ StableHlo.nullary main_cst_17 (constant S_ .f32 0x2B8CBCCC#32),
    StableHlo.unary main_cst_17 main_v123 (broadcastInDim S100000x1 ![] bcast_S_S100000x1 : (⟨S_, .f32⟩ : BufTy).Contents (Elt F) → (⟨S100000x1, .f32⟩ : BufTy).Contents (Elt F)),
    StableHlo.binary main_v122 main_v123 main_v124 (maximumf : (⟨S100000x1, .f32⟩ : BufTy).Contents (Elt F) → (⟨S100000x1, .f32⟩ : BufTy).Contents (Elt F) → (⟨S100000x1, .f32⟩ : BufTy).Contents (Elt F)),
    StableHlo.unary main_v124 main_v125 (broadcastInDim S100000x128 ![0, 1] bcast_S100000x1_S100000x128_0_1 : (⟨S100000x1, .f32⟩ : BufTy).Contents (Elt F) → (⟨S100000x128, .f32⟩ : BufTy).Contents (Elt F)),
    StableHlo.binary main_v121 main_v125 main_v126 (Host.divf : (⟨S100000x128, .f32⟩ : BufTy).Contents (Elt F) → (⟨S100000x128, .f32⟩ : BufTy).Contents (Elt F) → (⟨S100000x128, .f32⟩ : BufTy).Contents (Elt F)) ]
theorem segC2_sub : (segC2 : List (HloOp τ sig (Elt F))).Forall fun op => op.bufs ⊆ tcRefs τ sig :=
  ⟨nullary_bufs_sub .., unary_bufs_sub .., binary_bufs_sub .., unary_bufs_sub .., binary_bufs_sub ..⟩
theorem segC2_fresh : (segC2 : List (HloOp τ sig (Elt F))).Forall fun op => op.fresh = ∅ := by
  simp only [List.Forall]; repeat' constructor

/-- The row norms of layer 1's disease convolution. -/
abbrev segC3 : List (HloOp τ sig (Elt F)) :=
  [ StableHlo.TRef.binary (.of main_v94 : StableHlo.TRef sig ⟨S50000x128, .f32⟩) (.of main_v94 : StableHlo.TRef sig ⟨S50000x128, .f32⟩) main_call9.v0 mulf,
    StableHlo.TRef.nullary main_call9.cst (constant S_ .f32 0x00000000#32),
    StableHlo.TRef.binary main_call9.v0 main_call9.cst main_call9.v1 (fun x v => Host.reduceAdd x v reducesTo_S50000x128_S50000_d1 h_S_),
    StableHlo.TRef.unary main_call9.v1 main_call9.v2 (broadcastInDim S50000x1 ![0] bcast_S50000_S50000x1_0),
    StableHlo.TRef.unary main_call9.v2 main_call9.v3 Host.sqrt ]
theorem segC3_sub : (segC3 : List (HloOp τ sig (Elt F))).Forall fun op => op.bufs ⊆ tcRefs τ sig :=
  ⟨binary_bufs_sub .., nullary_bufs_sub .., binary_bufs_sub .., unary_bufs_sub .., unary_bufs_sub ..⟩
theorem segC3_fresh : (segC3 : List (HloOp τ sig (Elt F))).Forall fun op => op.fresh = ∅ := by
  simp only [List.Forall]; repeat' constructor

/-- The disease convolution over `max(norm, 1e-12)`, and the skip sums: the two results `hg + xg` and `hd + xd`. -/
abbrev segC4 : List (HloOp τ sig (Elt F)) :=
  [ StableHlo.nullary main_cst_18 (constant S_ .f32 0x2B8CBCCC#32),
    StableHlo.unary main_cst_18 main_v128 (broadcastInDim S50000x1 ![] bcast_S_S50000x1 : (⟨S_, .f32⟩ : BufTy).Contents (Elt F) → (⟨S50000x1, .f32⟩ : BufTy).Contents (Elt F)),
    StableHlo.binary main_v127 main_v128 main_v129 (maximumf : (⟨S50000x1, .f32⟩ : BufTy).Contents (Elt F) → (⟨S50000x1, .f32⟩ : BufTy).Contents (Elt F) → (⟨S50000x1, .f32⟩ : BufTy).Contents (Elt F)),
    StableHlo.unary main_v129 main_v130 (broadcastInDim S50000x128 ![0, 1] bcast_S50000x1_S50000x128_0_1 : (⟨S50000x1, .f32⟩ : BufTy).Contents (Elt F) → (⟨S50000x128, .f32⟩ : BufTy).Contents (Elt F)),
    StableHlo.binary main_v94 main_v130 main_v131 (Host.divf : (⟨S50000x128, .f32⟩ : BufTy).Contents (Elt F) → (⟨S50000x128, .f32⟩ : BufTy).Contents (Elt F) → (⟨S50000x128, .f32⟩ : BufTy).Contents (Elt F)),
    StableHlo.binary main_v126 main_v66 main_v132 (addf : (⟨S100000x128, .f32⟩ : BufTy).Contents (Elt F) → (⟨S100000x128, .f32⟩ : BufTy).Contents (Elt F) → (⟨S100000x128, .f32⟩ : BufTy).Contents (Elt F)),
    StableHlo.binary main_v131 main_v67 main_v133 (addf : (⟨S50000x128, .f32⟩ : BufTy).Contents (Elt F) → (⟨S50000x128, .f32⟩ : BufTy).Contents (Elt F) → (⟨S50000x128, .f32⟩ : BufTy).Contents (Elt F)) ]
theorem segC4_sub : (segC4 : List (HloOp τ sig (Elt F))).Forall fun op => op.bufs ⊆ tcRefs τ sig :=
  ⟨nullary_bufs_sub .., unary_bufs_sub .., binary_bufs_sub .., unary_bufs_sub .., binary_bufs_sub .., binary_bufs_sub .., binary_bufs_sub ..⟩
theorem segC4_fresh : (segC4 : List (HloOp τ sig (Elt F))).Forall fun op => op.fresh = ∅ := by
  simp only [List.Forall]; repeat' constructor

/-- The window's operations in program order: its segments one after the other. -/
abbrev opsC : List (HloOp τ sig (Elt F)) := segC0 ++ segC1 ++ segC2 ++ segC3 ++ segC4

set_option maxRecDepth 4096 in
/-- The window is that straight line: each call's definition unfolded at the call and the record at its fields, the line
    cut at the segments' ends (`seq_append`), both sides are one chain of `hlo` steps once sequencing is reassociated
    (`bind_assoc`, `pure_bind`). -/
theorem partC_eq (c : Dev nD) : main_part2 (F := F) c = seq opsC := by
  simp only [main_part2, fn_norm.body, fn_norm_2.body, opsC, segC0, segC1, segC2, segC3, segC4, seq_append, seq, bind_assoc, pure_bind] <;> rfl

theorem opsC_sub : (opsC : List (HloOp τ sig (Elt F))).Forall fun op => op.bufs ⊆ tcRefs τ sig :=
  forall_append_of (forall_append_of (forall_append_of (forall_append_of (segC0_sub) segC1_sub) segC2_sub) segC3_sub) segC4_sub

theorem opsC_fresh : (opsC : List (HloOp τ sig (Elt F))).Forall fun op => op.fresh = ∅ :=
  forall_append_of (forall_append_of (forall_append_of (forall_append_of (segC0_fresh) segC1_fresh) segC2_fresh) segC3_fresh) segC4_fresh

end Cert.ReferenceIdeal.RefRun

end
-- ==== Proof.RefRun.lean ====
/- The reference program's run: @main — a two-layer mean-aggregation graph convolution over two node types, each layer
   followed by a row normalization and a skip sum — is a straight line of 262 host operations (its three windows' lists
   one after the other), and from any memory with zero counters every weakly fair execution of it terminates with each
   buffer at the fold of the operations' results over the launch contents. -/
import proofs.«118446_j88244398064001_1_alg».proof.Proof.RefRun.PartA
import proofs.«118446_j88244398064001_1_alg».proof.Proof.RefRun.PartB
import proofs.«118446_j88244398064001_1_alg».proof.Proof.RefRun.PartC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 262 operations in program order: the three windows' lists one after the other. -/
abbrev ops : List (HloOp τ sig (Elt F)) := opsA ++ opsB ++ opsC

/-- @main runs its three windows in order, each window is its list run in order, and two lists run one after the other
    are their concatenation run as one (`seq_append`). -/
theorem main_eq (c : Dev nD) : main (F := F) c = seq ops := by
  show main (F := F) c = seq (opsA ++ opsB ++ opsC)
  rw [seq_append, seq_append, bind_assoc, ← partA_eq c, ← partB_eq c, ← partC_eq c]
  rfl

/-- Every operation touches TensorCore references only. -/
theorem ops_sub : (ops : List (HloOp τ sig (Elt F))).Forall fun op => op.bufs ⊆ tcRefs τ sig :=
  forall_append_of (forall_append_of opsA_sub opsB_sub) opsC_sub

/-- No operation allocates a buffer: each determines its results. -/
theorem ops_fresh : (ops : List (HloOp τ sig (Elt F))).Forall fun op => op.fresh = ∅ :=
  forall_append_of (forall_append_of opsA_fresh opsB_fresh) opsC_fresh

set_option maxRecDepth 8192 in
/-- The signature scopes no TensorCore buffer: every buffer is a tensor value of the program. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefArgs.lean ====
/-
  The reference program's @main writes none of its nine argument buffers: each of its 262 operations writes one buffer of
  its own, a tensor value of the program, and none of those is an argument's. So the fold of the operations' results, read
  at an argument's buffer, is what the buffer held before the line.
-/
import proofs.«118446_j88244398064001_1_alg».proof.Proof.RefRun

noncomputable section

namespace Cert.ReferenceIdeal.RefArgs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- @main's nine argument buffers. -/
abbrev argRefs : List (Ref sig .tc) :=
  [main_arg0, main_arg1, main_arg2, main_arg3, main_arg4, main_arg5, main_arg6, main_arg7, main_arg8]

/-- A reference that no operation of a line writes keeps its contents through the line. -/
theorem keeps {r : Ref sig .tc} (l : List (HloOp τ sig (Elt F))) (V : Valuation τ sig (Elt F))
    (h : l.Forall fun op => (r : DevRef τ sig) ∉ op.writes) : after l V (r : DevRef τ sig) = V (r : DevRef τ sig) :=
  after_of_forall_not_mem l V (List.forall_iff_forall_mem.mp h)

/-! ## Segment by segment: the buffer each operation writes is no argument's (the references told apart by computation) -/

theorem segA0_args : ∀ r ∈ argRefs, (segA0 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segA0, List.Forall, nullary_writes, unary_writes, binary_writes, ternary_writes, reshape_writes, Finset.mem_singleton]
     repeat' apply And.intro
     all_goals exact devRef_ne_of_ne (by decide))

theorem segA1_args : ∀ r ∈ argRefs, (segA1 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segA1, List.Forall, nullary_writes, unary_writes, binary_writes, ternary_writes, reshape_writes, Finset.mem_singleton]
     repeat' apply And.intro
     all_goals exact devRef_ne_of_ne (by decide))

theorem segA2_args : ∀ r ∈ argRefs, (segA2 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segA2, List.Forall, nullary_writes, unary_writes, binary_writes, ternary_writes, reshape_writes, Finset.mem_singleton]
     repeat' apply And.intro
     all_goals exact devRef_ne_of_ne (by decide))

theorem segA3_args : ∀ r ∈ argRefs, (segA3 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segA3, List.Forall, nullary_writes, unary_writes, binary_writes, ternary_writes, reshape_writes, Finset.mem_singleton]
     repeat' apply And.intro
     all_goals exact devRef_ne_of_ne (by decide))

theorem segA4_args : ∀ r ∈ argRefs, (segA4 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segA4, List.Forall, nullary_writes, unary_writes, binary_writes, ternary_writes, reshape_writes, Finset.mem_singleton]
     repeat' apply And.intro
     all_goals exact devRef_ne_of_ne (by decide))

theorem segB0_args : ∀ r ∈ argRefs, (segB0 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB0, List.Forall, nullary_writes, unary_writes, binary_writes, ternary_writes, reshape_writes, Finset.mem_singleton]
     repeat' apply And.intro
     all_goals exact devRef_ne_of_ne (by decide))

theorem segB1_args : ∀ r ∈ argRefs, (segB1 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB1, List.Forall, nullary_writes, unary_writes, binary_writes, ternary_writes, reshape_writes, Finset.mem_singleton]
     repeat' apply And.intro
     all_goals exact devRef_ne_of_ne (by decide))

theorem segB2_args : ∀ r ∈ argRefs, (segB2 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB2, List.Forall, nullary_writes, unary_writes, binary_writes, ternary_writes, reshape_writes, Finset.mem_singleton]
     repeat' apply And.intro
     all_goals exact devRef_ne_of_ne (by decide))

theorem segB3_args : ∀ r ∈ argRefs, (segB3 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB3, List.Forall, nullary_writes, unary_writes, binary_writes, ternary_writes, reshape_writes, Finset.mem_singleton]
     repeat' apply And.intro
     all_goals exact devRef_ne_of_ne (by decide))

theorem segB4_args : ∀ r ∈ argRefs, (segB4 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB4, List.Forall, nullary_writes, unary_writes, binary_writes, ternary_writes, reshape_writes, Finset.mem_singleton]
     repeat' apply And.intro
     all_goals exact devRef_ne_of_ne (by decide))

theorem segB5_args : ∀ r ∈ argRefs, (segB5 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB5, List.Forall, nullary_writes, unary_writes, binary_writes, ternary_writes, reshape_writes, Finset.mem_singleton]
     repeat' apply And.intro
     all_goals exact devRef_ne_of_ne (by decide))

theorem segB6_args : ∀ r ∈ argRefs, (segB6 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB6, List.Forall, nullary_writes, unary_writes, binary_writes, ternary_writes, reshape_writes, Finset.mem_singleton]
     repeat' apply And.intro
     all_goals exact devRef_ne_of_ne (by decide))

theorem segB7_args : ∀ r ∈ argRefs, (segB7 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB7, List.Forall, nullary_writes, unary_writes, binary_writes, ternary_writes, reshape_writes, Finset.mem_singleton]
     repeat' apply And.intro
     all_goals exact devRef_ne_of_ne (by decide))

theorem segB8_args : ∀ r ∈ argRefs, (segB8 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB8, List.Forall, nullary_writes, unary_writes, binary_writes, ternary_writes, reshape_writes, Finset.mem_singleton]
     repeat' apply And.intro
     all_goals exact devRef_ne_of_ne (by decide))

theorem segB9_args : ∀ r ∈ argRefs, (segB9 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB9, List.Forall, nullary_writes, unary_writes, binary_writes, ternary_writes, reshape_writes, Finset.mem_singleton]
     repeat' apply And.intro
     all_goals exact devRef_ne_of_ne (by decide))

theorem segB10_args : ∀ r ∈ argRefs, (segB10 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segB10, List.Forall, nullary_writes, unary_writes, binary_writes, ternary_writes, reshape_writes, Finset.mem_singleton]
     repeat' apply And.intro
     all_goals exact devRef_ne_of_ne (by decide))

theorem segC0_args : ∀ r ∈ argRefs, (segC0 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segC0, List.Forall, nullary_writes, unary_writes, binary_writes, ternary_writes, reshape_writes, Finset.mem_singleton]
     repeat' apply And.intro
     all_goals exact devRef_ne_of_ne (by decide))

theorem segC1_args : ∀ r ∈ argRefs, (segC1 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segC1, List.Forall, nullary_writes, unary_writes, binary_writes, ternary_writes, reshape_writes, Finset.mem_singleton]
     repeat' apply And.intro
     all_goals exact devRef_ne_of_ne (by decide))

theorem segC2_args : ∀ r ∈ argRefs, (segC2 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segC2, List.Forall, nullary_writes, unary_writes, binary_writes, ternary_writes, reshape_writes, Finset.mem_singleton]
     repeat' apply And.intro
     all_goals exact devRef_ne_of_ne (by decide))

theorem segC3_args : ∀ r ∈ argRefs, (segC3 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segC3, List.Forall, nullary_writes, unary_writes, binary_writes, ternary_writes, reshape_writes, Finset.mem_singleton]
     repeat' apply And.intro
     all_goals exact devRef_ne_of_ne (by decide))

theorem segC4_args : ∀ r ∈ argRefs, (segC4 : List (HloOp τ sig (Elt F))).Forall fun op => (r : DevRef τ sig) ∉ op.writes := by
  intro r hr
  simp only [argRefs, List.mem_cons, List.not_mem_nil, or_false] at hr
  rcases hr with rfl | rfl | rfl | rfl | rfl | rfl | rfl | rfl | rfl <;>
    (simp only [segC4, List.Forall, nullary_writes, unary_writes, binary_writes, ternary_writes, reshape_writes, Finset.mem_singleton]
     repeat' apply And.intro
     all_goals exact devRef_ne_of_ne (by decide))

/-! ## The whole line -/

/-- No operation of @main writes an argument's buffer: the segments' facts joined along the concatenations. -/
theorem ops_args : ∀ r ∈ argRefs, (ops : List (HloOp τ sig (Elt F))).Forall fun op => (r : DevRef τ sig) ∉ op.writes :=
  fun r hr =>
    forall_append_of
      (forall_append_of
        (forall_append_of (forall_append_of (forall_append_of (forall_append_of (segA0_args r hr) (segA1_args r hr)) (segA2_args r hr)) (segA3_args r hr)) (segA4_args r hr))
        (forall_append_of (forall_append_of (forall_append_of (forall_append_of (forall_append_of (forall_append_of (forall_append_of (forall_append_of (forall_append_of (forall_append_of (segB0_args r hr) (segB1_args r hr)) (segB2_args r hr)) (segB3_args r hr)) (segB4_args r hr)) (segB5_args r hr)) (segB6_args r hr)) (segB7_args r hr)) (segB8_args r hr)) (segB9_args r hr)) (segB10_args r hr)))
      (forall_append_of (forall_append_of (forall_append_of (forall_append_of (segC0_args r hr) (segC1_args r hr)) (segC2_args r hr)) (segC3_args r hr)) (segC4_args r hr))

/-! ## The nine arguments: after @main's operations each holds what it held before -/

theorem arg0_eq (V : Valuation τ sig (Elt F)) :
    after ops V (main_arg0 : DevRef τ sig) = V (main_arg0 : DevRef τ sig) :=
  keeps ops V (ops_args main_arg0 (by decide))
theorem arg1_eq (V : Valuation τ sig (Elt F)) :
    after ops V (main_arg1 : DevRef τ sig) = V (main_arg1 : DevRef τ sig) :=
  keeps ops V (ops_args main_arg1 (by decide))
theorem arg2_eq (V : Valuation τ sig (Elt F)) :
    after ops V (main_arg2 : DevRef τ sig) = V (main_arg2 : DevRef τ sig) :=
  keeps ops V (ops_args main_arg2 (by decide))
theorem arg3_eq (V : Valuation τ sig (Elt F)) :
    after ops V (main_arg3 : DevRef τ sig) = V (main_arg3 : DevRef τ sig) :=
  keeps ops V (ops_args main_arg3 (by decide))
theorem arg4_eq (V : Valuation τ sig (Elt F)) :
    after ops V (main_arg4 : DevRef τ sig) = V (main_arg4 : DevRef τ sig) :=
  keeps ops V (ops_args main_arg4 (by decide))
theorem arg5_eq (V : Valuation τ sig (Elt F)) :
    after ops V (main_arg5 : DevRef τ sig) = V (main_arg5 : DevRef τ sig) :=
  keeps ops V (ops_args main_arg5 (by decide))
theorem arg6_eq (V : Valuation τ sig (Elt F)) :
    after ops V (main_arg6 : DevRef τ sig) = V (main_arg6 : DevRef τ sig) :=
  keeps ops V (ops_args main_arg6 (by decide))
theorem arg7_eq (V : Valuation τ sig (Elt F)) :
    after ops V (main_arg7 : DevRef τ sig) = V (main_arg7 : DevRef τ sig) :=
  keeps ops V (ops_args main_arg7 (by decide))
theorem arg8_eq (V : Valuation τ sig (Elt F)) :
    after ops V (main_arg8 : DevRef τ sig) = V (main_arg8 : DevRef τ sig) :=
  keeps ops V (ops_args main_arg8 (by decide))

end Cert.ReferenceIdeal.RefArgs

end
-- ==== Proof.RefStage.lean ====
/-
  One stage of the reference network, read index by index on the extended reals.

  For one layer i and edge type j the reference cuts a 128×128 weight block and a bias vector out of the stacked
  parameter arrays, forms the affine part from two matrix products and the bias, takes (in a hidden layer) the
  maximum with zero, divides each row by its Euclidean norm floored at the word of 1e-12 and adds the node's own
  row. Read at an index each of these operations is the textbook one on extended reals, so the stage on a whole
  array is the row function `Cert.Spec.rows` at every row, for either number of rows.
-/
import proofs.«118446_j88244398064001_1_alg».proof.Proof.Gen.ReferenceIdeal
import proofs.«118446_j88244398064001_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stage

open Cert.ReferenceIdeal Cert.ReferenceIdeal.Facts₀ Cert.ReferenceIdeal.Facts Idealize.ShloMosaic Idealize.ShloMosaic.ValueIdx
open scoped BigOperators

/-- One 128×128 weight block as the reference's products use it: the block cut out of the four-axis array,
    its two unit axes dropped, transposed. -/
def wmat (off : Fin 4 → Nat) (h : S2x2x128x128.Slices off S1x1x128x128) (W : FVec Ideal S2x2x128x128 .f32) : FVec Ideal S128x128 .f32 :=
  transpose S128x128 [1, 0] (shapeCast S128x128 (extractStridedSlice S1x1x128x128 off W h) shapeCasts_S1x1x128x128_S128x128) transposes_S128x128_S128x128_1_0

/-- One bias vector: the block cut out of the three-axis array, its two unit axes dropped. -/
def bvec (off : Fin 3 → Nat) (h : S2x2x128.Slices off S1x1x128) (B : FVec Ideal S2x2x128 .f32) : FVec Ideal S128 .f32 :=
  shapeCast S128 (extractStridedSlice S1x1x128 off B h) shapeCasts_S1x1x128_S128

def linD (mean xroot : FVec Ideal S50000x128 .f32) (wl wr : FVec Ideal S128x128 .f32) (b : FVec Ideal S128 .f32) : FVec Ideal S50000x128 .f32 :=
  addf (addf (Host.dotGeneral dot_S50000x128_S128x128_S50000x128_1_0_0_1_n_n none mean wl)
             (Host.dotGeneral dot_S50000x128_S128x128_S50000x128_1_0_0_1_n_n none xroot wr))
       (broadcastInDim S50000x128 ![0, 1] bcast_S1x128_S50000x128_0_1 (broadcastInDim S1x128 ![1] bcast_S128_S1x128_1 b))

def reluD (h : FVec Ideal S50000x128 .f32) : FVec Ideal S50000x128 .f32 :=
  maximumf h (broadcastInDim S50000x128 ![] bcast_S_S50000x128 (constant (F := Ideal) S_ .f32 0x00000000#32))

def normD (h xroot : FVec Ideal S50000x128 .f32) : FVec Ideal S50000x128 .f32 :=
  addf (Host.divf (F := Ideal) h (broadcastInDim S50000x128 ![0, 1] bcast_S50000x1_S50000x128_0_1
        (maximumf (Host.sqrt (F := Ideal) (broadcastInDim S50000x1 ![0] bcast_S50000_S50000x1_0
            (Host.reduceAdd (F := Ideal) (mulf h h) (constant (F := Ideal) S_ .f32 0x00000000#32) reducesTo_S50000x128_S50000_d1 h_S_)))
          (broadcastInDim S50000x1 ![] bcast_S_S50000x1 (constant (F := Ideal) S_ .f32 0x2B8CBCCC#32))))) xroot

def linG (mean xroot : FVec Ideal S100000x128 .f32) (wl wr : FVec Ideal S128x128 .f32) (b : FVec Ideal S128 .f32) : FVec Ideal S100000x128 .f32 :=
  addf (addf (Host.dotGeneral dot_S100000x128_S128x128_S100000x128_1_0_0_1_n_n none mean wl)
             (Host.dotGeneral dot_S100000x128_S128x128_S100000x128_1_0_0_1_n_n none xroot wr))
       (broadcastInDim S100000x128 ![0, 1] bcast_S1x128_S100000x128_0_1 (broadcastInDim S1x128 ![1] bcast_S128_S1x128_1 b))

def reluG (h : FVec Ideal S100000x128 .f32) : FVec Ideal S100000x128 .f32 :=
  maximumf h (broadcastInDim S100000x128 ![] bcast_S_S100000x128 (constant (F := Ideal) S_ .f32 0x00000000#32))

def normG (h xroot : FVec Ideal S100000x128 .f32) : FVec Ideal S100000x128 .f32 :=
  addf (Host.divf (F := Ideal) h (broadcastInDim S100000x128 ![0, 1] bcast_S100000x1_S100000x128_0_1
        (maximumf (Host.sqrt (F := Ideal) (broadcastInDim S100000x1 ![0] bcast_S100000_S100000x1_0
            (Host.reduceAdd (F := Ideal) (mulf h h) (constant (F := Ideal) S_ .f32 0x00000000#32) reducesTo_S100000x128_S100000_d1 h_S_)))
          (broadcastInDim S100000x1 ![] bcast_S_S100000x1 (constant (F := Ideal) S_ .f32 0x2B8CBCCC#32))))) xroot

/-! ## The host's quotient and square root at an index -/

/-- The host's quotient at an index is the extended reals' division of the elements. -/
theorem hostDivf_apply {s : Shape} (a b : FVec Ideal s .f32) (i : s.Idx) :
    Host.divf (F := Ideal) a b i = Ideal.div (a i) (b i) := rfl
/-- The host's square root at an index is the extended reals' square root of the element. -/
theorem hostSqrt_apply {s : Shape} (a : FVec Ideal s .f32) (i : s.Idx) :
    Host.sqrt (F := Ideal) a i = Ideal.sqrt (a i) := rfl

/-! ## The weight block and the bias vector at an index -/

/-- The transposed weight block at (k, c) is the four-axis array at (i, j, c, k). -/
theorem wmat_apply (i j : Fin 2) (h : S2x2x128x128.Slices ![i.val, j.val, 0, 0] S1x1x128x128)
    (W : FVec Ideal S2x2x128x128 .f32) (k c : Fin 128) :
    wmat ![i.val, j.val, 0, 0] h W (ix2 k c) = W (ix4 i j c k) := by
  unfold wmat
  refine (transpose_ix2_apply _ transposes_S128x128_S128x128_1_0 k c).trans ?_
  refine (shapeCast_apply _ shapeCasts_S1x1x128x128_S128x128 (ix2 c k) (ix4 (0 : Fin 1) (0 : Fin 1) c k) ?_).trans ?_
  · rw [Shape.rowMajor_val_four, Shape.rowMajor_val_two]
    show ((0 * 1 + 0) * 128 + c.val) * 128 + k.val = c.val * 128 + k.val
    omega
  · refine extractStridedSlice_apply _ W h _ (ix4 i j c k) fun a => ?_
    match a with
    | ⟨0, _⟩ => rfl
    | ⟨1, _⟩ => rfl
    | ⟨2, _⟩ => show c.val = 0 + c.val; omega
    | ⟨3, _⟩ => show k.val = 0 + k.val; omega

/-- The bias vector at c is the three-axis array at (i, j, c). -/
theorem bvec_apply (i j : Fin 2) (h : S2x2x128.Slices ![i.val, j.val, 0] S1x1x128)
    (B : FVec Ideal S2x2x128 .f32) (c : Fin 128) :
    bvec ![i.val, j.val, 0] h B (ix1 c) = B (ix3 i j c) := by
  unfold bvec
  refine (shapeCast_apply _ shapeCasts_S1x1x128_S128 (ix1 c) (ix3 (0 : Fin 1) (0 : Fin 1) c) ?_).trans ?_
  · rw [Shape.rowMajor_val_three, Shape.rowMajor_val_one]
    show (0 * 1 + 0) * 128 + c.val = c.val
    omega
  · refine extractStridedSlice_apply _ B h _ (ix3 i j c) fun a => ?_
    match a with
    | ⟨0, _⟩ => rfl
    | ⟨1, _⟩ => rfl
    | ⟨2, _⟩ => show c.val = 0 + c.val; omega

/-! ## The 50000-row arrays: each host operation at an index -/

/-- The bias broadcast down the 50000 rows reads, at (r, c), the bias at c. -/
theorem biasD_apply (b : FVec Ideal S128 .f32) (r : Fin 50000) (c : Fin 128) :
    broadcastInDim S50000x128 ![0, 1] bcast_S1x128_S50000x128_0_1 (broadcastInDim S1x128 ![1] bcast_S128_S1x128_1 b) (ix2 r c)
      = b (ix1 c) := by
  refine (broadcastInDim_apply _ bcast_S1x128_S50000x128_0_1 _ (ix2 r c) (ix2 (0 : Fin 1) c) fun a => ?_).trans ?_
  · match a with
    | ⟨0, _⟩ => rfl
    | ⟨1, _⟩ => rfl
  · refine broadcastInDim_apply _ bcast_S128_S1x128_1 b (ix2 (0 : Fin 1) c) (ix1 c) fun a => ?_
    match a with
    | ⟨0, _⟩ => rfl

/-- The dimension numbers of the 50000×128 by 128×128 product. -/
abbrev dotD : DotDims S50000x128 S128x128 S50000x128 := dot_S50000x128_S128x128_S50000x128_1_0_0_1_n_n

/-- The left operand's index of that product: the output row … -/
theorem lhsD_0 (y : S50000x128.Idx) (q : dotD.contr.Idx) : (dotD.lhsIdx y q 0).val = (y 0).val := by
  unfold DotDims.lhsIdx
  rw [dif_neg (show ¬(0 : Fin S50000x128.rank) ∈ dotD.lhsBatch by decide),
    dif_pos (show (0 : Fin S50000x128.rank) ∈ dotD.lhsNonContracting by decide)]
  rfl
/-- … and the contracted lane. -/
theorem lhsD_1 (y : S50000x128.Idx) (q : dotD.contr.Idx) : (dotD.lhsIdx y q 1).val = (q ⟨0, by decide⟩).val :=
  dotD.lhsIdx_val_of_single rfl y q
/-- The right operand's index: the contracted lane … -/
theorem rhsD_0 (y : S50000x128.Idx) (q : dotD.contr.Idx) : (dotD.rhsIdx y q 0).val = (q ⟨0, by decide⟩).val :=
  dotD.rhsIdx_val_of_single rfl y q
/-- … and the output column. -/
theorem rhsD_1 (y : S50000x128.Idx) (q : dotD.contr.Idx) : (dotD.rhsIdx y q 1).val = (y 1).val := by
  unfold DotDims.rhsIdx
  rw [dif_neg (show ¬(1 : Fin S128x128.rank) ∈ dotD.rhsBatch by decide),
    dif_pos (show (1 : Fin S128x128.rank) ∈ dotD.rhsNonContracting by decide)]
  rfl

/-- The product at (r, c) is the sum over the contracted lane k of x(r, k) · w(k, c). -/
theorem dotD_apply (x : FVec Ideal S50000x128 .f32) (w : FVec Ideal S128x128 .f32) (r : Fin 50000) (c : Fin 128) :
    Host.dotGeneral dot_S50000x128_S128x128_S50000x128_1_0_0_1_n_n none x w (ix2 r c) = ∑ k : Fin 128, x (ix2 r k) * w (ix2 k c) := by
  show FloatOps.dotGeneral dotD none _ x w (ix2 r c) = _
  rw [Ideal.dotGeneral_apply, ← Equiv.sum_comp (contrEquiv1 dotD 128 rfl rfl).symm]
  refine Finset.sum_congr rfl fun k _ => ?_
  have hk := contrEquiv1_symm_val dotD 128 rfl rfl k
  have el : dotD.lhsIdx (ix2 r c) ((contrEquiv1 dotD 128 rfl rfl).symm k) = ix2 r k := funext fun a => Fin.ext (by
    match a with
    | ⟨0, _⟩ => exact lhsD_0 _ _
    | ⟨1, _⟩ => exact (lhsD_1 _ _).trans hk)
  have er : dotD.rhsIdx (ix2 r c) ((contrEquiv1 dotD 128 rfl rfl).symm k) = ix2 k c := funext fun a => Fin.ext (by
    match a with
    | ⟨0, _⟩ => exact (rhsD_0 _ _).trans hk
    | ⟨1, _⟩ => exact rhsD_1 _ _)
  rw [el, er]

/-- The affine part at (r, c): the two products and the bias. -/
theorem linD_apply (mean xroot : FVec Ideal S50000x128 .f32) (wl wr : FVec Ideal S128x128 .f32) (b : FVec Ideal S128 .f32)
    (r : Fin 50000) (c : Fin 128) :
    linD mean xroot wl wr b (ix2 r c)
      = (∑ k : Fin 128, mean (ix2 r k) * wl (ix2 k c)) + (∑ k : Fin 128, xroot (ix2 r k) * wr (ix2 k c)) + b (ix1 c) := by
  unfold linD
  rw [addf_apply, addf_apply, dotD_apply, dotD_apply, biasD_apply]

/-- The maximum with the zero splat at (r, c). -/
theorem reluD_apply (h : FVec Ideal S50000x128 .f32) (r : Fin 50000) (c : Fin 128) :
    reluD h (ix2 r c) = Cert.Spec.relu (h (ix2 r c)) := rfl

/-- The lane sum of a 50000×128 array from the zero word, at row r: the sum over the 128 lanes. -/
theorem sumD_apply (x : FVec Ideal S50000x128 .f32) (r : Fin 50000) :
    Host.reduceAdd (F := Ideal) x (constant (F := Ideal) S_ .f32 0x00000000#32) reducesTo_S50000x128_S50000_d1 h_S_ (ix1 r)
      = ∑ k : Fin 128, x (ix2 r k) := by
  have hR : S50000x128.Reduces [1] S50000 := by decide
  unfold Host.reduceAdd
  rw [Ideal.hostReduceAdd_def, Ideal.hostReduceAdd_single reducesTo_S50000x128_S50000_d1 hR, constant_apply, Ideal.ofBits_zero_f32, zero_add]
  refine Finset.sum_congr rfl fun k _ => congrArg x (funext fun a => Fin.ext ?_)
  match a with
  | ⟨0, _⟩ => rfl
  | ⟨1, _⟩ => rfl

/-- The row normalisation and skip sum at (r, c): the entry over the row's Euclidean norm floored at the word of
    1e-12, plus the node's own entry. -/
theorem normD_apply (h xroot : FVec Ideal S50000x128 .f32) (r : Fin 50000) (c : Fin 128) :
    normD h xroot (ix2 r c)
      = Ideal.div (h (ix2 r c))
          (max (Ideal.sqrt (∑ k : Fin 128, h (ix2 r k) * h (ix2 r k))) (Ideal.ofBits .f32 0x2B8CBCCC#32))
        + xroot (ix2 r c) := by
  unfold normD
  rw [addf_apply, hostDivf_apply,
    broadcastInDim_apply _ bcast_S50000x1_S50000x128_0_1 _ (ix2 r c) (ix2 r (0 : Fin 1))
      (fun a => by match a with | ⟨0, _⟩ => rfl | ⟨1, _⟩ => rfl),
    maximumf_apply, hostSqrt_apply,
    broadcastInDim_apply _ bcast_S50000_S50000x1_0 _ (ix2 r (0 : Fin 1)) (ix1 r)
      (fun a => by match a with | ⟨0, _⟩ => rfl),
    sumD_apply,
    broadcastInDim_apply _ bcast_S_S50000x1 _ (ix2 r (0 : Fin 1)) ix0 (fun a => a.elim0),
    constant_apply]
  rfl

/-! ## The 100000-row arrays: each host operation at an index -/

/-- The bias broadcast down the 100000 rows reads, at (r, c), the bias at c. -/
theorem biasG_apply (b : FVec Ideal S128 .f32) (r : Fin 100000) (c : Fin 128) :
    broadcastInDim S100000x128 ![0, 1] bcast_S1x128_S100000x128_0_1 (broadcastInDim S1x128 ![1] bcast_S128_S1x128_1 b) (ix2 r c)
      = b (ix1 c) := by
  refine (broadcastInDim_apply _ bcast_S1x128_S100000x128_0_1 _ (ix2 r c) (ix2 (0 : Fin 1) c) fun a => ?_).trans ?_
  · match a with
    | ⟨0, _⟩ => rfl
    | ⟨1, _⟩ => rfl
  · refine broadcastInDim_apply _ bcast_S128_S1x128_1 b (ix2 (0 : Fin 1) c) (ix1 c) fun a => ?_
    match a with
    | ⟨0, _⟩ => rfl

/-- The dimension numbers of the 100000×128 by 128×128 product. -/
abbrev dotG : DotDims S100000x128 S128x128 S100000x128 := dot_S100000x128_S128x128_S100000x128_1_0_0_1_n_n

/-- The left operand's index of that product: the output row … -/
theorem lhsG_0 (y : S100000x128.Idx) (q : dotG.contr.Idx) : (dotG.lhsIdx y q 0).val = (y 0).val := by
  unfold DotDims.lhsIdx
  rw [dif_neg (show ¬(0 : Fin S100000x128.rank) ∈ dotG.lhsBatch by decide),
    dif_pos (show (0 : Fin S100000x128.rank) ∈ dotG.lhsNonContracting by decide)]
  rfl
/-- … and the contracted lane. -/
theorem lhsG_1 (y : S100000x128.Idx) (q : dotG.contr.Idx) : (dotG.lhsIdx y q 1).val = (q ⟨0, by decide⟩).val :=
  dotG.lhsIdx_val_of_single rfl y q
/-- The right operand's index: the contracted lane … -/
theorem rhsG_0 (y : S100000x128.Idx) (q : dotG.contr.Idx) : (dotG.rhsIdx y q 0).val = (q ⟨0, by decide⟩).val :=
  dotG.rhsIdx_val_of_single rfl y q
/-- … and the output column. -/
theorem rhsG_1 (y : S100000x128.Idx) (q : dotG.contr.Idx) : (dotG.rhsIdx y q 1).val = (y 1).val := by
  unfold DotDims.rhsIdx
  rw [dif_neg (show ¬(1 : Fin S128x128.rank) ∈ dotG.rhsBatch by decide),
    dif_pos (show (1 : Fin S128x128.rank) ∈ dotG.rhsNonContracting by decide)]
  rfl

/-- The product at (r, c) is the sum over the contracted lane k of x(r, k) · w(k, c). -/
theorem dotG_apply (x : FVec Ideal S100000x128 .f32) (w : FVec Ideal S128x128 .f32) (r : Fin 100000) (c : Fin 128) :
    Host.dotGeneral dot_S100000x128_S128x128_S100000x128_1_0_0_1_n_n none x w (ix2 r c) = ∑ k : Fin 128, x (ix2 r k) * w (ix2 k c) := by
  show FloatOps.dotGeneral dotG none _ x w (ix2 r c) = _
  rw [Ideal.dotGeneral_apply, ← Equiv.sum_comp (contrEquiv1 dotG 128 rfl rfl).symm]
  refine Finset.sum_congr rfl fun k _ => ?_
  have hk := contrEquiv1_symm_val dotG 128 rfl rfl k
  have el : dotG.lhsIdx (ix2 r c) ((contrEquiv1 dotG 128 rfl rfl).symm k) = ix2 r k := funext fun a => Fin.ext (by
    match a with
    | ⟨0, _⟩ => exact lhsG_0 _ _
    | ⟨1, _⟩ => exact (lhsG_1 _ _).trans hk)
  have er : dotG.rhsIdx (ix2 r c) ((contrEquiv1 dotG 128 rfl rfl).symm k) = ix2 k c := funext fun a => Fin.ext (by
    match a with
    | ⟨0, _⟩ => exact (rhsG_0 _ _).trans hk
    | ⟨1, _⟩ => exact rhsG_1 _ _)
  rw [el, er]

/-- The affine part at (r, c): the two products and the bias. -/
theorem linG_apply (mean xroot : FVec Ideal S100000x128 .f32) (wl wr : FVec Ideal S128x128 .f32) (b : FVec Ideal S128 .f32)
    (r : Fin 100000) (c : Fin 128) :
    linG mean xroot wl wr b (ix2 r c)
      = (∑ k : Fin 128, mean (ix2 r k) * wl (ix2 k c)) + (∑ k : Fin 128, xroot (ix2 r k) * wr (ix2 k c)) + b (ix1 c) := by
  unfold linG
  rw [addf_apply, addf_apply, dotG_apply, dotG_apply, biasG_apply]

/-- The maximum with the zero splat at (r, c). -/
theorem reluG_apply (h : FVec Ideal S100000x128 .f32) (r : Fin 100000) (c : Fin 128) :
    reluG h (ix2 r c) = Cert.Spec.relu (h (ix2 r c)) := rfl

/-- The lane sum of a 100000×128 array from the zero word, at row r: the sum over the 128 lanes. -/
theorem sumG_apply (x : FVec Ideal S100000x128 .f32) (r : Fin 100000) :
    Host.reduceAdd (F := Ideal) x (constant (F := Ideal) S_ .f32 0x00000000#32) reducesTo_S100000x128_S100000_d1 h_S_ (ix1 r)
      = ∑ k : Fin 128, x (ix2 r k) := by
  have hR : S100000x128.Reduces [1] S100000 := by decide
  unfold Host.reduceAdd
  rw [Ideal.hostReduceAdd_def, Ideal.hostReduceAdd_single reducesTo_S100000x128_S100000_d1 hR, constant_apply, Ideal.ofBits_zero_f32, zero_add]
  refine Finset.sum_congr rfl fun k _ => congrArg x (funext fun a => Fin.ext ?_)
  match a with
  | ⟨0, _⟩ => rfl
  | ⟨1, _⟩ => rfl

/-- The row normalisation and skip sum at (r, c): the entry over the row's Euclidean norm floored at the word of
    1e-12, plus the node's own entry. -/
theorem normG_apply (h xroot : FVec Ideal S100000x128 .f32) (r : Fin 100000) (c : Fin 128) :
    normG h xroot (ix2 r c)
      = Ideal.div (h (ix2 r c))
          (max (Ideal.sqrt (∑ k : Fin 128, h (ix2 r k) * h (ix2 r k))) (Ideal.ofBits .f32 0x2B8CBCCC#32))
        + xroot (ix2 r c) := by
  unfold normG
  rw [addf_apply, hostDivf_apply,
    broadcastInDim_apply _ bcast_S100000x1_S100000x128_0_1 _ (ix2 r c) (ix2 r (0 : Fin 1))
      (fun a => by match a with | ⟨0, _⟩ => rfl | ⟨1, _⟩ => rfl),
    maximumf_apply, hostSqrt_apply,
    broadcastInDim_apply _ bcast_S100000_S100000x1_0 _ (ix2 r (0 : Fin 1)) (ix1 r)
      (fun a => by match a with | ⟨0, _⟩ => rfl),
    sumG_apply,
    broadcastInDim_apply _ bcast_S_S100000x1 _ (ix2 r (0 : Fin 1)) ix0 (fun a => a.elim0),
    constant_apply]
  rfl

/-! ## One (layer, edge type) stage on the 50000-row arrays is the row function at every row -/

/-- A hidden layer's stage: affine part, maximum with zero, row normalisation, skip sum. -/
theorem stageD_relu (off4 : Fin 4 → Nat) (h4 : S2x2x128x128.Slices off4 S1x1x128x128) (off3 : Fin 3 → Nat) (h3 : S2x2x128.Slices off3 S1x1x128)
    (i j : Fin 2) (ho4 : off4 = ![i.val, j.val, 0, 0]) (ho3 : off3 = ![i.val, j.val, 0])
    (mean xroot : FVec Ideal S50000x128 .f32) (W1 W2 : FVec Ideal S2x2x128x128 .f32) (B : FVec Ideal S2x2x128 .f32) :
    normD (reluD (linD mean xroot (wmat off4 h4 W1) (wmat off4 h4 W2) (bvec off3 h3 B))) xroot
      = Cert.Spec.rows Cert.Spec.relu mean xroot (fun k c => W1 (ix4 i j c k)) (fun k c => W2 (ix4 i j c k)) (fun c => B (ix3 i j c)) := by
  subst ho4 ho3
  funext y
  obtain ⟨r, c, rfl⟩ : ∃ (r : Fin 50000) (c : Fin 128), y = ix2 r c := ⟨y 0, y 1, eq_ix2 y⟩
  rw [Cert.Spec.rows_apply, normD_apply]
  unfold Cert.Spec.row Cert.Spec.sumsq Cert.Spec.lin
  simp only [reluD_apply, linD_apply, wmat_apply, bvec_apply]

/-- The last layer's stage: the same without the maximum. -/
theorem stageD_lin (off4 : Fin 4 → Nat) (h4 : S2x2x128x128.Slices off4 S1x1x128x128) (off3 : Fin 3 → Nat) (h3 : S2x2x128.Slices off3 S1x1x128)
    (i j : Fin 2) (ho4 : off4 = ![i.val, j.val, 0, 0]) (ho3 : off3 = ![i.val, j.val, 0])
    (mean xroot : FVec Ideal S50000x128 .f32) (W1 W2 : FVec Ideal S2x2x128x128 .f32) (B : FVec Ideal S2x2x128 .f32) :
    normD (linD mean xroot (wmat off4 h4 W1) (wmat off4 h4 W2) (bvec off3 h3 B)) xroot
      = Cert.Spec.rows id mean xroot (fun k c => W1 (ix4 i j c k)) (fun k c => W2 (ix4 i j c k)) (fun c => B (ix3 i j c)) := by
  subst ho4 ho3
  funext y
  obtain ⟨r, c, rfl⟩ : ∃ (r : Fin 50000) (c : Fin 128), y = ix2 r c := ⟨y 0, y 1, eq_ix2 y⟩
  rw [Cert.Spec.rows_apply, normD_apply]
  unfold Cert.Spec.row Cert.Spec.sumsq Cert.Spec.lin
  simp only [id_eq, linD_apply, wmat_apply, bvec_apply]

/-! ## One (layer, edge type) stage on the 100000-row arrays is the row function at every row -/

/-- A hidden layer's stage: affine part, maximum with zero, row normalisation, skip sum. -/
theorem stageG_relu (off4 : Fin 4 → Nat) (h4 : S2x2x128x128.Slices off4 S1x1x128x128) (off3 : Fin 3 → Nat) (h3 : S2x2x128.Slices off3 S1x1x128)
    (i j : Fin 2) (ho4 : off4 = ![i.val, j.val, 0, 0]) (ho3 : off3 = ![i.val, j.val, 0])
    (mean xroot : FVec Ideal S100000x128 .f32) (W1 W2 : FVec Ideal S2x2x128x128 .f32) (B : FVec Ideal S2x2x128 .f32) :
    normG (reluG (linG mean xroot (wmat off4 h4 W1) (wmat off4 h4 W2) (bvec off3 h3 B))) xroot
      = Cert.Spec.rows Cert.Spec.relu mean xroot (fun k c => W1 (ix4 i j c k)) (fun k c => W2 (ix4 i j c k)) (fun c => B (ix3 i j c)) := by
  subst ho4 ho3
  funext y
  obtain ⟨r, c, rfl⟩ : ∃ (r : Fin 100000) (c : Fin 128), y = ix2 r c := ⟨y 0, y 1, eq_ix2 y⟩
  rw [Cert.Spec.rows_apply, normG_apply]
  unfold Cert.Spec.row Cert.Spec.sumsq Cert.Spec.lin
  simp only [reluG_apply, linG_apply, wmat_apply, bvec_apply]

/-- The last layer's stage: the same without the maximum. -/
theorem stageG_lin (off4 : Fin 4 → Nat) (h4 : S2x2x128x128.Slices off4 S1x1x128x128) (off3 : Fin 3 → Nat) (h3 : S2x2x128.Slices off3 S1x1x128)
    (i j : Fin 2) (ho4 : off4 = ![i.val, j.val, 0, 0]) (ho3 : off3 = ![i.val, j.val, 0])
    (mean xroot : FVec Ideal S100000x128 .f32) (W1 W2 : FVec Ideal S2x2x128x128 .f32) (B : FVec Ideal S2x2x128 .f32) :
    normG (linG mean xroot (wmat off4 h4 W1) (wmat off4 h4 W2) (bvec off3 h3 B)) xroot
      = Cert.Spec.rows id mean xroot (fun k c => W1 (ix4 i j c k)) (fun k c => W2 (ix4 i j c k)) (fun c => B (ix3 i j c)) := by
  subst ho4 ho3
  funext y
  obtain ⟨r, c, rfl⟩ : ∃ (r : Fin 100000) (c : Fin 128), y = ix2 r c := ⟨y 0, y 1, eq_ix2 y⟩
  rw [Cert.Spec.rows_apply, normG_apply]
  unfold Cert.Spec.row Cert.Spec.sumsq Cert.Spec.lin
  simp only [id_eq, linG_apply, wmat_apply, bvec_apply]

end Cert.ReferenceIdeal.Stage

end
-- ==== Proof.RefAgg.lean ====
/-
  The message-passing step both programs share, spelt as the reference program's host operations spell it: the rows of a
  node table taken at the edges' source ends (`jnp.take`: a negative number wrapped round once, a row of the fill word
  where the number is still out of range), their sums and counts scattered to the edges' target ends, the mean.
-/
import proofs.«118446_j88244398064001_1_alg».proof.Proof.Gen.ReferenceIdeal
import Idealize.ShloMosaic.PureOps.Ideal

noncomputable section

namespace Cert.ReferenceIdeal.Agg

open Cert.ReferenceIdeal Cert.ReferenceIdeal.Facts₀ Cert.ReferenceIdeal.Facts
open Idealize.ShloMosaic

/-- A list of 800000 node numbers (edge endpoints). -/
abbrev Ends := (⟨S800000, .i32⟩ : BufTy).Contents (Elt Ideal)

/-- Rows of the 100000-row table taken at the edge endpoints: a negative number wraps round once, a number still
    out of range gives a row of the fill word. -/
def takeG (x : FVec Ideal S100000x128 .f32) (idx : Ends) : FVec Ideal S800000x128 .f32 :=
  let wrapped : Ends := select (cmpi .slt idx (broadcastInDim S800000 ![] bcast_S_S800000 (constantI S_ 32 0#32)))
      (addi idx (broadcastInDim S800000 ![] bcast_S_S800000 (constantI S_ 32 100000#32))) idx
  let col := broadcastInDim S800000x1 ![0] bcast_S800000_S800000x1_0 wrapped
  let ok := Host.reduce IntOp.andi
      (andi (cmpi .sge col (broadcastInDim S800000x1 ![] bcast_S_S800000x1 (constantI S_ 32 0#32)))
            (cmpi .sle col (broadcastInDim S800000x1 ![0, 1] bcast_S1x1_S800000x1_0_1 (broadcastInDim S1x1 ![1] bcast_S1_S1x1_1 (constantI S1 32 99999#32)))))
      (constantI S_ 1 1#1) reducesTo_S800000x1_S800000_d1 h_S_
  select (broadcastInDim S800000x128 ![0] bcast_S800000_S800000x128_0 ok)
    (Host.gather gather_S100000x128_S800000x1_S800000x128_1_0_n_n_0_1_1128 x col)
    (broadcastInDim S800000x128 ![] bcast_S_S800000x128 (constant (F := Ideal) S_ .f32 0x7FC00000#32))

/-- The same for the 50000-row table. -/
def takeD (x : FVec Ideal S50000x128 .f32) (idx : Ends) : FVec Ideal S800000x128 .f32 :=
  let wrapped : Ends := select (cmpi .slt idx (broadcastInDim S800000 ![] bcast_S_S800000 (constantI S_ 32 0#32)))
      (addi idx (broadcastInDim S800000 ![] bcast_S_S800000 (constantI S_ 32 50000#32))) idx
  let col := broadcastInDim S800000x1 ![0] bcast_S800000_S800000x1_0 wrapped
  let ok := Host.reduce IntOp.andi
      (andi (cmpi .sge col (broadcastInDim S800000x1 ![] bcast_S_S800000x1 (constantI S_ 32 0#32)))
            (cmpi .sle col (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_
  select (broadcastInDim S800000x128 ![0] bcast_S800000_S800000x128_0 ok)
    (Host.gather gather_S50000x128_S800000x1_S800000x128_1_0_n_n_0_1_1128 x col)
    (broadcastInDim S800000x128 ![] bcast_S_S800000x128 (constant (F := Ideal) S_ .f32 0x7FC00000#32))

/-- The mean of the messages arriving at each of the 50000 nodes: their sum over the edges ending there, over the
    number of such edges floored at one. -/
def meanD (msg : FVec Ideal S800000x128 .f32) (dst : Ends) : FVec Ideal S50000x128 .f32 :=
  Host.divf (F := Ideal)
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) msg)
    (broadcastInDim S50000x128 ![0, 1] bcast_S50000x1_S50000x128_0_1 (broadcastInDim S50000x1 ![0] bcast_S50000_S50000x1_0
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32)))))

/-- The same at each of the 100000 nodes. -/
def meanG (msg : FVec Ideal S800000x128 .f32) (dst : Ends) : FVec Ideal S100000x128 .f32 :=
  Host.divf (F := Ideal)
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst) msg)
    (broadcastInDim S100000x128 ![0, 1] bcast_S100000x1_S100000x128_0_1 (broadcastInDim S100000x1 ![0] bcast_S100000_S100000x1_0
      (maximumf
        (Host.scatterAdd scatter_S100000_S800000x1_S800000_n_0_0_1
          (broadcastInDim S100000 ![] bcast_S_S100000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S100000 ![] bcast_S_S100000 (constant (F := Ideal) S_ .f32 0x3F800000#32)))))

end Cert.ReferenceIdeal.Agg

end
-- ==== Proof.RefDefs.lean ====
/-
  The two layers of the network as compositions of the stage and the aggregation: layer 0's output at either node
  type from the input tables, and layer 1's output at either node type from layer 0's two outputs. Each is one stage
  (affine part, activation in layer 0 only, row normalisation, skip sum) applied to the mean, over incoming edges, of
  the other node type's rows.
-/
import proofs.«118446_j88244398064001_1_alg».proof.Proof.RefStage
import proofs.«118446_j88244398064001_1_alg».proof.Proof.RefAgg

noncomputable section

namespace Cert.ReferenceIdeal.Value

open Cert.ReferenceIdeal Cert.ReferenceIdeal.Stage Cert.ReferenceIdeal.Agg
open Idealize.ShloMosaic

/-- Layer 0's output at the 50000 nodes: the stage for edge type (0, 0) on the mean of the other type's rows. -/
def xd1 (a0 : FVec Ideal S100000x128 .f32) (a1 : FVec Ideal S50000x128 .f32) (W1 W2 : FVec Ideal S2x2x128x128 .f32)
    (B : FVec Ideal S2x2x128 .f32) (i5 i6 : Ends) : FVec Ideal S50000x128 .f32 :=
  normD (reluD (linD (meanD (takeG a0 i5) i6) a1
    (wmat ![0, 0, 0, 0] Facts₀.slices_S2x2x128x128_S1x1x128x128_0_0_0_0 W1)
    (wmat ![0, 0, 0, 0] Facts₀.slices_S2x2x128x128_S1x1x128x128_0_0_0_0 W2)
    (bvec ![0, 0, 0] Facts₀.slices_S2x2x128_S1x1x128_0_0_0 B))) a1

/-- Layer 0's output at the 100000 nodes: the stage for edge type (0, 1). -/
def xg1 (a0 : FVec Ideal S100000x128 .f32) (a1 : FVec Ideal S50000x128 .f32) (W1 W2 : FVec Ideal S2x2x128x128 .f32)
    (B : FVec Ideal S2x2x128 .f32) (i7 i8 : Ends) : FVec Ideal S100000x128 .f32 :=
  normG (reluG (linG (meanG (takeD a1 i7) i8) a0
    (wmat ![0, 1, 0, 0] Facts₀.slices_S2x2x128x128_S1x1x128x128_0_1_0_0 W1)
    (wmat ![0, 1, 0, 0] Facts₀.slices_S2x2x128x128_S1x1x128x128_0_1_0_0 W2)
    (bvec ![0, 1, 0] Facts₀.slices_S2x2x128_S1x1x128_0_1_0 B))) a0

/-- Layer 1's output at the 50000 nodes, from layer 0's two outputs: the stage for edge type (1, 0), no maximum. -/
def outD (xg : FVec Ideal S100000x128 .f32) (xd : FVec Ideal S50000x128 .f32) (W1 W2 : FVec Ideal S2x2x128x128 .f32)
    (B : FVec Ideal S2x2x128 .f32) (i5 i6 : Ends) : FVec Ideal S50000x128 .f32 :=
  normD (linD (meanD (takeG xg i5) i6) xd
    (wmat ![1, 0, 0, 0] Facts₀.slices_S2x2x128x128_S1x1x128x128_1_0_0_0 W1)
    (wmat ![1, 0, 0, 0] Facts₀.slices_S2x2x128x128_S1x1x128x128_1_0_0_0 W2)
    (bvec ![1, 0, 0] Facts₀.slices_S2x2x128_S1x1x128_1_0_0 B)) xd

/-- Layer 1's output at the 100000 nodes: the stage for edge type (1, 1), no maximum. -/
def outG (xg : FVec Ideal S100000x128 .f32) (xd : FVec Ideal S50000x128 .f32) (W1 W2 : FVec Ideal S2x2x128x128 .f32)
    (B : FVec Ideal S2x2x128 .f32) (i7 i8 : Ends) : FVec Ideal S100000x128 .f32 :=
  normG (linG (meanG (takeD xd i7) i8) xg
    (wmat ![1, 1, 0, 0] Facts₀.slices_S2x2x128x128_S1x1x128x128_1_1_0_0 W1)
    (wmat ![1, 1, 0, 0] Facts₀.slices_S2x2x128x128_S1x1x128x128_1_1_0_0 W2)
    (bvec ![1, 1, 0] Facts₀.slices_S2x2x128_S1x1x128_1_1_0 B)) xg

end Cert.ReferenceIdeal.Value

end
-- ==== Proof.RefTakes.lean ====
/-
  The reference program's message-passing stretches, read over any buffer contents.

  Taking a table's rows at the edges' source ends is a module-local function of twenty-three operations: a negative
  endpoint number wrapped round once, the numbers as a column, the range test folded along the column, the rows gathered,
  and a row of the fill word wherever the test fails. Averaging the messages at the target ends is sixteen plain
  operations. Whatever the buffers held before, each stretch leaves in its result buffer that function of the buffers
  it reads.
-/
import proofs.«118446_j88244398064001_1_alg».proof.Proof.RefRun
import proofs.«118446_j88244398064001_1_alg».proof.Proof.RefAgg

set_option maxRecDepth 16384

noncomputable section

namespace Cert.ReferenceIdeal.Takes

open Cert.ReferenceIdeal Cert.ReferenceIdeal.RefRun Cert.ReferenceIdeal.Agg
open Idealize.ShloMosaic Idealize.ShloMosaic.TcCoe Idealize.SL.Sem Idealize.ShloMosaic.StableHlo

/-! ## The four stretches that take a table's rows at the edges' source ends

Each is a module-local function's operations over typed references: an operation's result is moved to its buffer's own
type and back on the next read. Read through the typed references on both sides, those moves cancel in pairs, and what
is left is the function of the table and the endpoint list, whatever the buffers held before. -/

/-- Transport along an equation and back is the identity. -/
theorem cast_cast_id {α β : Type} (h₁ : β = α) (h₂ : α = β) (v : α) : cast h₁ (cast h₂ v) = v := by
  subst h₂; rfl

/-- First layer, the 100000-row table's rows at the first edge list's source ends, read through the typed references. -/
theorem take_segA1_typed (V : Valuation τ sig (Elt Ideal)) :
    (StableHlo.TRef.of main_v6 : StableHlo.TRef sig ⟨S800000x128, .f32⟩).ofBuf (after segA1 V (main_v6 : DevRef τ sig))
      = takeG ((StableHlo.TRef.of main_arg0 : StableHlo.TRef sig ⟨S100000x128, .f32⟩).ofBuf (V (main_arg0 : DevRef τ sig)))
          ((StableHlo.TRef.of main_arg5 : StableHlo.TRef sig ⟨S800000, .i32⟩).ofBuf (V (main_arg5 : DevRef τ sig))) := by
  dsimp only [segA1]
  after_results_simp
  simp only [cast_cast_id]
  rfl
theorem take_segA1 (V : Valuation τ sig (Elt Ideal)) :
    after segA1 V (main_v6 : DevRef τ sig) = takeG (V (main_arg0 : DevRef τ sig)) (V (main_arg5 : DevRef τ sig)) :=
  take_segA1_typed V

/-- First layer, the 50000-row table's rows at the second edge list's source ends, read through the typed references. -/
theorem take_segA3_typed (V : Valuation τ sig (Elt Ideal)) :
    (StableHlo.TRef.of main_v33 : StableHlo.TRef sig ⟨S800000x128, .f32⟩).ofBuf (after segA3 V (main_v33 : DevRef τ sig))
      = takeD ((StableHlo.TRef.of main_arg1 : StableHlo.TRef sig ⟨S50000x128, .f32⟩).ofBuf (V (main_arg1 : DevRef τ sig)))
          ((StableHlo.TRef.of main_arg7 : StableHlo.TRef sig ⟨S800000, .i32⟩).ofBuf (V (main_arg7 : DevRef τ sig))) := by
  dsimp only [segA3]
  after_results_simp
  simp only [cast_cast_id]
  rfl
theorem take_segA3 (V : Valuation τ sig (Elt Ideal)) :
    after segA3 V (main_v33 : DevRef τ sig) = takeD (V (main_arg1 : DevRef τ sig)) (V (main_arg7 : DevRef τ sig)) :=
  take_segA3_typed V

/-- Second layer, the first layer's 100000-row output at the first edge list's source ends, read through the typed references. -/
theorem take_segB7_typed (V : Valuation τ sig (Elt Ideal)) :
    (StableHlo.TRef.of main_v74 : StableHlo.TRef sig ⟨S800000x128, .f32⟩).ofBuf (after segB7 V (main_v74 : DevRef τ sig))
      = takeG ((StableHlo.TRef.of main_v66 : StableHlo.TRef sig ⟨S100000x128, .f32⟩).ofBuf (V (main_v66 : DevRef τ sig)))
          ((StableHlo.TRef.of main_arg5 : StableHlo.TRef sig ⟨S800000, .i32⟩).ofBuf (V (main_arg5 : DevRef τ sig))) := by
  dsimp only [segB7]
  after_results_simp
  simp only [cast_cast_id]
  rfl
theorem take_segB7 (V : Valuation τ sig (Elt Ideal)) :
    after segB7 V (main_v74 : DevRef τ sig) = takeG (V (main_v66 : DevRef τ sig)) (V (main_arg5 : DevRef τ sig)) :=
  take_segB7_typed V

/-- Second layer, the first layer's 50000-row output at the second edge list's source ends, read through the typed references. -/
theorem take_segB9_typed (V : Valuation τ sig (Elt Ideal)) :
    (StableHlo.TRef.of main_v101 : StableHlo.TRef sig ⟨S800000x128, .f32⟩).ofBuf (after segB9 V (main_v101 : DevRef τ sig))
      = takeD ((StableHlo.TRef.of main_v67 : StableHlo.TRef sig ⟨S50000x128, .f32⟩).ofBuf (V (main_v67 : DevRef τ sig)))
          ((StableHlo.TRef.of main_arg7 : StableHlo.TRef sig ⟨S800000, .i32⟩).ofBuf (V (main_arg7 : DevRef τ sig))) := by
  dsimp only [segB9]
  after_results_simp
  simp only [cast_cast_id]
  rfl
theorem take_segB9 (V : Valuation τ sig (Elt Ideal)) :
    after segB9 V (main_v101 : DevRef τ sig) = takeD (V (main_v67 : DevRef τ sig)) (V (main_arg7 : DevRef τ sig)) :=
  take_segB9_typed V

/-! ## The four stretches that average the messages at the edges' target ends

Plain operations: the messages summed at the target ends into a zero array, ones summed the same way into a zero
count, the count floored at one and repeated along the row, the quotient. The segment's later operations write other
buffers, so the mean's buffer keeps that value to the segment's end. -/

/-- First layer, at the 50000 nodes. -/
theorem mean_segA2 (V : Valuation τ sig (Elt Ideal)) :
    after segA2 V (main_v18 : DevRef τ sig) = meanD (V (main_v6 : DevRef τ sig)) (V (main_arg6 : DevRef τ sig)) := by
  dsimp only [segA2]
  after_results_simp
  rfl

/-- First layer, at the 100000 nodes. -/
theorem mean_segA4 (V : Valuation τ sig (Elt Ideal)) :
    after segA4 V (main_v45 : DevRef τ sig) = meanG (V (main_v33 : DevRef τ sig)) (V (main_arg8 : DevRef τ sig)) := by
  dsimp only [segA4]
  after_results_simp
  rfl

/-- Second layer, at the 50000 nodes. -/
theorem mean_segB8 (V : Valuation τ sig (Elt Ideal)) :
    after segB8 V (main_v86 : DevRef τ sig) = meanD (V (main_v74 : DevRef τ sig)) (V (main_arg6 : DevRef τ sig)) := by
  dsimp only [segB8]
  after_results_simp
  rfl

/-- Second layer, at the 100000 nodes: the sum of the messages closes one segment and the count, the floor and the
    quotient open the next. -/
theorem mean_segB10_segC0 (V : Valuation τ sig (Elt Ideal)) :
    after segC0 (after segB10 V) (main_v113 : DevRef τ sig) = meanG (V (main_v101 : DevRef τ sig)) (V (main_arg8 : DevRef τ sig)) := by
  dsimp only [segC0, segB10]
  after_results_simp
  rfl

end Cert.ReferenceIdeal.Takes

end
-- ==== Proof.RefLayer0.lean ====
/-
  Layer 0 of the reference network read off its run. The program's first 166 host operations — everything before the
  second layer's first row-taking call — leave, whatever the memory they start from, the stage of edge type (0, 0) on
  the 50000-row table and the stage of edge type (0, 1) on the 100000-row table in the two buffers the second layer
  reads. Each stretch of operations is read as a function of the contents it starts from; a buffer is followed back
  through the stretches that leave it alone to the stretch that computes it.
-/
import proofs.«118446_j88244398064001_1_alg».proof.Proof.RefArgs
import proofs.«118446_j88244398064001_1_alg».proof.Proof.RefDefs
import proofs.«118446_j88244398064001_1_alg».proof.Proof.RefTakes
import Idealize.ShloMosaic.Lib.StableHlo.Run

noncomputable section

namespace Cert.ReferenceIdeal.Layer0

open Cert.ReferenceIdeal Cert.ReferenceIdeal.Gen Cert.ReferenceIdeal.Stage Cert.ReferenceIdeal.Agg Cert.ReferenceIdeal.RefRun
  Cert.ReferenceIdeal.RefArgs Cert.ReferenceIdeal.Value Cert.ReferenceIdeal.Takes
open Idealize.ShloMosaic Idealize.ShloMosaic.TcCoe Idealize.SL.Sem Idealize.ShloMosaic.StableHlo

/-! ## A buffer no operation writes -/

/-- A line of host operations writes no buffer of reference `r`. -/
abbrev NW (l : List (HloOp τ sig (Elt Ideal))) (r : Ref sig .tc) : Prop :=
  l.Forall fun op => (r : DevRef τ sig) ∉ op.writes

/-- A buffer that no operation of a line writes keeps its contents through the line. -/
theorem keep {r : Ref sig .tc} {l : List (HloOp τ sig (Elt Ideal))} (h : NW l r) (V : Valuation τ sig (Elt Ideal)) :
    after l V (r : DevRef τ sig) = V (r : DevRef τ sig) :=
  after_of_forall_not_mem l V (List.forall_iff_forall_mem.mp h)

/-- Closes `NW seg r` for a literal line and a literal reference: each operation writes one buffer of its own, told
    apart from `r` as references, by computation. -/
macro "not_written" seg:ident : tactic =>
  `(tactic| (simp only [NW, $seg:ident, List.Forall, nullary_writes, unary_writes, binary_writes, ternary_writes, reshape_writes, Finset.mem_singleton]
             repeat' apply And.intro
             all_goals exact devRef_ne_of_ne (by decide)))

/-! ## The typed references' transports

An outlined function's operation reads and writes through references that carry the value's type; the contents are
moved along the equation between that type and the buffer's. A transport and its converse cancel; at a literal
reference the equation holds by computation and a single transport is the identity. -/

/-- Contents moved to a typed reference's buffer type and back are the contents. -/
theorem ofBuf_toBuf {T : BufTy} (x : TRef sig T) (v : T.Contents (Elt Ideal)) : x.ofBuf (x.toBuf v) = v := by
  obtain ⟨r, rfl, h1, h2⟩ := x
  rfl

theorem ofBuf_v53 (v : (⟨S100000x128, .f32⟩ : BufTy).Contents (Elt Ideal)) :
    (TRef.of main_v53 : TRef sig ⟨S100000x128, .f32⟩).ofBuf (Val := Elt Ideal) v = v := rfl
theorem toBuf_v54 (v : (⟨S100000x128, .f32⟩ : BufTy).Contents (Elt Ideal)) :
    (TRef.of main_v54 : TRef sig ⟨S100000x128, .f32⟩).toBuf (Val := Elt Ideal) v = v := rfl
theorem ofBuf_v26 (v : (⟨S50000x128, .f32⟩ : BufTy).Contents (Elt Ideal)) :
    (TRef.of main_v26 : TRef sig ⟨S50000x128, .f32⟩).ofBuf (Val := Elt Ideal) v = v := rfl
theorem toBuf_v55 (v : (⟨S50000x128, .f32⟩ : BufTy).Contents (Elt Ideal)) :
    (TRef.of main_v55 : TRef sig ⟨S50000x128, .f32⟩).toBuf (Val := Elt Ideal) v = v := rfl
theorem ofBuf_v54 (v : (⟨S100000x128, .f32⟩ : BufTy).Contents (Elt Ideal)) :
    (TRef.of main_v54 : TRef sig ⟨S100000x128, .f32⟩).ofBuf (Val := Elt Ideal) v = v := rfl
theorem toBuf_v56 (v : (⟨S100000x1, .f32⟩ : BufTy).Contents (Elt Ideal)) :
    (TRef.of main_v56 : TRef sig ⟨S100000x1, .f32⟩).toBuf (Val := Elt Ideal) v = v := rfl
theorem ofBuf_v55 (v : (⟨S50000x128, .f32⟩ : BufTy).Contents (Elt Ideal)) :
    (TRef.of main_v55 : TRef sig ⟨S50000x128, .f32⟩).ofBuf (Val := Elt Ideal) v = v := rfl
theorem toBuf_v61 (v : (⟨S50000x1, .f32⟩ : BufTy).Contents (Elt Ideal)) :
    (TRef.of main_v61 : TRef sig ⟨S50000x1, .f32⟩).toBuf (Val := Elt Ideal) v = v := rfl

/-! ## The row norm as the outlined function computes it -/

/-- The Euclidean norms of the rows of a 100000×128 array, as a column: the squares summed along the row from zero, the
    square root. -/
def nrmG (h : FVec Ideal S100000x128 .f32) : FVec Ideal S100000x1 .f32 :=
  Host.sqrt (F := Ideal) (broadcastInDim S100000x1 ![0] bcast_S100000_S100000x1_0
    (Host.reduceAdd (F := Ideal) (mulf h h) (constant (F := Ideal) S_ .f32 0x00000000#32) reducesTo_S100000x128_S100000_d1 h_S_))

/-- The same for a 50000×128 array. -/
def nrmD (h : FVec Ideal S50000x128 .f32) : FVec Ideal S50000x1 .f32 :=
  Host.sqrt (F := Ideal) (broadcastInDim S50000x1 ![0] bcast_S50000_S50000x1_0
    (Host.reduceAdd (F := Ideal) (mulf h h) (constant (F := Ideal) S_ .f32 0x00000000#32) reducesTo_S50000x128_S50000_d1 h_S_))

/-- A row-normalised array plus the skip term is the quotient by the floored norms, plus the skip term. -/
theorem normG_eq (h x : FVec Ideal S100000x128 .f32) :
    normG h x = addf (Host.divf (F := Ideal) h (broadcastInDim S100000x128 ![0, 1] bcast_S100000x1_S100000x128_0_1
      (maximumf (nrmG h) (broadcastInDim S100000x1 ![] bcast_S_S100000x1 (constant (F := Ideal) S_ .f32 0x2B8CBCCC#32))))) x := rfl
theorem normD_eq (h x : FVec Ideal S50000x128 .f32) :
    normD h x = addf (Host.divf (F := Ideal) h (broadcastInDim S50000x128 ![0, 1] bcast_S50000x1_S50000x128_0_1
      (maximumf (nrmD h) (broadcastInDim S50000x1 ![] bcast_S_S50000x1 (constant (F := Ideal) S_ .f32 0x2B8CBCCC#32))))) x := rfl

/-! ## What each stretch of operations computes, from any contents `V` -/

section Lines

variable (V : Valuation τ sig (Elt Ideal))

/-- The first stretch cuts the weight blocks and the bias vector of edge type (0, 0). -/
theorem a0_v1 : after (segA0 (F := Ideal)) V (Proc.devRef .tc main_v1) = shapeCast S128x128 (extractStridedSlice S1x1x128x128 ![0, 0, 0, 0] (V (Proc.devRef .tc main_arg2)) slices_S2x2x128x128_S1x1x128x128_0_0_0_0) shapeCasts_S1x1x128x128_S128x128 := by
  after_results_simp
  rfl
theorem a0_v3 : after (segA0 (F := Ideal)) V (Proc.devRef .tc main_v3) = shapeCast S128x128 (extractStridedSlice S1x1x128x128 ![0, 0, 0, 0] (V (Proc.devRef .tc main_arg3)) slices_S2x2x128x128_S1x1x128x128_0_0_0_0) shapeCasts_S1x1x128x128_S128x128 := by
  after_results_simp
  rfl
theorem a0_v5 : after (segA0 (F := Ideal)) V (Proc.devRef .tc main_v5) = shapeCast S128 (extractStridedSlice S1x1x128 ![0, 0, 0] (V (Proc.devRef .tc main_arg4)) slices_S2x2x128_S1x1x128_0_0_0) shapeCasts_S1x1x128_S128 := by
  after_results_simp
  rfl

set_option maxRecDepth 8192 in
/-- The third stretch: the mean of the taken rows at the 50000 nodes, and the affine part of edge type (0, 0). -/
theorem a2_v26 : after (segA2 (F := Ideal)) V (Proc.devRef .tc main_v26)
    = linD (meanD (V (Proc.devRef .tc main_v6)) (V (Proc.devRef .tc main_arg6))) (V (Proc.devRef .tc main_arg1)) (transpose S128x128 [1, 0] (V (Proc.devRef .tc main_v1)) transposes_S128x128_S128x128_1_0) (transpose S128x128 [1, 0] (V (Proc.devRef .tc main_v3)) transposes_S128x128_S128x128_1_0) (V (Proc.devRef .tc main_v5)) := by
  unfold linD meanD
  after_results_simp

/-- … and the weight blocks and the bias vector of edge type (0, 1). -/
theorem a2_v28 : after (segA2 (F := Ideal)) V (Proc.devRef .tc main_v28) = shapeCast S128x128 (extractStridedSlice S1x1x128x128 ![0, 1, 0, 0] (V (Proc.devRef .tc main_arg2)) slices_S2x2x128x128_S1x1x128x128_0_1_0_0) shapeCasts_S1x1x128x128_S128x128 := by
  after_results_simp
  rfl
theorem a2_v30 : after (segA2 (F := Ideal)) V (Proc.devRef .tc main_v30) = shapeCast S128x128 (extractStridedSlice S1x1x128x128 ![0, 1, 0, 0] (V (Proc.devRef .tc main_arg3)) slices_S2x2x128x128_S1x1x128x128_0_1_0_0) shapeCasts_S1x1x128x128_S128x128 := by
  after_results_simp
  rfl
theorem a2_v32 : after (segA2 (F := Ideal)) V (Proc.devRef .tc main_v32) = shapeCast S128 (extractStridedSlice S1x1x128 ![0, 1, 0] (V (Proc.devRef .tc main_arg4)) slices_S2x2x128_S1x1x128_0_1_0) shapeCasts_S1x1x128_S128 := by
  after_results_simp
  rfl

set_option maxRecDepth 8192 in
/-- The fifth and sixth stretches: the mean at the 100000 nodes and the affine part of edge type (0, 1). -/
theorem a4b0_v53 : after (segA4 (F := Ideal) ++ segB0) V (Proc.devRef .tc main_v53)
    = linG (meanG (V (Proc.devRef .tc main_v33)) (V (Proc.devRef .tc main_arg8))) (V (Proc.devRef .tc main_arg0)) (transpose S128x128 [1, 0] (V (Proc.devRef .tc main_v28)) transposes_S128x128_S128x128_1_0) (transpose S128x128 [1, 0] (V (Proc.devRef .tc main_v30)) transposes_S128x128_S128x128_1_0) (V (Proc.devRef .tc main_v32)) := by
  unfold linG meanG
  simp only [segA4, segB0, List.cons_append, List.nil_append]
  after_results_simp

/-- The activation of the 100000-row affine part, the transports still written. -/
theorem b1_v54' : after (segB1 (F := Ideal)) V (Proc.devRef .tc main_v54)
    = (TRef.of main_v54 : TRef sig ⟨S100000x128, .f32⟩).toBuf (Val := Elt Ideal)
        (reluG ((TRef.of main_v53 : TRef sig ⟨S100000x128, .f32⟩).ofBuf (V (Proc.devRef .tc main_v53)))) := by
  unfold reluG
  after_results_simp
  simp only [ofBuf_toBuf]
theorem b1_v54 : after (segB1 (F := Ideal)) V (Proc.devRef .tc main_v54) = reluG (V (Proc.devRef .tc main_v53)) :=
  (b1_v54' V).trans ((toBuf_v54 _).trans (congrArg reluG (ofBuf_v53 _)))

/-- The activation of the 50000-row affine part. -/
theorem b2_v55' : after (segB2 (F := Ideal)) V (Proc.devRef .tc main_v55)
    = (TRef.of main_v55 : TRef sig ⟨S50000x128, .f32⟩).toBuf (Val := Elt Ideal)
        (reluD ((TRef.of main_v26 : TRef sig ⟨S50000x128, .f32⟩).ofBuf (V (Proc.devRef .tc main_v26)))) := by
  unfold reluD
  after_results_simp
  simp only [ofBuf_toBuf]
theorem b2_v55 : after (segB2 (F := Ideal)) V (Proc.devRef .tc main_v55) = reluD (V (Proc.devRef .tc main_v26)) :=
  (b2_v55' V).trans ((toBuf_v55 _).trans (congrArg reluD (ofBuf_v26 _)))

/-- The row norms of the activated 100000-row array. -/
theorem b3_v56' : after (segB3 (F := Ideal)) V (Proc.devRef .tc main_v56)
    = (TRef.of main_v56 : TRef sig ⟨S100000x1, .f32⟩).toBuf (Val := Elt Ideal)
        (nrmG ((TRef.of main_v54 : TRef sig ⟨S100000x128, .f32⟩).ofBuf (V (Proc.devRef .tc main_v54)))) := by
  unfold nrmG
  after_results_simp
  simp only [ofBuf_toBuf]
theorem b3_v56 : after (segB3 (F := Ideal)) V (Proc.devRef .tc main_v56) = nrmG (V (Proc.devRef .tc main_v54)) :=
  (b3_v56' V).trans ((toBuf_v56 _).trans (congrArg nrmG (ofBuf_v54 _)))

/-- The activated 100000-row array over its floored row norms. -/
theorem b4_v60 : after (segB4 (F := Ideal)) V (Proc.devRef .tc main_v60)
    = Host.divf (F := Ideal) (V (Proc.devRef .tc main_v54)) (broadcastInDim S100000x128 ![0, 1] bcast_S100000x1_S100000x128_0_1
        (maximumf (V (Proc.devRef .tc main_v56)) (broadcastInDim S100000x1 ![] bcast_S_S100000x1 (constant (F := Ideal) S_ .f32 0x2B8CBCCC#32)))) := by
  after_results_simp

/-- The row norms of the activated 50000-row array. -/
theorem b5_v61' : after (segB5 (F := Ideal)) V (Proc.devRef .tc main_v61)
    = (TRef.of main_v61 : TRef sig ⟨S50000x1, .f32⟩).toBuf (Val := Elt Ideal)
        (nrmD ((TRef.of main_v55 : TRef sig ⟨S50000x128, .f32⟩).ofBuf (V (Proc.devRef .tc main_v55)))) := by
  unfold nrmD
  after_results_simp
  simp only [ofBuf_toBuf]
theorem b5_v61 : after (segB5 (F := Ideal)) V (Proc.devRef .tc main_v61) = nrmD (V (Proc.devRef .tc main_v55)) :=
  (b5_v61' V).trans ((toBuf_v61 _).trans (congrArg nrmD (ofBuf_v55 _)))

/-- The last stretch: the 50000-row quotient, and the two skip sums. -/
theorem b6_v66 : after (segB6 (F := Ideal)) V (Proc.devRef .tc main_v66) = (addf (V (Proc.devRef .tc main_v60)) (V (Proc.devRef .tc main_arg0)) : FVec Ideal S100000x128 .f32) := by
  after_results_simp
theorem b6_v67 : after (segB6 (F := Ideal)) V (Proc.devRef .tc main_v67)
    = addf (Host.divf (F := Ideal) (V (Proc.devRef .tc main_v55)) (broadcastInDim S50000x128 ![0, 1] bcast_S50000x1_S50000x128_0_1
        (maximumf (V (Proc.devRef .tc main_v61)) (broadcastInDim S50000x1 ![] bcast_S_S50000x1 (constant (F := Ideal) S_ .f32 0x2B8CBCCC#32))))) (V (Proc.devRef .tc main_arg1)) := by
  after_results_simp

end Lines

/-! ## The contents after each stretch -/

section Chain

variable (V : Valuation τ sig (Elt Ideal))

/-- The first layer's operations: the first window, and the second window up to the second layer's first
    row-taking call. -/
abbrev pre : List (HloOp τ sig (Elt Ideal)) :=
  opsA ++ (segB0 ++ segB1 ++ segB2 ++ segB3 ++ segB4 ++ segB5 ++ segB6)

/-- The contents after the first stretch, the second, …: `W1` … `W11` (the fifth and sixth stretches taken together). -/
abbrev W1 : Valuation τ sig (Elt Ideal) := after (segA0 (F := Ideal)) V
abbrev W2 : Valuation τ sig (Elt Ideal) := after (segA1 (F := Ideal)) (W1 V)
abbrev W3 : Valuation τ sig (Elt Ideal) := after (segA2 (F := Ideal)) (W2 V)
abbrev W4 : Valuation τ sig (Elt Ideal) := after (segA3 (F := Ideal)) (W3 V)
abbrev W5 : Valuation τ sig (Elt Ideal) := after (segA4 (F := Ideal) ++ segB0) (W4 V)
abbrev W6 : Valuation τ sig (Elt Ideal) := after (segB1 (F := Ideal)) (W5 V)
abbrev W7 : Valuation τ sig (Elt Ideal) := after (segB2 (F := Ideal)) (W6 V)
abbrev W8 : Valuation τ sig (Elt Ideal) := after (segB3 (F := Ideal)) (W7 V)
abbrev W9 : Valuation τ sig (Elt Ideal) := after (segB4 (F := Ideal)) (W8 V)
abbrev W10 : Valuation τ sig (Elt Ideal) := after (segB5 (F := Ideal)) (W9 V)
abbrev W11 : Valuation τ sig (Elt Ideal) := after (segB6 (F := Ideal)) (W10 V)

/-- The fold over the first layer's operations is the stretches' folds one after the other. -/
theorem pre_eq : after pre V = W11 V := by
  simp only [pre, opsA, W11, W10, W9, W8, W7, W6, W5, W4, W3, W2, W1, StableHlo.after_append]

/-! ### The arguments keep their launch contents throughout -/

variable {r : Ref sig .tc} (hr : r ∈ argRefs)
include hr

theorem W1_arg : W1 V (r : DevRef τ sig) = V (r : DevRef τ sig) := keeps segA0 V (segA0_args r hr)
theorem W2_arg : W2 V (r : DevRef τ sig) = V (r : DevRef τ sig) := (keeps segA1 _ (segA1_args r hr)).trans (W1_arg V hr)
theorem W3_arg : W3 V (r : DevRef τ sig) = V (r : DevRef τ sig) := (keeps segA2 _ (segA2_args r hr)).trans (W2_arg V hr)
theorem W4_arg : W4 V (r : DevRef τ sig) = V (r : DevRef τ sig) := (keeps segA3 _ (segA3_args r hr)).trans (W3_arg V hr)
theorem W5_arg : W5 V (r : DevRef τ sig) = V (r : DevRef τ sig) :=
  (keeps (segA4 ++ segB0) _ (forall_append_of (segA4_args r hr) (segB0_args r hr))).trans (W4_arg V hr)
theorem W6_arg : W6 V (r : DevRef τ sig) = V (r : DevRef τ sig) := (keeps segB1 _ (segB1_args r hr)).trans (W5_arg V hr)
theorem W7_arg : W7 V (r : DevRef τ sig) = V (r : DevRef τ sig) := (keeps segB2 _ (segB2_args r hr)).trans (W6_arg V hr)
theorem W8_arg : W8 V (r : DevRef τ sig) = V (r : DevRef τ sig) := (keeps segB3 _ (segB3_args r hr)).trans (W7_arg V hr)
theorem W9_arg : W9 V (r : DevRef τ sig) = V (r : DevRef τ sig) := (keeps segB4 _ (segB4_args r hr)).trans (W8_arg V hr)
theorem W10_arg : W10 V (r : DevRef τ sig) = V (r : DevRef τ sig) := (keeps segB5 _ (segB5_args r hr)).trans (W9_arg V hr)

omit hr

end Chain

/-! ## The first layer's two outputs -/

section Outputs

variable (V : Valuation τ sig (Elt Ideal))

/-- The affine part of edge type (0, 0) after the third stretch, in the arguments' contents. -/
theorem W3_v26 : W3 V (Proc.devRef .tc main_v26)
    = linD (meanD (takeG (V (Proc.devRef .tc main_arg0)) (V (Proc.devRef .tc main_arg5))) (V (Proc.devRef .tc main_arg6))) (V (Proc.devRef .tc main_arg1)) (wmat ![0, 0, 0, 0] Facts₀.slices_S2x2x128x128_S1x1x128x128_0_0_0_0 (V (Proc.devRef .tc main_arg2))) (wmat ![0, 0, 0, 0] Facts₀.slices_S2x2x128x128_S1x1x128x128_0_0_0_0 (V (Proc.devRef .tc main_arg3))) (bvec ![0, 0, 0] Facts₀.slices_S2x2x128_S1x1x128_0_0_0 (V (Proc.devRef .tc main_arg4))) := by
  have e6 : W2 V (Proc.devRef .tc main_v6) = takeG (V (Proc.devRef .tc main_arg0)) (V (Proc.devRef .tc main_arg5)) :=
    (take_segA1 (W1 V)).trans (congrArg₂ takeG (W1_arg V (r := main_arg0) (by decide)) (W1_arg V (r := main_arg5) (by decide)))
  have e1 : W2 V (Proc.devRef .tc main_v1) = shapeCast S128x128 (extractStridedSlice S1x1x128x128 ![0, 0, 0, 0] (V (Proc.devRef .tc main_arg2)) slices_S2x2x128x128_S1x1x128x128_0_0_0_0) shapeCasts_S1x1x128x128_S128x128 :=
    (keep (l := segA1) (r := main_v1) (by not_written segA1) _).trans (a0_v1 V)
  have e3 : W2 V (Proc.devRef .tc main_v3) = shapeCast S128x128 (extractStridedSlice S1x1x128x128 ![0, 0, 0, 0] (V (Proc.devRef .tc main_arg3)) slices_S2x2x128x128_S1x1x128x128_0_0_0_0) shapeCasts_S1x1x128x128_S128x128 :=
    (keep (l := segA1) (r := main_v3) (by not_written segA1) _).trans (a0_v3 V)
  have e5 : W2 V (Proc.devRef .tc main_v5) = shapeCast S128 (extractStridedSlice S1x1x128 ![0, 0, 0] (V (Proc.devRef .tc main_arg4)) slices_S2x2x128_S1x1x128_0_0_0) shapeCasts_S1x1x128_S128 :=
    (keep (l := segA1) (r := main_v5) (by not_written segA1) _).trans (a0_v5 V)
  have h := a2_v26 (W2 V)
  rw [e6, e1, e3, e5, W2_arg V (r := main_arg6) (by decide), W2_arg V (r := main_arg1) (by decide)] at h
  exact h

/-- The affine part of edge type (0, 1) after the sixth stretch, in the arguments' contents. -/
theorem W5_v53 : W5 V (Proc.devRef .tc main_v53)
    = linG (meanG (takeD (V (Proc.devRef .tc main_arg1)) (V (Proc.devRef .tc main_arg7))) (V (Proc.devRef .tc main_arg8))) (V (Proc.devRef .tc main_arg0)) (wmat ![0, 1, 0, 0] Facts₀.slices_S2x2x128x128_S1x1x128x128_0_1_0_0 (V (Proc.devRef .tc main_arg2))) (wmat ![0, 1, 0, 0] Facts₀.slices_S2x2x128x128_S1x1x128x128_0_1_0_0 (V (Proc.devRef .tc main_arg3))) (bvec ![0, 1, 0] Facts₀.slices_S2x2x128_S1x1x128_0_1_0 (V (Proc.devRef .tc main_arg4))) := by
  have e33 : W4 V (Proc.devRef .tc main_v33) = takeD (V (Proc.devRef .tc main_arg1)) (V (Proc.devRef .tc main_arg7)) :=
    (take_segA3 (W3 V)).trans (congrArg₂ takeD (W3_arg V (r := main_arg1) (by decide)) (W3_arg V (r := main_arg7) (by decide)))
  have e28 : W4 V (Proc.devRef .tc main_v28) = shapeCast S128x128 (extractStridedSlice S1x1x128x128 ![0, 1, 0, 0] (V (Proc.devRef .tc main_arg2)) slices_S2x2x128x128_S1x1x128x128_0_1_0_0) shapeCasts_S1x1x128x128_S128x128 := by
    refine (keep (l := segA3) (r := main_v28) (by not_written segA3) _).trans ((a2_v28 (W2 V)).trans ?_)
    rw [W2_arg V (r := main_arg2) (by decide)]
  have e30 : W4 V (Proc.devRef .tc main_v30) = shapeCast S128x128 (extractStridedSlice S1x1x128x128 ![0, 1, 0, 0] (V (Proc.devRef .tc main_arg3)) slices_S2x2x128x128_S1x1x128x128_0_1_0_0) shapeCasts_S1x1x128x128_S128x128 := by
    refine (keep (l := segA3) (r := main_v30) (by not_written segA3) _).trans ((a2_v30 (W2 V)).trans ?_)
    rw [W2_arg V (r := main_arg3) (by decide)]
  have e32 : W4 V (Proc.devRef .tc main_v32) = shapeCast S128 (extractStridedSlice S1x1x128 ![0, 1, 0] (V (Proc.devRef .tc main_arg4)) slices_S2x2x128_S1x1x128_0_1_0) shapeCasts_S1x1x128_S128 := by
    refine (keep (l := segA3) (r := main_v32) (by not_written segA3) _).trans ((a2_v32 (W2 V)).trans ?_)
    rw [W2_arg V (r := main_arg4) (by decide)]
  have h := a4b0_v53 (W4 V)
  rw [e33, e28, e30, e32, W4_arg V (r := main_arg8) (by decide), W4_arg V (r := main_arg0) (by decide)] at h
  exact h

/-- The 50000-row output: the stage of edge type (0, 0). -/
theorem W11_v67 : W11 V (Proc.devRef .tc main_v67) = xd1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have e26 : W6 V (Proc.devRef .tc main_v26) = W3 V (Proc.devRef .tc main_v26) :=
    (keep (l := segB1) (r := main_v26) (by not_written segB1) _).trans
      ((keep (l := segA4 ++ segB0) (r := main_v26) (forall_append_of (by not_written segA4) (by not_written segB0)) _).trans
        (keep (l := segA3) (r := main_v26) (by not_written segA3) _))
  have e55 : W7 V (Proc.devRef .tc main_v55) = reluD (W3 V (Proc.devRef .tc main_v26)) := (b2_v55 (W6 V)).trans (congrArg reluD e26)
  have e55_9 : W9 V (Proc.devRef .tc main_v55) = W7 V (Proc.devRef .tc main_v55) :=
    (keep (l := segB4) (r := main_v55) (by not_written segB4) _).trans (keep (l := segB3) (r := main_v55) (by not_written segB3) _)
  have e55_10 : W10 V (Proc.devRef .tc main_v55) = W7 V (Proc.devRef .tc main_v55) :=
    (keep (l := segB5) (r := main_v55) (by not_written segB5) _).trans e55_9
  have e61 : W10 V (Proc.devRef .tc main_v61) = nrmD (W7 V (Proc.devRef .tc main_v55)) := (b5_v61 (W9 V)).trans (congrArg nrmD e55_9)
  have h := b6_v67 (W10 V)
  rw [e55_10, e61, W10_arg V (r := main_arg1) (by decide), ← normD_eq, e55, W3_v26 V] at h
  exact h

/-- The 100000-row output: the stage of edge type (0, 1). -/
theorem W11_v66 : W11 V (Proc.devRef .tc main_v66) = xg1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) := by
  have e54 : W6 V (Proc.devRef .tc main_v54) = reluG (W5 V (Proc.devRef .tc main_v53)) := b1_v54 (W5 V)
  have e54_7 : W7 V (Proc.devRef .tc main_v54) = W6 V (Proc.devRef .tc main_v54) := keep (l := segB2) (r := main_v54) (by not_written segB2) _
  have e54_8 : W8 V (Proc.devRef .tc main_v54) = W6 V (Proc.devRef .tc main_v54) :=
    (keep (l := segB3) (r := main_v54) (by not_written segB3) _).trans e54_7
  have e56 : W8 V (Proc.devRef .tc main_v56) = nrmG (W6 V (Proc.devRef .tc main_v54)) := (b3_v56 (W7 V)).trans (congrArg nrmG e54_7)
  have e60 : W10 V (Proc.devRef .tc main_v60) = W9 V (Proc.devRef .tc main_v60) := keep (l := segB5) (r := main_v60) (by not_written segB5) _
  have h60 : W9 V (Proc.devRef .tc main_v60)
      = Host.divf (F := Ideal) (W6 V (Proc.devRef .tc main_v54)) (broadcastInDim S100000x128 ![0, 1] bcast_S100000x1_S100000x128_0_1
          (maximumf (nrmG (W6 V (Proc.devRef .tc main_v54))) (broadcastInDim S100000x1 ![] bcast_S_S100000x1 (constant (F := Ideal) S_ .f32 0x2B8CBCCC#32)))) := by
    have h0 := b4_v60 (W8 V)
    rw [e54_8, e56] at h0
    exact h0
  have h := b6_v66 (W10 V)
  rw [e60, h60, W10_arg V (r := main_arg0) (by decide), ← normG_eq, e54, W5_v53 V] at h
  exact h

/-- THE FIRST LAYER, read off the run: after its operations, from any contents, the two buffers the second layer reads
    hold the two stages of the arguments' contents. -/
theorem v67_pre : after pre V (main_v67 : DevRef τ sig)
    = xd1 (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) := by
  rw [pre_eq]
  exact W11_v67 V
theorem v66_pre : after pre V (main_v66 : DevRef τ sig)
    = xg1 (V (main_arg0 : DevRef τ sig)) (V (main_arg1 : DevRef τ sig)) (V (main_arg2 : DevRef τ sig)) (V (main_arg3 : DevRef τ sig))
        (V (main_arg4 : DevRef τ sig)) (V (main_arg7 : DevRef τ sig)) (V (main_arg8 : DevRef τ sig)) := by
  rw [pre_eq]
  exact W11_v66 V

end Outputs

end Cert.ReferenceIdeal.Layer0

end
-- ==== Proof.RefLayer1.lean ====
/-
  The second layer of the reference network, read off @main's line from any contents: the line is cut after layer 0's
  two skip sums; what follows — the layer's weight slices, the two takes of the other node type's rows, their means at
  the target nodes, the affine parts, the row normalizations and the skip sums — ends with the two results at the stage
  of the means, as functions of layer 0's two results and the arguments. A segment is read as a function of the contents
  it starts from; between segments a buffer is followed through the ones that leave it alone.
-/
import proofs.«118446_j88244398064001_1_alg».proof.Proof.RefRun
import proofs.«118446_j88244398064001_1_alg».proof.Proof.RefArgs
import proofs.«118446_j88244398064001_1_alg».proof.Proof.RefDefs
import proofs.«118446_j88244398064001_1_alg».proof.Proof.RefTakes
import Idealize.ShloMosaic.Lib.Pipeline.Frame

noncomputable section

namespace Cert.ReferenceIdeal.Layer1

open Cert.ReferenceIdeal Cert.ReferenceIdeal.Gen Cert.ReferenceIdeal.RefRun Cert.ReferenceIdeal.RefArgs
open Cert.ReferenceIdeal.Stage Cert.ReferenceIdeal.Agg Cert.ReferenceIdeal.Value
open Idealize.ShloMosaic Idealize.ShloMosaic.TcCoe Idealize.SL.Sem Idealize.ShloMosaic.StableHlo

/-! ## The cut of the line: layer 0's last line ends with the skip sums, layer 1 begins with its first weight slices -/

variable {F : FTy → Type} [FloatOps F] in
/-- The first seven operations of the seventh segment of @main's second window: the end of layer 0 at the 50000 nodes
    (the row norm's floor, the quotient) and the two skip sums. -/
abbrev segB6a : List (HloOp τ sig (Elt F)) :=
  [ StableHlo.nullary main_cst_8 (constant S_ .f32 0x2B8CBCCC#32),
    StableHlo.unary main_cst_8 main_v62 (broadcastInDim S50000x1 ![] bcast_S_S50000x1 : (⟨S_, .f32⟩ : BufTy).Contents (Elt F) → (⟨S50000x1, .f32⟩ : BufTy).Contents (Elt F)),
    StableHlo.binary main_v61 main_v62 main_v63 (maximumf : (⟨S50000x1, .f32⟩ : BufTy).Contents (Elt F) → (⟨S50000x1, .f32⟩ : BufTy).Contents (Elt F) → (⟨S50000x1, .f32⟩ : BufTy).Contents (Elt F)),
    StableHlo.unary main_v63 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v64 main_v65 (Host.divf : (⟨S50000x128, .f32⟩ : BufTy).Contents (Elt F) → (⟨S50000x128, .f32⟩ : BufTy).Contents (Elt F) → (⟨S50000x128, .f32⟩ : BufTy).Contents (Elt F)),
    StableHlo.binary main_v60 main_arg0 main_v66 (addf : (⟨S100000x128, .f32⟩ : BufTy).Contents (Elt F) → (⟨S100000x128, .f32⟩ : BufTy).Contents (Elt F) → (⟨S100000x128, .f32⟩ : BufTy).Contents (Elt F)),
    StableHlo.binary main_v65 main_arg1 main_v67 (addf : (⟨S50000x128, .f32⟩ : BufTy).Contents (Elt F) → (⟨S50000x128, .f32⟩ : BufTy).Contents (Elt F) → (⟨S50000x128, .f32⟩ : BufTy).Contents (Elt F)) ]
variable {F : FTy → Type} [FloatOps F] in
/-- Its last six: layer 1's first weight blocks and bias row, sliced and reshaped. -/
abbrev segB6b : List (HloOp τ sig (Elt F)) :=
  [ StableHlo.unary main_arg2 main_v68 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    StableHlo.reshape main_v68 main_v69 rfl shapeCasts_S1x1x128x128_S128x128,
    StableHlo.unary main_arg3 main_v70 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    StableHlo.reshape main_v70 main_v71 rfl shapeCasts_S1x1x128x128_S128x128,
    StableHlo.unary main_arg4 main_v72 ((extractStridedSlice S1x1x128 ![1, 0, 0] · slices_S2x2x128_S1x1x128_1_0_0) : (⟨S2x2x128, .f32⟩ : BufTy).Contents (Elt F) → (⟨S1x1x128, .f32⟩ : BufTy).Contents (Elt F)),
    StableHlo.reshape main_v72 main_v73 rfl shapeCasts_S1x1x128_S128 ]
variable {F : FTy → Type} [FloatOps F] in
theorem segB6_split : (segB6 : List (HloOp τ sig (Elt F))) = segB6a ++ segB6b := rfl

/-! ## A buffer no operation writes -/

/-- A line of host operations writes no buffer of reference `r`. -/
abbrev NW (l : List (HloOp τ sig (Elt Ideal))) (r : Ref sig .tc) : Prop :=
  l.Forall fun op => (r : DevRef τ sig) ∉ op.writes

/-- Closes `NW seg r` for a literal line and a literal reference: each operation writes one buffer of its own, told
    apart from `r` as references, by computation. -/
macro "not_written" seg:ident : tactic =>
  `(tactic| (simp only [NW, $seg:ident, List.Forall, nullary_writes, unary_writes, binary_writes, ternary_writes, reshape_writes, Finset.mem_singleton]
             repeat' apply And.intro
             all_goals exact devRef_ne_of_ne (by decide)))

/-! ## The typed references' transports

An operation of a module-local function reads and writes through references that carry the value's type; the contents
are moved along the equation between that type and the buffer's. A transport and its converse cancel; at a literal
reference the equation holds by computation and a single transport is the identity. -/

theorem ofBuf_toBuf {T : BufTy} (x : TRef sig T) (v : T.Contents (Elt Ideal)) : x.ofBuf (x.toBuf v) = v := by
  obtain ⟨r, rfl, h1, h2⟩ := x
  rfl

theorem toBuf_v122 (v : (⟨S100000x1, .f32⟩ : BufTy).Contents (Elt Ideal)) :
    (TRef.of main_v122 : TRef sig ⟨S100000x1, .f32⟩).toBuf (Val := Elt Ideal) v = v := rfl
theorem ofBuf_v121 (v : (⟨S100000x128, .f32⟩ : BufTy).Contents (Elt Ideal)) :
    (TRef.of main_v121 : TRef sig ⟨S100000x128, .f32⟩).ofBuf (Val := Elt Ideal) v = v := rfl
theorem toBuf_v127 (v : (⟨S50000x1, .f32⟩ : BufTy).Contents (Elt Ideal)) :
    (TRef.of main_v127 : TRef sig ⟨S50000x1, .f32⟩).toBuf (Val := Elt Ideal) v = v := rfl
theorem ofBuf_v94 (v : (⟨S50000x128, .f32⟩ : BufTy).Contents (Elt Ideal)) :
    (TRef.of main_v94 : TRef sig ⟨S50000x128, .f32⟩).ofBuf (Val := Elt Ideal) v = v := rfl
/-! ## The pieces the stage and the mean are made of -/

/-- The Euclidean norm of each row, as a column (100000 rows). -/
def rowNormG (h : FVec Ideal S100000x128 .f32) : FVec Ideal S100000x1 .f32 :=
  Host.sqrt (F := Ideal) (broadcastInDim S100000x1 ![0] bcast_S100000_S100000x1_0
    (Host.reduceAdd (F := Ideal) (mulf h h) (constant (F := Ideal) S_ .f32 0x00000000#32) reducesTo_S100000x128_S100000_d1 h_S_))
/-- The same for 50000 rows. -/
def rowNormD (h : FVec Ideal S50000x128 .f32) : FVec Ideal S50000x1 .f32 :=
  Host.sqrt (F := Ideal) (broadcastInDim S50000x1 ![0] bcast_S50000_S50000x1_0
    (Host.reduceAdd (F := Ideal) (mulf h h) (constant (F := Ideal) S_ .f32 0x00000000#32) reducesTo_S50000x128_S50000_d1 h_S_))
/-- The messages summed at the 100000 nodes `dst` names. -/
def sumG (msg : FVec Ideal S800000x128 .f32) (dst : Ends) : FVec Ideal S100000x128 .f32 :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 dst) msg
/-- The number of edges ending at each of the 100000 nodes, floored at one, along the row. -/
def countG (dst : Ends) : FVec Ideal S100000x128 .f32 :=
  broadcastInDim S100000x128 ![0, 1] bcast_S100000x1_S100000x128_0_1 (broadcastInDim S100000x1 ![0] bcast_S100000_S100000x1_0
    (maximumf
      (Host.scatterAdd scatter_S100000_S800000x1_S800000_n_0_0_1
        (broadcastInDim S100000 ![] bcast_S_S100000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S100000 ![] bcast_S_S100000 (constant (F := Ideal) S_ .f32 0x3F800000#32))))
theorem meanG_eq (msg : FVec Ideal S800000x128 .f32) (dst : Ends) :
    meanG msg dst = Host.divf (F := Ideal) (sumG msg dst) (countG dst) := rfl
theorem normG_eq (h x : FVec Ideal S100000x128 .f32) :
    normG h x = addf (Host.divf (F := Ideal) h (broadcastInDim S100000x128 ![0, 1] bcast_S100000x1_S100000x128_0_1
      (maximumf (rowNormG h) (broadcastInDim S100000x1 ![] bcast_S_S100000x1 (constant (F := Ideal) S_ .f32 0x2B8CBCCC#32))))) x := rfl
theorem normD_eq (h x : FVec Ideal S50000x128 .f32) :
    normD h x = addf (Host.divf (F := Ideal) h (broadcastInDim S50000x128 ![0, 1] bcast_S50000x1_S50000x128_0_1
      (maximumf (rowNormD h) (broadcastInDim S50000x1 ![] bcast_S_S50000x1 (constant (F := Ideal) S_ .f32 0x2B8CBCCC#32))))) x := rfl

/-! ## What each segment of layer 1 computes, from any contents `V` -/

section Lines

variable (V : Valuation τ sig (Elt Ideal))

/-- The first weight blocks and bias row of layer 1 (block `[1, 0]`). -/
theorem s0_v69 : after segB6b V (Proc.devRef .tc main_v69)
    = shapeCast S128x128 (extractStridedSlice S1x1x128x128 ![1, 0, 0, 0] (V (Proc.devRef .tc main_arg2)) slices_S2x2x128x128_S1x1x128x128_1_0_0_0)
        shapeCasts_S1x1x128x128_S128x128 := by
  after_results_simp
  rfl
theorem s0_v71 : after segB6b V (Proc.devRef .tc main_v71)
    = shapeCast S128x128 (extractStridedSlice S1x1x128x128 ![1, 0, 0, 0] (V (Proc.devRef .tc main_arg3)) slices_S2x2x128x128_S1x1x128x128_1_0_0_0)
        shapeCasts_S1x1x128x128_S128x128 := by
  after_results_simp
  rfl
theorem s0_v73 : after segB6b V (Proc.devRef .tc main_v73) = bvec ![1, 0, 0] slices_S2x2x128_S1x1x128_1_0_0 (V (Proc.devRef .tc main_arg4)) := by
  unfold bvec
  after_results_simp
  rfl

set_option maxRecDepth 8192 in
/-- Layer 1's affine part at the 50000 nodes: the mean of those rows at the `main_arg6` nodes, the two products with
    the transposed blocks, the bias. -/
theorem s2_v94 : after segB8 V (Proc.devRef .tc main_v94)
    = linD (meanD (V (Proc.devRef .tc main_v74)) (V (Proc.devRef .tc main_arg6))) (V (Proc.devRef .tc main_v67))
        (transpose S128x128 [1, 0] (V (Proc.devRef .tc main_v69)) transposes_S128x128_S128x128_1_0) (transpose S128x128 [1, 0] (V (Proc.devRef .tc main_v71)) transposes_S128x128_S128x128_1_0)
        (V (Proc.devRef .tc main_v73)) := by
  unfold linD meanD
  after_results_simp
/-- … and the second weight blocks and bias row (block `[1, 1]`). -/
theorem s2_v96 : after segB8 V (Proc.devRef .tc main_v96)
    = shapeCast S128x128 (extractStridedSlice S1x1x128x128 ![1, 1, 0, 0] (V (Proc.devRef .tc main_arg2)) slices_S2x2x128x128_S1x1x128x128_1_1_0_0)
        shapeCasts_S1x1x128x128_S128x128 := by
  after_results_simp
  rfl
theorem s2_v98 : after segB8 V (Proc.devRef .tc main_v98)
    = shapeCast S128x128 (extractStridedSlice S1x1x128x128 ![1, 1, 0, 0] (V (Proc.devRef .tc main_arg3)) slices_S2x2x128x128_S1x1x128x128_1_1_0_0)
        shapeCasts_S1x1x128x128_S128x128 := by
  after_results_simp
  rfl
theorem s2_v100 : after segB8 V (Proc.devRef .tc main_v100) = bvec ![1, 1, 0] slices_S2x2x128_S1x1x128_1_1_0 (V (Proc.devRef .tc main_arg4)) := by
  unfold bvec
  after_results_simp
  rfl

/-- Those rows summed at the `main_arg8` nodes. -/
theorem s4_v104 : after segB10 V (Proc.devRef .tc main_v104) = sumG (V (Proc.devRef .tc main_v101)) (V (Proc.devRef .tc main_arg8)) := by
  unfold sumG
  after_results_simp

set_option maxRecDepth 8192 in
/-- Layer 1's affine part at the 100000 nodes: the sums over the counts, the two products, the bias. -/
theorem s5_v121 : after segC0 V (Proc.devRef .tc main_v121)
    = linG (Host.divf (F := Ideal) (V (Proc.devRef .tc main_v104)) (countG (V (Proc.devRef .tc main_arg8)))) (V (Proc.devRef .tc main_v66))
        (transpose S128x128 [1, 0] (V (Proc.devRef .tc main_v96)) transposes_S128x128_S128x128_1_0) (transpose S128x128 [1, 0] (V (Proc.devRef .tc main_v98)) transposes_S128x128_S128x128_1_0)
        (V (Proc.devRef .tc main_v100)) := by
  unfold linG countG
  after_results_simp

/-- The row norms of the affine part at the 100000 nodes, the transports still written. -/
theorem s6_v122' : after segC1 V (Proc.devRef .tc main_v122)
    = (TRef.of main_v122 : TRef sig ⟨S100000x1, .f32⟩).toBuf (Val := Elt Ideal)
        (rowNormG ((TRef.of main_v121 : TRef sig ⟨S100000x128, .f32⟩).ofBuf (V (Proc.devRef .tc main_v121)))) := by
  unfold rowNormG
  after_results_simp
  simp only [ofBuf_toBuf]
theorem s6_v122 : after segC1 V (Proc.devRef .tc main_v122) = rowNormG (V (Proc.devRef .tc main_v121)) :=
  (s6_v122' V).trans ((toBuf_v122 _).trans (congrArg rowNormG (ofBuf_v121 _)))

/-- The affine part over its row norms floored at the word of 1e-12. -/
theorem s7_v126 : after segC2 V (Proc.devRef .tc main_v126)
    = Host.divf (F := Ideal) (V (Proc.devRef .tc main_v121)) (broadcastInDim S100000x128 ![0, 1] bcast_S100000x1_S100000x128_0_1
        (maximumf (V (Proc.devRef .tc main_v122)) (broadcastInDim S100000x1 ![] bcast_S_S100000x1 (constant (F := Ideal) S_ .f32 0x2B8CBCCC#32)))) := by
  after_results_simp

/-- The row norms of the affine part at the 50000 nodes, the transports still written. -/
theorem s8_v127' : after segC3 V (Proc.devRef .tc main_v127)
    = (TRef.of main_v127 : TRef sig ⟨S50000x1, .f32⟩).toBuf (Val := Elt Ideal)
        (rowNormD ((TRef.of main_v94 : TRef sig ⟨S50000x128, .f32⟩).ofBuf (V (Proc.devRef .tc main_v94)))) := by
  unfold rowNormD
  after_results_simp
  simp only [ofBuf_toBuf]
theorem s8_v127 : after segC3 V (Proc.devRef .tc main_v127) = rowNormD (V (Proc.devRef .tc main_v94)) :=
  (s8_v127' V).trans ((toBuf_v127 _).trans (congrArg rowNormD (ofBuf_v94 _)))

/-- The last line: the 50000 nodes' quotient, and the two skip sums — the results. -/
theorem s9_v133 : after segC4 V (Proc.devRef .tc main_v133)
    = addf (Host.divf (F := Ideal) (V (Proc.devRef .tc main_v94)) (broadcastInDim S50000x128 ![0, 1] bcast_S50000x1_S50000x128_0_1
        (maximumf (V (Proc.devRef .tc main_v127)) (broadcastInDim S50000x1 ![] bcast_S_S50000x1 (constant (F := Ideal) S_ .f32 0x2B8CBCCC#32))))) (V (Proc.devRef .tc main_v67)) := by
  after_results_simp
theorem s9_v132 : after segC4 V (Proc.devRef .tc main_v132)
    = (addf (V (Proc.devRef .tc main_v126)) (V (Proc.devRef .tc main_v66)) : FVec Ideal S100000x128 .f32) := by
  after_results_simp

end Lines

/-! ## The line cut in two, and the contents between layer 1's segments -/

/-- Layer 0: everything up to the two skip sums. -/
abbrev opsPre : List (HloOp τ sig (Elt Ideal)) := opsA ++ (segB0 ++ (segB1 ++ (segB2 ++ (segB3 ++ (segB4 ++ (segB5 ++ segB6a))))))
/-- Layer 1: everything from its first weight slices on. -/
abbrev opsSuf : List (HloOp τ sig (Elt Ideal)) :=
  segB6b ++ (segB7 ++ (segB8 ++ (segB9 ++ (segB10 ++ (segC0 ++ (segC1 ++ (segC2 ++ (segC3 ++ segC4))))))))

/-- @main's line is layer 0's followed by layer 1's. -/
theorem split : (ops : List (HloOp τ sig (Elt Ideal))) = opsPre ++ opsSuf := by
  simp only [ops, opsB, opsC, opsPre, opsSuf, segB6_split, List.append_assoc]

section Between

variable (V : Valuation τ sig (Elt Ideal))

/-- The contents after layer 1's first `k` segments, from contents `V`. -/
abbrev Y1 : Valuation τ sig (Elt Ideal) := after segB6b V
abbrev Y2 : Valuation τ sig (Elt Ideal) := after segB7 (Y1 V)
abbrev Y3 : Valuation τ sig (Elt Ideal) := after segB8 (Y2 V)
abbrev Y4 : Valuation τ sig (Elt Ideal) := after segB9 (Y3 V)
abbrev Y5 : Valuation τ sig (Elt Ideal) := after segB10 (Y4 V)
abbrev Y6 : Valuation τ sig (Elt Ideal) := after segC0 (Y5 V)
abbrev Y7 : Valuation τ sig (Elt Ideal) := after segC1 (Y6 V)
abbrev Y8 : Valuation τ sig (Elt Ideal) := after segC2 (Y7 V)
abbrev Y9 : Valuation τ sig (Elt Ideal) := after segC3 (Y8 V)
abbrev Y10 : Valuation τ sig (Elt Ideal) := after segC4 (Y9 V)

theorem suf_eq : after opsSuf V = Y10 V := by
  simp only [opsSuf, after_append]

end Between

/-! ### Which segment leaves which buffer alone -/

theorem nw_arg2_0 : NW segB6b main_arg2 := by not_written segB6b
theorem nw_arg2_1 : NW segB7 main_arg2 := by not_written segB7
theorem nw_arg3_0 : NW segB6b main_arg3 := by not_written segB6b
theorem nw_arg3_1 : NW segB7 main_arg3 := by not_written segB7
theorem nw_arg4_0 : NW segB6b main_arg4 := by not_written segB6b
theorem nw_arg4_1 : NW segB7 main_arg4 := by not_written segB7
theorem nw_arg5_0 : NW segB6b main_arg5 := by not_written segB6b
theorem nw_arg6_0 : NW segB6b main_arg6 := by not_written segB6b
theorem nw_arg6_1 : NW segB7 main_arg6 := by not_written segB7
theorem nw_arg7_0 : NW segB6b main_arg7 := by not_written segB6b
theorem nw_arg7_1 : NW segB7 main_arg7 := by not_written segB7
theorem nw_arg7_2 : NW segB8 main_arg7 := by not_written segB8
theorem nw_arg8_0 : NW segB6b main_arg8 := by not_written segB6b
theorem nw_arg8_1 : NW segB7 main_arg8 := by not_written segB7
theorem nw_arg8_2 : NW segB8 main_arg8 := by not_written segB8
theorem nw_arg8_3 : NW segB9 main_arg8 := by not_written segB9
theorem nw_arg8_4 : NW segB10 main_arg8 := by not_written segB10
theorem nw_v100_3 : NW segB9 main_v100 := by not_written segB9
theorem nw_v100_4 : NW segB10 main_v100 := by not_written segB10
theorem nw_v121_6 : NW segC1 main_v121 := by not_written segC1
theorem nw_v126_8 : NW segC3 main_v126 := by not_written segC3
theorem nw_v66_0 : NW segB6b main_v66 := by not_written segB6b
theorem nw_v66_1 : NW segB7 main_v66 := by not_written segB7
theorem nw_v66_2 : NW segB8 main_v66 := by not_written segB8
theorem nw_v66_3 : NW segB9 main_v66 := by not_written segB9
theorem nw_v66_4 : NW segB10 main_v66 := by not_written segB10
theorem nw_v66_5 : NW segC0 main_v66 := by not_written segC0
theorem nw_v66_6 : NW segC1 main_v66 := by not_written segC1
theorem nw_v66_7 : NW segC2 main_v66 := by not_written segC2
theorem nw_v66_8 : NW segC3 main_v66 := by not_written segC3
theorem nw_v66_9 : NW segC4 main_v66 := by not_written segC4
theorem nw_v67_0 : NW segB6b main_v67 := by not_written segB6b
theorem nw_v67_1 : NW segB7 main_v67 := by not_written segB7
theorem nw_v67_2 : NW segB8 main_v67 := by not_written segB8
theorem nw_v67_3 : NW segB9 main_v67 := by not_written segB9
theorem nw_v67_4 : NW segB10 main_v67 := by not_written segB10
theorem nw_v67_5 : NW segC0 main_v67 := by not_written segC0
theorem nw_v67_6 : NW segC1 main_v67 := by not_written segC1
theorem nw_v67_7 : NW segC2 main_v67 := by not_written segC2
theorem nw_v67_8 : NW segC3 main_v67 := by not_written segC3
theorem nw_v67_9 : NW segC4 main_v67 := by not_written segC4
theorem nw_v69_1 : NW segB7 main_v69 := by not_written segB7
theorem nw_v71_1 : NW segB7 main_v71 := by not_written segB7
theorem nw_v73_1 : NW segB7 main_v73 := by not_written segB7
theorem nw_v94_3 : NW segB9 main_v94 := by not_written segB9
theorem nw_v94_4 : NW segB10 main_v94 := by not_written segB10
theorem nw_v94_5 : NW segC0 main_v94 := by not_written segC0
theorem nw_v94_6 : NW segC1 main_v94 := by not_written segC1
theorem nw_v94_7 : NW segC2 main_v94 := by not_written segC2
theorem nw_v94_8 : NW segC3 main_v94 := by not_written segC3
theorem nw_v96_3 : NW segB9 main_v96 := by not_written segB9
theorem nw_v96_4 : NW segB10 main_v96 := by not_written segB10
theorem nw_v98_3 : NW segB9 main_v98 := by not_written segB9
theorem nw_v98_4 : NW segB10 main_v98 := by not_written segB10

section Pass

variable (V : Valuation τ sig (Elt Ideal))

/-! ### The buffers carried from where they are computed to where they are read -/

theorem p_v66_1_0 : Y1 V (Proc.devRef .tc main_v66) = V (Proc.devRef .tc main_v66) :=
  (keeps segB6b V nw_v66_0)
theorem p_arg5_1_0 : Y1 V (Proc.devRef .tc main_arg5) = V (Proc.devRef .tc main_arg5) :=
  (keeps segB6b V nw_arg5_0)
theorem p_arg6_2_0 : Y2 V (Proc.devRef .tc main_arg6) = V (Proc.devRef .tc main_arg6) :=
  ((keeps segB7 (Y1 V) nw_arg6_1).trans (keeps segB6b V nw_arg6_0))
theorem p_v67_2_0 : Y2 V (Proc.devRef .tc main_v67) = V (Proc.devRef .tc main_v67) :=
  ((keeps segB7 (Y1 V) nw_v67_1).trans (keeps segB6b V nw_v67_0))
theorem p_v69_2_1 : Y2 V (Proc.devRef .tc main_v69) = Y1 V (Proc.devRef .tc main_v69) :=
  (keeps segB7 (Y1 V) nw_v69_1)
theorem p_v71_2_1 : Y2 V (Proc.devRef .tc main_v71) = Y1 V (Proc.devRef .tc main_v71) :=
  (keeps segB7 (Y1 V) nw_v71_1)
theorem p_v73_2_1 : Y2 V (Proc.devRef .tc main_v73) = Y1 V (Proc.devRef .tc main_v73) :=
  (keeps segB7 (Y1 V) nw_v73_1)
theorem p_arg2_2_0 : Y2 V (Proc.devRef .tc main_arg2) = V (Proc.devRef .tc main_arg2) :=
  ((keeps segB7 (Y1 V) nw_arg2_1).trans (keeps segB6b V nw_arg2_0))
theorem p_arg3_2_0 : Y2 V (Proc.devRef .tc main_arg3) = V (Proc.devRef .tc main_arg3) :=
  ((keeps segB7 (Y1 V) nw_arg3_1).trans (keeps segB6b V nw_arg3_0))
theorem p_arg4_2_0 : Y2 V (Proc.devRef .tc main_arg4) = V (Proc.devRef .tc main_arg4) :=
  ((keeps segB7 (Y1 V) nw_arg4_1).trans (keeps segB6b V nw_arg4_0))
theorem p_v94_8_3 : Y8 V (Proc.devRef .tc main_v94) = Y3 V (Proc.devRef .tc main_v94) :=
  ((keeps segC2 (Y7 V) nw_v94_7).trans ((keeps segC1 (Y6 V) nw_v94_6).trans ((keeps segC0 (Y5 V) nw_v94_5).trans ((keeps segB10 (Y4 V) nw_v94_4).trans (keeps segB9 (Y3 V) nw_v94_3)))))
theorem p_v94_9_8 : Y9 V (Proc.devRef .tc main_v94) = Y8 V (Proc.devRef .tc main_v94) :=
  (keeps segC3 (Y8 V) nw_v94_8)
theorem p_v67_9_0 : Y9 V (Proc.devRef .tc main_v67) = V (Proc.devRef .tc main_v67) :=
  ((keeps segC3 (Y8 V) nw_v67_8).trans ((keeps segC2 (Y7 V) nw_v67_7).trans ((keeps segC1 (Y6 V) nw_v67_6).trans ((keeps segC0 (Y5 V) nw_v67_5).trans ((keeps segB10 (Y4 V) nw_v67_4).trans ((keeps segB9 (Y3 V) nw_v67_3).trans ((keeps segB8 (Y2 V) nw_v67_2).trans ((keeps segB7 (Y1 V) nw_v67_1).trans (keeps segB6b V nw_v67_0)))))))))
theorem p_v67_3_0 : Y3 V (Proc.devRef .tc main_v67) = V (Proc.devRef .tc main_v67) :=
  ((keeps segB8 (Y2 V) nw_v67_2).trans ((keeps segB7 (Y1 V) nw_v67_1).trans (keeps segB6b V nw_v67_0)))
theorem p_arg7_3_0 : Y3 V (Proc.devRef .tc main_arg7) = V (Proc.devRef .tc main_arg7) :=
  ((keeps segB8 (Y2 V) nw_arg7_2).trans ((keeps segB7 (Y1 V) nw_arg7_1).trans (keeps segB6b V nw_arg7_0)))
theorem p_arg8_4_0 : Y4 V (Proc.devRef .tc main_arg8) = V (Proc.devRef .tc main_arg8) :=
  ((keeps segB9 (Y3 V) nw_arg8_3).trans ((keeps segB8 (Y2 V) nw_arg8_2).trans ((keeps segB7 (Y1 V) nw_arg8_1).trans (keeps segB6b V nw_arg8_0))))
theorem p_arg8_5_0 : Y5 V (Proc.devRef .tc main_arg8) = V (Proc.devRef .tc main_arg8) :=
  ((keeps segB10 (Y4 V) nw_arg8_4).trans ((keeps segB9 (Y3 V) nw_arg8_3).trans ((keeps segB8 (Y2 V) nw_arg8_2).trans ((keeps segB7 (Y1 V) nw_arg8_1).trans (keeps segB6b V nw_arg8_0)))))
theorem p_v66_5_0 : Y5 V (Proc.devRef .tc main_v66) = V (Proc.devRef .tc main_v66) :=
  ((keeps segB10 (Y4 V) nw_v66_4).trans ((keeps segB9 (Y3 V) nw_v66_3).trans ((keeps segB8 (Y2 V) nw_v66_2).trans ((keeps segB7 (Y1 V) nw_v66_1).trans (keeps segB6b V nw_v66_0)))))
theorem p_v96_5_3 : Y5 V (Proc.devRef .tc main_v96) = Y3 V (Proc.devRef .tc main_v96) :=
  ((keeps segB10 (Y4 V) nw_v96_4).trans (keeps segB9 (Y3 V) nw_v96_3))
theorem p_v98_5_3 : Y5 V (Proc.devRef .tc main_v98) = Y3 V (Proc.devRef .tc main_v98) :=
  ((keeps segB10 (Y4 V) nw_v98_4).trans (keeps segB9 (Y3 V) nw_v98_3))
theorem p_v100_5_3 : Y5 V (Proc.devRef .tc main_v100) = Y3 V (Proc.devRef .tc main_v100) :=
  ((keeps segB10 (Y4 V) nw_v100_4).trans (keeps segB9 (Y3 V) nw_v100_3))
theorem p_v121_7_6 : Y7 V (Proc.devRef .tc main_v121) = Y6 V (Proc.devRef .tc main_v121) :=
  (keeps segC1 (Y6 V) nw_v121_6)
theorem p_v126_9_8 : Y9 V (Proc.devRef .tc main_v126) = Y8 V (Proc.devRef .tc main_v126) :=
  (keeps segC3 (Y8 V) nw_v126_8)
theorem p_v66_9_0 : Y9 V (Proc.devRef .tc main_v66) = V (Proc.devRef .tc main_v66) :=
  ((keeps segC3 (Y8 V) nw_v66_8).trans ((keeps segC2 (Y7 V) nw_v66_7).trans ((keeps segC1 (Y6 V) nw_v66_6).trans ((keeps segC0 (Y5 V) nw_v66_5).trans ((keeps segB10 (Y4 V) nw_v66_4).trans ((keeps segB9 (Y3 V) nw_v66_3).trans ((keeps segB8 (Y2 V) nw_v66_2).trans ((keeps segB7 (Y1 V) nw_v66_1).trans (keeps segB6b V nw_v66_0)))))))))
theorem p_v66_10_0 : Y10 V (Proc.devRef .tc main_v66) = V (Proc.devRef .tc main_v66) :=
  ((keeps segC4 (Y9 V) nw_v66_9).trans ((keeps segC3 (Y8 V) nw_v66_8).trans ((keeps segC2 (Y7 V) nw_v66_7).trans ((keeps segC1 (Y6 V) nw_v66_6).trans ((keeps segC0 (Y5 V) nw_v66_5).trans ((keeps segB10 (Y4 V) nw_v66_4).trans ((keeps segB9 (Y3 V) nw_v66_3).trans ((keeps segB8 (Y2 V) nw_v66_2).trans ((keeps segB7 (Y1 V) nw_v66_1).trans (keeps segB6b V nw_v66_0))))))))))
theorem p_v67_10_0 : Y10 V (Proc.devRef .tc main_v67) = V (Proc.devRef .tc main_v67) :=
  ((keeps segC4 (Y9 V) nw_v67_9).trans ((keeps segC3 (Y8 V) nw_v67_8).trans ((keeps segC2 (Y7 V) nw_v67_7).trans ((keeps segC1 (Y6 V) nw_v67_6).trans ((keeps segC0 (Y5 V) nw_v67_5).trans ((keeps segB10 (Y4 V) nw_v67_4).trans ((keeps segB9 (Y3 V) nw_v67_3).trans ((keeps segB8 (Y2 V) nw_v67_2).trans ((keeps segB7 (Y1 V) nw_v67_1).trans (keeps segB6b V nw_v67_0))))))))))

/-! ## Layer 1 at the 50000 nodes -/

/-- The affine part at the 50000 nodes, in what layer 1 starts from. -/
abbrev affD : FVec Ideal S50000x128 .f32 :=
  linD (meanD (takeG (V (Proc.devRef .tc main_v66)) (V (Proc.devRef .tc main_arg5))) (V (Proc.devRef .tc main_arg6))) (V (Proc.devRef .tc main_v67))
    (wmat ![1, 0, 0, 0] slices_S2x2x128x128_S1x1x128x128_1_0_0_0 (V (Proc.devRef .tc main_arg2))) (wmat ![1, 0, 0, 0] slices_S2x2x128x128_S1x1x128x128_1_0_0_0 (V (Proc.devRef .tc main_arg3))) (bvec ![1, 0, 0] slices_S2x2x128_S1x1x128_1_0_0 (V (Proc.devRef .tc main_arg4)))
/-- The affine part at the 100000 nodes. -/
abbrev affG : FVec Ideal S100000x128 .f32 :=
  linG (meanG (takeD (V (Proc.devRef .tc main_v67)) (V (Proc.devRef .tc main_arg7))) (V (Proc.devRef .tc main_arg8))) (V (Proc.devRef .tc main_v66))
    (wmat ![1, 1, 0, 0] slices_S2x2x128x128_S1x1x128x128_1_1_0_0 (V (Proc.devRef .tc main_arg2))) (wmat ![1, 1, 0, 0] slices_S2x2x128x128_S1x1x128x128_1_1_0_0 (V (Proc.devRef .tc main_arg3))) (bvec ![1, 1, 0] slices_S2x2x128_S1x1x128_1_1_0 (V (Proc.devRef .tc main_arg4)))

theorem y2_v74 : Y2 V (Proc.devRef .tc main_v74) = takeG (V (Proc.devRef .tc main_v66)) (V (Proc.devRef .tc main_arg5)) := by
  have h := Takes.take_segB7 (Y1 V)
  rw [p_v66_1_0 V, p_arg5_1_0 V] at h
  exact h
theorem y2_v69 : Y2 V (Proc.devRef .tc main_v69) = shapeCast S128x128 (extractStridedSlice S1x1x128x128 ![1, 0, 0, 0] (V (Proc.devRef .tc main_arg2)) slices_S2x2x128x128_S1x1x128x128_1_0_0_0)
        shapeCasts_S1x1x128x128_S128x128 :=
  (p_v69_2_1 V).trans (s0_v69 V)
theorem y2_v71 : Y2 V (Proc.devRef .tc main_v71) = shapeCast S128x128 (extractStridedSlice S1x1x128x128 ![1, 0, 0, 0] (V (Proc.devRef .tc main_arg3)) slices_S2x2x128x128_S1x1x128x128_1_0_0_0)
        shapeCasts_S1x1x128x128_S128x128 :=
  (p_v71_2_1 V).trans (s0_v71 V)
theorem y2_v73 : Y2 V (Proc.devRef .tc main_v73) = bvec ![1, 0, 0] slices_S2x2x128_S1x1x128_1_0_0 (V (Proc.devRef .tc main_arg4)) :=
  (p_v73_2_1 V).trans (s0_v73 V)

theorem y3_v94 : Y3 V (Proc.devRef .tc main_v94) = affD V := by
  have h := s2_v94 (Y2 V)
  rw [y2_v74 V, p_arg6_2_0 V, p_v67_2_0 V, y2_v69 V, y2_v71 V, y2_v73 V] at h
  exact h
theorem y9_v94 : Y9 V (Proc.devRef .tc main_v94) = affD V :=
  (p_v94_9_8 V).trans ((p_v94_8_3 V).trans (y3_v94 V))
theorem y9_v127 : Y9 V (Proc.devRef .tc main_v127) = rowNormD (affD V) := by
  have h := s8_v127 (Y8 V)
  rw [(p_v94_8_3 V).trans (y3_v94 V)] at h
  exact h

/-- Layer 1's result at the 50000 nodes, from any contents: the stage on the mean of the other type's rows. -/
theorem out_d : after opsSuf V (Proc.devRef .tc main_v133)
    = outD (V (Proc.devRef .tc main_v66)) (V (Proc.devRef .tc main_v67)) (V (Proc.devRef .tc main_arg2)) (V (Proc.devRef .tc main_arg3)) (V (Proc.devRef .tc main_arg4))
        (V (Proc.devRef .tc main_arg5)) (V (Proc.devRef .tc main_arg6)) := by
  have h := s9_v133 (Y9 V)
  rw [y9_v94 V, y9_v127 V, p_v67_9_0 V] at h
  rw [suf_eq]
  exact h

/-! ## Layer 1 at the 100000 nodes -/

theorem y4_v101 : Y4 V (Proc.devRef .tc main_v101) = takeD (V (Proc.devRef .tc main_v67)) (V (Proc.devRef .tc main_arg7)) := by
  have h := Takes.take_segB9 (Y3 V)
  rw [p_v67_3_0 V, p_arg7_3_0 V] at h
  exact h
theorem y5_v104 : Y5 V (Proc.devRef .tc main_v104) = sumG (takeD (V (Proc.devRef .tc main_v67)) (V (Proc.devRef .tc main_arg7))) (V (Proc.devRef .tc main_arg8)) := by
  have h := s4_v104 (Y4 V)
  rw [y4_v101 V, p_arg8_4_0 V] at h
  exact h
theorem y5_v96 : Y5 V (Proc.devRef .tc main_v96) = shapeCast S128x128 (extractStridedSlice S1x1x128x128 ![1, 1, 0, 0] (V (Proc.devRef .tc main_arg2)) slices_S2x2x128x128_S1x1x128x128_1_1_0_0)
        shapeCasts_S1x1x128x128_S128x128 := by
  have h := s2_v96 (Y2 V)
  rw [p_arg2_2_0 V] at h
  exact (p_v96_5_3 V).trans h
theorem y5_v98 : Y5 V (Proc.devRef .tc main_v98) = shapeCast S128x128 (extractStridedSlice S1x1x128x128 ![1, 1, 0, 0] (V (Proc.devRef .tc main_arg3)) slices_S2x2x128x128_S1x1x128x128_1_1_0_0)
        shapeCasts_S1x1x128x128_S128x128 := by
  have h := s2_v98 (Y2 V)
  rw [p_arg3_2_0 V] at h
  exact (p_v98_5_3 V).trans h
theorem y5_v100 : Y5 V (Proc.devRef .tc main_v100) = bvec ![1, 1, 0] slices_S2x2x128_S1x1x128_1_1_0 (V (Proc.devRef .tc main_arg4)) := by
  have h := s2_v100 (Y2 V)
  rw [p_arg4_2_0 V] at h
  exact (p_v100_5_3 V).trans h

theorem y6_v121 : Y6 V (Proc.devRef .tc main_v121) = affG V := by
  have h := s5_v121 (Y5 V)
  rw [y5_v104 V, p_arg8_5_0 V, p_v66_5_0 V, y5_v96 V, y5_v98 V, y5_v100 V] at h
  exact h
theorem y7_v122 : Y7 V (Proc.devRef .tc main_v122) = rowNormG (affG V) := by
  have h := s6_v122 (Y6 V)
  rw [y6_v121 V] at h
  exact h
theorem y8_v126 : Y8 V (Proc.devRef .tc main_v126)
    = Host.divf (F := Ideal) (affG V) (broadcastInDim S100000x128 ![0, 1] bcast_S100000x1_S100000x128_0_1
        (maximumf (rowNormG (affG V)) (broadcastInDim S100000x1 ![] bcast_S_S100000x1 (constant (F := Ideal) S_ .f32 0x2B8CBCCC#32)))) := by
  have h := s7_v126 (Y7 V)
  rw [(p_v121_7_6 V).trans (y6_v121 V), y7_v122 V] at h
  exact h

/-- Layer 1's result at the 100000 nodes, from any contents. -/
theorem out_g : after opsSuf V (Proc.devRef .tc main_v132)
    = outG (V (Proc.devRef .tc main_v66)) (V (Proc.devRef .tc main_v67)) (V (Proc.devRef .tc main_arg2)) (V (Proc.devRef .tc main_arg3)) (V (Proc.devRef .tc main_arg4))
        (V (Proc.devRef .tc main_arg7)) (V (Proc.devRef .tc main_arg8)) := by
  have h := s9_v132 (Y9 V)
  rw [(p_v126_9_8 V).trans (y8_v126 V), p_v66_9_0 V] at h
  rw [suf_eq]
  exact h

/-- Layer 1 writes neither of layer 0's results. -/
theorem suf_v66 : after opsSuf V (Proc.devRef .tc main_v66) = V (Proc.devRef .tc main_v66) := by
  rw [suf_eq]; exact p_v66_10_0 V
theorem suf_v67 : after opsSuf V (Proc.devRef .tc main_v67) = V (Proc.devRef .tc main_v67) := by
  rw [suf_eq]; exact p_v67_10_0 V

end Pass

/-! ## The whole line: layer 1's results from layer 0's -/

/-- The first part of the cut segment writes no argument's buffer, as the whole segment does not. -/
theorem segB6a_args : ∀ r ∈ argRefs, (segB6a : List (HloOp τ sig (Elt Ideal))).Forall fun op => (r : DevRef τ sig) ∉ op.writes :=
  fun r hr => (List.forall_append.1 (show (segB6a ++ segB6b : List (HloOp τ sig (Elt Ideal))).Forall _ from segB6_args r hr)).1

/-- Layer 0's line writes no argument's buffer. -/
theorem pre_args : ∀ r ∈ argRefs, (opsPre : List (HloOp τ sig (Elt Ideal))).Forall fun op => (r : DevRef τ sig) ∉ op.writes :=
  fun r hr =>
    forall_append_of
      (forall_append_of (forall_append_of (forall_append_of (forall_append_of (segA0_args r hr) (segA1_args r hr)) (segA2_args r hr)) (segA3_args r hr)) (segA4_args r hr))
      (forall_append_of (segB0_args r hr) (forall_append_of (segB1_args r hr) (forall_append_of (segB2_args r hr) (forall_append_of (segB3_args r hr) (forall_append_of (segB4_args r hr) (forall_append_of (segB5_args r hr) (segB6a_args r hr)))))))

section Whole

variable (V : Valuation τ sig (Elt Ideal))

theorem pre_arg (r : Ref sig .tc) (hr : r ∈ argRefs) : after opsPre V (Proc.devRef .tc r) = V (Proc.devRef .tc r) :=
  keeps opsPre V (pre_args r hr)

/-- The fold through @main's line is the fold through layer 1's from the fold through layer 0's. -/
theorem after_ops : after ops V = after opsSuf (after opsPre V) := by
  rw [split, after_append]

/-- Layer 0's results are the same read after layer 0's line or after the whole line. -/
theorem pre_v66 : after opsPre V (Proc.devRef .tc main_v66) = after ops V (Proc.devRef .tc main_v66) := by
  rw [after_ops]; exact (suf_v66 (after opsPre V)).symm
theorem pre_v67 : after opsPre V (Proc.devRef .tc main_v67) = after ops V (Proc.devRef .tc main_v67) := by
  rw [after_ops]; exact (suf_v67 (after opsPre V)).symm

/-- @main's result at the 100000 nodes, given layer 0's two results. -/
theorem v132_of {X66 : FVec Ideal S100000x128 .f32} {X67 : FVec Ideal S50000x128 .f32}
    (h66 : after opsPre V (Proc.devRef .tc main_v66) = X66) (h67 : after opsPre V (Proc.devRef .tc main_v67) = X67) :
    after ops V (Proc.devRef .tc main_v132)
      = outG X66 X67 (V (Proc.devRef .tc main_arg2)) (V (Proc.devRef .tc main_arg3)) (V (Proc.devRef .tc main_arg4)) (V (Proc.devRef .tc main_arg7)) (V (Proc.devRef .tc main_arg8)) := by
  have h := out_g (after opsPre V)
  rw [h66, h67, pre_arg V main_arg2 (by decide), pre_arg V main_arg3 (by decide), pre_arg V main_arg4 (by decide), pre_arg V main_arg7 (by decide), pre_arg V main_arg8 (by decide)] at h
  rw [after_ops]
  exact h

/-- @main's result at the 50000 nodes, given layer 0's two results. -/
theorem v133_of {X66 : FVec Ideal S100000x128 .f32} {X67 : FVec Ideal S50000x128 .f32}
    (h66 : after opsPre V (Proc.devRef .tc main_v66) = X66) (h67 : after opsPre V (Proc.devRef .tc main_v67) = X67) :
    after ops V (Proc.devRef .tc main_v133)
      = outD X66 X67 (V (Proc.devRef .tc main_arg2)) (V (Proc.devRef .tc main_arg3)) (V (Proc.devRef .tc main_arg4)) (V (Proc.devRef .tc main_arg5)) (V (Proc.devRef .tc main_arg6)) := by
  have h := out_d (after opsPre V)
  rw [h66, h67, pre_arg V main_arg2 (by decide), pre_arg V main_arg3 (by decide), pre_arg V main_arg4 (by decide), pre_arg V main_arg5 (by decide), pre_arg V main_arg6 (by decide)] at h
  rw [after_ops]
  exact h

end Whole

end Cert.ReferenceIdeal.Layer1

end
-- ==== Proof.RefValue.lean ====
/-
  The reference run's two results as functions of its arguments.

  The operation list is layer 0 followed by layer 1. Layer 0 leaves the two first-layer arrays (the layer-0 module, over
  the list up to the second layer's first weight slices and those slices themselves); the six slice and reshape
  operations write neither array; layer 1 computes the two results from the two arrays and the arguments (the layer-1
  module). Joined: the results are the second layer's stages of the first layer's stages of the arguments.
-/
import proofs.«118446_j88244398064001_1_alg».proof.Proof.RefLayer0
import proofs.«118446_j88244398064001_1_alg».proof.Proof.RefLayer1

set_option maxRecDepth 16384

noncomputable section

namespace Cert.ReferenceIdeal.Value

open Cert.ReferenceIdeal Cert.ReferenceIdeal.RefRun Cert.ReferenceIdeal.RefArgs
open Idealize.ShloMosaic Idealize.ShloMosaic.TcCoe Idealize.SL.Sem Idealize.ShloMosaic.StableHlo

variable (V : Valuation τ sig (Elt Ideal))

/-- Layer 0's operations are the list up to the skip sums followed by the second layer's first six slice and reshape
    operations. -/
theorem pre_split : after Layer0.pre V = after (Layer1.segB6b (F := Ideal)) (after Layer1.opsPre V) := by
  simp only [Layer0.pre, Layer1.opsPre, Layer1.segB6_split, StableHlo.after_append]

/-- Those six operations write neither first-layer array. -/
theorem b6b_v66 (U : Valuation τ sig (Elt Ideal)) :
    after (Layer1.segB6b (F := Ideal)) U (main_v66 : DevRef τ sig) = U (main_v66 : DevRef τ sig) :=
  keeps _ U (by
    simp only [Layer1.segB6b, List.Forall, unary_writes, reshape_writes, Finset.mem_singleton]
    repeat' apply And.intro
    all_goals exact devRef_ne_of_ne (by decide))

theorem b6b_v67 (U : Valuation τ sig (Elt Ideal)) :
    after (Layer1.segB6b (F := Ideal)) U (main_v67 : DevRef τ sig) = U (main_v67 : DevRef τ sig) :=
  keeps _ U (by
    simp only [Layer1.segB6b, List.Forall, unary_writes, reshape_writes, Finset.mem_singleton]
    repeat' apply And.intro
    all_goals exact devRef_ne_of_ne (by decide))

/-- The first-layer array of the 100000-row type, where layer 1 is entered. -/
theorem h66 : after Layer1.opsPre V (main_v66 : DevRef τ sig)
    = xg1 (V (main_arg0 : DevRef τ sig)) (V (main_arg1 : DevRef τ sig)) (V (main_arg2 : DevRef τ sig)) (V (main_arg3 : DevRef τ sig))
        (V (main_arg4 : DevRef τ sig)) (V (main_arg7 : DevRef τ sig)) (V (main_arg8 : DevRef τ sig)) :=
  ((b6b_v66 _).symm.trans (congrFun (pre_split V).symm _)).trans (Layer0.v66_pre V)

/-- The first-layer array of the 50000-row type, where layer 1 is entered. -/
theorem h67 : after Layer1.opsPre V (main_v67 : DevRef τ sig)
    = xd1 (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) :=
  ((b6b_v67 _).symm.trans (congrFun (pre_split V).symm _)).trans (Layer0.v67_pre V)

/-- The first result: the second layer's rows of the 100000-row type. -/
theorem v132_eq : after ops V (main_v132 : DevRef τ sig)
    = outG (xg1 (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)))
        (xd1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)))
        (V (main_arg2 : DevRef τ sig)) (V (main_arg3 : DevRef τ sig)) (V (main_arg4 : DevRef τ sig)) (V (main_arg7 : DevRef τ sig)) (V (main_arg8 : DevRef τ sig)) :=
  Layer1.v132_of V (h66 V) (h67 V)

/-- The second result: the second layer's rows of the 50000-row type. -/
theorem v133_eq : after ops V (main_v133 : DevRef τ sig)
    = outD (xg1 (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)))
        (xd1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)))
        (V (main_arg2 : DevRef τ sig)) (V (main_arg3 : DevRef τ sig)) (V (main_arg4 : DevRef τ sig)) (V (main_arg5 : DevRef τ sig)) (V (main_arg6 : DevRef τ sig)) :=
  Layer1.v133_of V (h66 V) (h67 V)

end Cert.ReferenceIdeal.Value

end
-- ==== Proof.AggBridge.lean ====
/-
  The message-passing step read in the two programs is one function: the two spellings (the reference program's and the
  kernel program's) name the same shapes, the same dimension records and the same operations in the same order, so each
  pair of definitions is equal by unfolding.
-/
import proofs.«118446_j88244398064001_1_alg».proof.Proof.RefAgg
import proofs.«118446_j88244398064001_1_alg».proof.Proof.KAgg

noncomputable section

namespace Cert.AggBridge

open Idealize.ShloMosaic

/-- Rows of the 100000-row table taken at the edge endpoints: the reference's reading is the kernel program's. -/
theorem takeG_eq (x : FVec Ideal Cert.ReferenceIdeal.S100000x128 .f32) (idx : Cert.ReferenceIdeal.Agg.Ends) :
    Cert.ReferenceIdeal.Agg.takeG x idx = Cert.KernelIdeal.Agg.takeG x idx := rfl

/-- Rows of the 50000-row table taken at the edge endpoints. -/
theorem takeD_eq (x : FVec Ideal Cert.ReferenceIdeal.S50000x128 .f32) (idx : Cert.ReferenceIdeal.Agg.Ends) :
    Cert.ReferenceIdeal.Agg.takeD x idx = Cert.KernelIdeal.Agg.takeD x idx := rfl

/-- The mean of the messages arriving at each of the 50000 nodes. -/
theorem meanD_eq (msg : FVec Ideal Cert.ReferenceIdeal.S800000x128 .f32) (dst : Cert.ReferenceIdeal.Agg.Ends) :
    Cert.ReferenceIdeal.Agg.meanD msg dst = Cert.KernelIdeal.Agg.meanD msg dst := rfl

/-- The mean of the messages arriving at each of the 100000 nodes. -/
theorem meanG_eq (msg : FVec Ideal Cert.ReferenceIdeal.S800000x128 .f32) (dst : Cert.ReferenceIdeal.Agg.Ends) :
    Cert.ReferenceIdeal.Agg.meanG msg dst = Cert.KernelIdeal.Agg.meanG msg dst := rfl

end Cert.AggBridge

end
-- ==== Proof.Bridge.lean ====
/-
  The two programs' results are one function of the arguments.

  The reference composes, per layer and node type, the message-passing mean, the two matrix products with the bias, the
  activation, the row normalisation and the skip sum; each such stage is the layer's row function of its inputs (the
  stage theorems), and the kernel program's results are the same row functions of the same means (the kernel's final
  values). The means are the same host operations in both programs.
-/
import proofs.«118446_j88244398064001_1_alg».proof.Proof.Spec
import proofs.«118446_j88244398064001_1_alg».proof.Proof.KAgg
import proofs.«118446_j88244398064001_1_alg».proof.Proof.KFinal
import proofs.«118446_j88244398064001_1_alg».proof.Proof.RefAgg
import proofs.«118446_j88244398064001_1_alg».proof.Proof.RefStage
import proofs.«118446_j88244398064001_1_alg».proof.Proof.AggBridge
import proofs.«118446_j88244398064001_1_alg».proof.Proof.RefDefs

set_option maxRecDepth 16384

noncomputable section

namespace Cert.Bridge

open Idealize.ShloMosaic Idealize.ShloMosaic.ValueIdx

open Cert.ReferenceIdeal in
/-- The first layer's rows of the 50000-row type: the reference's chain is the kernel program's rows. -/
theorem xd1_eq (a0 : FVec Ideal S100000x128 .f32) (a1 : FVec Ideal S50000x128 .f32) (W1 W2 : FVec Ideal S2x2x128x128 .f32)
    (B : FVec Ideal S2x2x128 .f32) (i5 i6 : Cert.ReferenceIdeal.Agg.Ends) :
    Cert.ReferenceIdeal.Value.xd1 a0 a1 W1 W2 B i5 i6 = Cert.KernelIdeal.Final.xd1 a0 a1 W1 W2 B i5 i6 := by
  unfold Cert.ReferenceIdeal.Value.xd1 Cert.KernelIdeal.Final.xd1
  refine (Cert.ReferenceIdeal.Stage.stageD_relu ![0, 0, 0, 0] _ ![0, 0, 0] _ 0 0 rfl rfl _ _ _ _ _).trans ?_
  rw [Cert.AggBridge.takeG_eq, Cert.AggBridge.meanD_eq]

open Cert.ReferenceIdeal in
/-- The first layer's rows of the 100000-row type. -/
theorem xg1_eq (a0 : FVec Ideal S100000x128 .f32) (a1 : FVec Ideal S50000x128 .f32) (W1 W2 : FVec Ideal S2x2x128x128 .f32)
    (B : FVec Ideal S2x2x128 .f32) (i7 i8 : Cert.ReferenceIdeal.Agg.Ends) :
    Cert.ReferenceIdeal.Value.xg1 a0 a1 W1 W2 B i7 i8 = Cert.KernelIdeal.Final.xg1 a0 a1 W1 W2 B i7 i8 := by
  unfold Cert.ReferenceIdeal.Value.xg1 Cert.KernelIdeal.Final.xg1
  refine (Cert.ReferenceIdeal.Stage.stageG_relu ![0, 1, 0, 0] _ ![0, 1, 0] _ 0 1 rfl rfl _ _ _ _ _).trans ?_
  rw [Cert.AggBridge.takeD_eq, Cert.AggBridge.meanG_eq]

open Cert.ReferenceIdeal in
/-- The last layer's rows of the 50000-row type, from any first-layer arrays. -/
theorem outD_eq (xg : FVec Ideal S100000x128 .f32) (xd : FVec Ideal S50000x128 .f32) (W1 W2 : FVec Ideal S2x2x128x128 .f32)
    (B : FVec Ideal S2x2x128 .f32) (i5 i6 : Cert.ReferenceIdeal.Agg.Ends) :
    Cert.ReferenceIdeal.Value.outD xg xd W1 W2 B i5 i6 = Cert.KernelIdeal.Final.outD xg xd W1 W2 B i5 i6 := by
  unfold Cert.ReferenceIdeal.Value.outD Cert.KernelIdeal.Final.outD
  refine (Cert.ReferenceIdeal.Stage.stageD_lin ![1, 0, 0, 0] _ ![1, 0, 0] _ 1 0 rfl rfl _ _ _ _ _).trans ?_
  rw [Cert.AggBridge.takeG_eq, Cert.AggBridge.meanD_eq]

open Cert.ReferenceIdeal in
/-- The last layer's rows of the 100000-row type. -/
theorem outG_eq (xg : FVec Ideal S100000x128 .f32) (xd : FVec Ideal S50000x128 .f32) (W1 W2 : FVec Ideal S2x2x128x128 .f32)
    (B : FVec Ideal S2x2x128 .f32) (i7 i8 : Cert.ReferenceIdeal.Agg.Ends) :
    Cert.ReferenceIdeal.Value.outG xg xd W1 W2 B i7 i8 = Cert.KernelIdeal.Final.outG xg xd W1 W2 B i7 i8 := by
  unfold Cert.ReferenceIdeal.Value.outG Cert.KernelIdeal.Final.outG
  refine (Cert.ReferenceIdeal.Stage.stageG_lin ![1, 1, 0, 0] _ ![1, 1, 0] _ 1 1 rfl rfl _ _ _ _ _).trans ?_
  rw [Cert.AggBridge.takeD_eq, Cert.AggBridge.meanG_eq]

end Cert.Bridge

end
-- ==== Proof.lean ====
/-
  The certificate: the three frames, the idealization's conjunct and the algebraic equivalence.

  Both idealized programs are two layers of a mean-aggregation graph convolution over two node types with 100000 and
  50000 nodes: per layer and node type the mean of the neighbours' rows over the incoming edges, then for every node the
  row  φ(mean·Wlᵀ + x·Wrᵀ + b) / max(‖·‖₂, ε) + x  (φ the maximum with zero in the first layer, the identity in the
  last). The kernel program computes the per-node part in four kernel regions over blocks of 5000 rows with the
  products taken against pre-transposed weight blocks; the reference computes it with host operations on whole arrays.
  On the extended reals the two are the same function of the arguments, index by index: a block of a row-wise function
  is the function on the block's rows, a matrix product into a zero accumulator is the plain sum of products, and a
  lane sum is the host's sum. No law needing finite inputs is used.
-/
import proofs.«118446_j88244398064001_1_alg».proof.Defs
import proofs.«118446_j88244398064001_1_alg».proof.Proof.Gen.Kernel
import proofs.«118446_j88244398064001_1_alg».proof.Proof.Gen.Kernel.Frame
import proofs.«118446_j88244398064001_1_alg».proof.Proof.Gen.KernelIdeal
import proofs.«118446_j88244398064001_1_alg».proof.Proof.Gen.KernelIdeal.Frame
import proofs.«118446_j88244398064001_1_alg».proof.Proof.Gen.ReferenceIdeal
import proofs.«118446_j88244398064001_1_alg».proof.Proof.Gen.Pre_finite_inputs
import proofs.«118446_j88244398064001_1_alg».proof.Proof.KRun
import proofs.«118446_j88244398064001_1_alg».proof.Proof.KFinal
import proofs.«118446_j88244398064001_1_alg».proof.Proof.RefRun
import proofs.«118446_j88244398064001_1_alg».proof.Proof.RefArgs
import proofs.«118446_j88244398064001_1_alg».proof.Proof.RefValue
import proofs.«118446_j88244398064001_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments: the generated frame. -/
theorem frame_k : @Cert.frame_Kernel Cert.Kernel.Gen.facts Cert.Pre_finite_inputs.Gen.facts :=
  fun m ρ _ => Cert.Kernel.Gen.frame m ρ

/-- The idealized kernel program likewise. -/
theorem frame_ki : @Cert.frame_KernelIdeal Cert.KernelIdeal.Gen.facts Cert.Pre_finite_inputs.Gen.facts :=
  fun m ρ _ => Cert.KernelIdeal.Gen.frame m ρ

/-- The reference is a straight line of host operations none of which writes an argument. -/
theorem frame_ri : @Cert.frame_ReferenceIdeal Cert.ReferenceIdeal.Gen.facts Cert.Pre_finite_inputs.Gen.facts :=
  fun m ρ _ => (θ_run (Cert.ReferenceIdeal.defs (F := Ideal)) _ _).mono
    (fun r h c => ⟨(h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _),
      (h c Cert.ReferenceIdeal.main_arg7).trans (Cert.ReferenceIdeal.RefArgs.arg7_eq _),
      (h c Cert.ReferenceIdeal.main_arg8).trans (Cert.ReferenceIdeal.RefArgs.arg8_eq _)⟩)
    (Cert.ReferenceIdeal.RefRun.run_main (F := Ideal) m ρ)

/-- The ideal pass rewrote nothing: the idealization is the program's own text read on the extended reals. -/
theorem preserves : Cert.preserves_Kernel_KernelIdeal := trivial

/-- Both idealized programs end with the two layers' row functions of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, (θ_run (Cert.KernelIdeal.defs (F := Ideal)) _ _).mono
      (fun r h c => ⟨(h c).1.trans (Cert.KernelIdeal.Final.k_xg2 m ρ c), (h c).2.1.trans (Cert.KernelIdeal.Final.k_xd2 m ρ c), (h c).2.2⟩)
      (Cert.KernelIdeal.Run.run_results (F := Ideal) m ρ), ?_⟩
  refine (θ_run (Cert.ReferenceIdeal.defs (F := Ideal)) _ _).mono (fun r h c => ⟨?_, ?_,
      (h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _),
      (h c Cert.ReferenceIdeal.main_arg7).trans (Cert.ReferenceIdeal.RefArgs.arg7_eq _),
      (h c Cert.ReferenceIdeal.main_arg8).trans (Cert.ReferenceIdeal.RefArgs.arg8_eq _)⟩)
    (Cert.ReferenceIdeal.RefRun.run_main (F := Ideal) m' ρ')
  · refine (h c Cert.ReferenceIdeal.main_v132).trans ?_
    obtain ⟨h0, h1, h2, h3, h4, h5, h6, h7, h8⟩ := hagree c
    rw [Cert.ReferenceIdeal.Value.v132_eq, Cert.Bridge.outG_eq, Cert.Bridge.xg1_eq, Cert.Bridge.xd1_eq]
    show Cert.KernelIdeal.Final.outG
        (Cert.KernelIdeal.Final.xg1 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg7)) (m' ((c.tc : Thread _ _).loc Cert.ReferenceIdeal.main_arg8)))
        (Cert.KernelIdeal.Final.xd1 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)))
        (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg7)) (m' ((c.tc : Thread _ _).loc Cert.ReferenceIdeal.main_arg8)) = _
    rw [h0, h1, h2, h3, h4, h5, h6, h7, h8]
  · refine (h c Cert.ReferenceIdeal.main_v133).trans ?_
    obtain ⟨h0, h1, h2, h3, h4, h5, h6, h7, h8⟩ := hagree c
    rw [Cert.ReferenceIdeal.Value.v133_eq, Cert.Bridge.outD_eq, Cert.Bridge.xg1_eq, Cert.Bridge.xd1_eq]
    show Cert.KernelIdeal.Final.outD
        (Cert.KernelIdeal.Final.xg1 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg7)) (m' ((c.tc : Thread _ _).loc Cert.ReferenceIdeal.main_arg8)))
        (Cert.KernelIdeal.Final.xd1 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)))
        (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) = _
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
